-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v67)) (v2 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_v69) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x4096x1 : Shape := ⟨3, ![8, 4096, 1]⟩
abbrev S8x4096 : Shape := ⟨2, ![8, 4096]⟩
abbrev S_ : Shape := ⟨0, ![]⟩
abbrev S8x4096x8 : Shape := ⟨3, ![8, 4096, 8]⟩
abbrev S8x1x4096 : Shape := ⟨3, ![8, 1, 4096]⟩
abbrev S8x8x4096 : Shape := ⟨3, ![8, 8, 4096]⟩
abbrev S1x1024x8 : Shape := ⟨3, ![1, 1024, 8]⟩
abbrev S1x8x1024 : Shape := ⟨3, ![1, 8, 1024]⟩
abbrev S1x1024x1 : Shape := ⟨3, ![1, 1024, 1]⟩
abbrev S1x1x4096 : Shape := ⟨3, ![1, 1, 4096]⟩
abbrev S1024x8 : Shape := ⟨2, ![1024, 8]⟩
abbrev S8x1024 : Shape := ⟨2, ![8, 1024]⟩
abbrev S1024x1024 : Shape := ⟨2, ![1024, 1024]⟩
abbrev S1024x1 : Shape := ⟨2, ![1024, 1]⟩
abbrev S1024 : Shape := ⟨1, ![1024]⟩
abbrev S1x4096 : Shape := ⟨2, ![1, 4096]⟩
abbrev S1x1024 : Shape := ⟨2, ![1, 1024]⟩
abbrev S1x1x1024 : Shape := ⟨3, ![1, 1, 1024]⟩
abbrev S8 : Shape := ⟨1, ![8]⟩

abbrev nBuf : Space → Nat
  | .hbm => 91
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x1, .f32⟩
  | .hbm, ⟨3, _⟩ => ⟨S8x4096, .f32⟩
  | .hbm, ⟨4, _⟩ => ⟨S8x4096x1, .f32⟩
  | .hbm, ⟨5, _⟩ => ⟨S8x4096, .f32⟩
  | .hbm, ⟨6, _⟩ => ⟨S8x4096x1, .f32⟩
  | .hbm, ⟨7, _⟩ => ⟨S8x4096, .f32⟩
  | .hbm, ⟨8, _⟩ => ⟨S8x4096, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S8x4096, .f32⟩
  | .hbm, ⟨13, _⟩ => ⟨S_, .f32⟩
  | .hbm, ⟨14, _⟩ => ⟨S8x4096, .f32⟩
  | .hbm, ⟨15, _⟩ => ⟨S_, .f32⟩
  | .hbm, ⟨16, _⟩ => ⟨S8x4096, .f32⟩
  | .hbm, ⟨17, _⟩ => ⟨S_, .f32⟩
  | .hbm, ⟨18, _⟩ => ⟨S8x4096, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S8x4096, .f32⟩
  | .hbm, ⟨26, _⟩ => ⟨S8x4096x1, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096x8, .f32⟩
  | .hbm, ⟨35, _⟩ => ⟨S8x4096x1, .f32⟩
  | .hbm, ⟨36, _⟩ => ⟨S8x4096, .f32⟩
  | .hbm, ⟨37, _⟩ => ⟨S8x4096x1, .f32⟩
  | .hbm, ⟨38, _⟩ => ⟨S8x4096, .f32⟩
  | .hbm, ⟨39, _⟩ => ⟨S8x4096x1, .f32⟩
  | .hbm, ⟨40, _⟩ => ⟨S8x4096, .f32⟩
  | .hbm, ⟨41, _⟩ => ⟨S8x4096, .f32⟩
  | .hbm, ⟨42, _⟩ => ⟨S8x4096, .f32⟩
  | .hbm, ⟨43, _⟩ => ⟨S8x4096, .f32⟩
  | .hbm, ⟨44, _⟩ => ⟨S8x4096, .f32⟩
  | .hbm, ⟨45, _⟩ => ⟨S8x4096, .f32⟩
  | .hbm, ⟨46, _⟩ => ⟨S_, .f32⟩
  | .hbm, ⟨47, _⟩ => ⟨S8x4096, .f32⟩
  | .hbm, ⟨48, _⟩ => ⟨S_, .f32⟩
  | .hbm, ⟨49, _⟩ => ⟨S8x4096, .f32⟩
  | .hbm, ⟨50, _⟩ => ⟨S8x1x4096, .f32⟩
  | .hbm, ⟨51, _⟩ => ⟨S8x1x4096, .f32⟩
  | .hbm, ⟨52, _⟩ => ⟨S8x1x4096, .f32⟩
  | .hbm, ⟨53, _⟩ => ⟨S8x1x4096, .f32⟩
  | .hbm, ⟨54, _⟩ => ⟨S8x1x4096, .f32⟩
  | .hbm, ⟨55, _⟩ => ⟨S8x1x4096, .f32⟩
  | .hbm, ⟨56, _⟩ => ⟨S8x1x4096, .f32⟩
  | .hbm, ⟨57, _⟩ => ⟨S8x1x4096, .f32⟩
  | .hbm, ⟨58, _⟩ => ⟨S8x8x4096, .f32⟩
  | .hbm, ⟨59, _⟩ => ⟨S8x4096x1, .f32⟩
  | .hbm, ⟨60, _⟩ => ⟨S8x1x4096, .f32⟩
  | .hbm, ⟨61, _⟩ => ⟨S8x4096, .f32⟩
  | .hbm, ⟨62, _⟩ => ⟨S8x4096, .f32⟩
  | .hbm, ⟨63, _⟩ => ⟨S_, .f32⟩
  | .hbm, ⟨64, _⟩ => ⟨S8, .f32⟩
  | .hbm, ⟨65, _⟩ => ⟨S_, .f32⟩
  | .hbm, ⟨66, _⟩ => ⟨S8, .f32⟩
  | .hbm, ⟨67, _⟩ => ⟨S8, .f32⟩
  | .hbm, ⟨68, _⟩ => ⟨S8, .f32⟩
  | .hbm, ⟨69, _⟩ => ⟨S_, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S8, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .local _ .vmem, ⟨0, _⟩ => ⟨S1x1024x8, .f32⟩
  | .local _ .vmem, ⟨1, _⟩ => ⟨S1x1024x8, .f32⟩
  | .local _ .vmem, ⟨2, _⟩ => ⟨S1x8x1024, .f32⟩
  | .local _ .vmem, ⟨3, _⟩ => ⟨S1x8x1024, .f32⟩
  | .local _ .vmem, ⟨4, _⟩ => ⟨S1x1024x1, .f32⟩
  | .local _ .vmem, ⟨5, _⟩ => ⟨S1x1024x1, .f32⟩
  | .local _ .vmem, ⟨6, _⟩ => ⟨S1x1x4096, .f32⟩
  | .local _ .vmem, ⟨7, _⟩ => ⟨S1x1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_4 : Ref sig .tc := ⟨.hbm, 46, rfl⟩
abbrev main_v39 : Ref sig .tc := ⟨.hbm, 47, rfl⟩
abbrev main_cst_5 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50_0 : Ref sig .tc := ⟨.hbm, 59, rfl⟩
abbrev main_v50_1 : Ref sig .tc := ⟨.hbm, 60, rfl⟩
abbrev main_v51 : Ref sig .tc := ⟨.hbm, 61, rfl⟩
abbrev main_v52 : Ref sig .tc := ⟨.hbm, 62, rfl⟩
abbrev main_cst_6 : Ref sig .tc := ⟨.hbm, 63, rfl⟩
abbrev main_v53 : Ref sig .tc := ⟨.hbm, 64, rfl⟩
abbrev main_cst_7 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_cst_9 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_10 : Ref sig .tc := ⟨.hbm, 76, rfl⟩
abbrev main_v62 : Ref sig .tc := ⟨.hbm, 77, rfl⟩
abbrev main_v63 : Ref sig .tc := ⟨.hbm, 78, rfl⟩
abbrev main_cst_11 : Ref sig .tc := ⟨.hbm, 79, rfl⟩
abbrev main_v64 : Ref sig .tc := ⟨.hbm, 80, rfl⟩
abbrev main_cst_12 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_cst_16 : Ref sig .tc := ⟨.hbm, 89, rfl⟩
abbrev main_v69 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c1024_i32 : BitVec 32 := 1024#32
  let v23 : BitVec 32 := Scalar.muli arg2 c1024_i32
  v23
def k0_off1 (i : grid0.Coords) : Fin 3 → Nat :=
  let c0_18 : Index := 0#32
  let c0_19 : Index := 0#32
  let arg2 : BitVec 32 := BitVec.ofNat 32 (i 2).val
  let c1024_i32 : BitVec 32 := 1024#32
  let v23 : BitVec 32 := Scalar.muli arg2 c1024_i32
  let v24 : BitVec 32 := v23
  let v27 : Index := Scalar.indexCast v24
  ![0, 0, v27.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  slices_S8x4096x3_S8x4096x1_0_0_0 : S8x4096x3.Slices ![0, 0, 0] S8x4096x1
  shapeCasts_S8x4096x1_S8x4096 : S8x4096x1.ShapeCasts S8x4096
  slices_S8x4096x3_S8x4096x1_0_0_1 : S8x4096x3.Slices ![0, 0, 1] S8x4096x1
  slices_S8x4096x3_S8x4096x1_0_0_2 : S8x4096x3.Slices ![0, 0, 2] S8x4096x1
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  concatenates_S8x4096x1_S8x4096x1_S8x4096x1_S8x4096x1_S8x4096x1_S8x4096x1_S8x4096x1_S8x4096x1_S8x4096x8_d2 : Shape.Concatenates [S8x4096x1, S8x4096x1, S8x4096x1, S8x4096x1, S8x4096x1, S8x4096x1, S8x4096x1, S8x4096x1] S8x4096x8 2
  bcast_S8x4096_S8x1x4096_0_2 : S8x4096.BroadcastsInDim S8x1x4096 (![0, 2] : Fin 2 → Fin S8x1x4096.rank)
  concatenates_S8x1x4096_S8x1x4096_S8x1x4096_S8x1x4096_S8x1x4096_S8x1x4096_S8x1x4096_S8x1x4096_S8x8x4096_d1 : Shape.Concatenates [S8x1x4096, S8x1x4096, S8x1x4096, S8x1x4096, S8x1x4096, S8x1x4096, S8x1x4096, S8x1x4096] S8x8x4096 1
  inb_S1x1024x8_S1x1024x8_0_0_0 : ∀ a, (![0, 0, 0] : Fin 3 → Nat) a + S1x1024x8.size a ≤ S1x1024x8.size a
  h_S1x1024x8 : 0 < S1x1024x8.numel
  shapeCasts_S1x1024x8_S1024x8 : S1x1024x8.ShapeCasts S1024x8
  inb_S1x8x1024_S1x8x1024_0_0_0 : ∀ a, (![0, 0, 0] : Fin 3 → Nat) a + S1x8x1024.size a ≤ S1x8x1024.size a
  h_S1x8x1024 : 0 < S1x8x1024.numel
  shapeCasts_S1x8x1024_S8x1024 : S1x8x1024.ShapeCasts S8x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  reduces_S1024x1024_S1024 : S1024x1024.Reduces [1] S1024
  shapeCasts_S1024_S1024x1 : S1024.ShapeCasts S1024x1
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  reduces_S1024x1024_S1024_2 : S1024x1024.Reduces [0] S1024
  shapeCasts_S1024_S1x1024 : S1024.ShapeCasts S1x1024
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S8x1x4096_S8x4096 : S8x1x4096.ShapeCasts S8x4096
  reducesTo_S8x4096_S8_d1 : S8x4096.ReducesTo [1] S8
  h_S_ : 0 < S_.numel
  bcast_S_S8 : S_.BroadcastsInDim S8 (![] : Fin 0 → Fin S8.rank)
  reducesTo_S8_S_d0 : S8.ReducesTo [0] S_
  dot_S1024x8_S8x1024_S1024x1024_1_0_0_1_n_n_wf : DotDims.WF S1024x8 S8x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1x1024.size a ≤ S1x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x8.size a ≤ S8x4096x8.size a
  hwx0_0 : ∀ i : grid0.Coords, EltTy.bits .f32 = 32 ∨ (Rect.block (s := S8x4096x8) S1x1024x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x1024.size a ≤ S8x8x4096.size a
  hwx0_1 : ∀ i : grid0.Coords, EltTy.bits .f32 = 32 ∨ (Rect.block (s := S8x8x4096) S1x8x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S8x4096x1.size a
  hwx0_2 : ∀ i : grid0.Coords, EltTy.bits .f32 = 32 ∨ (Rect.block (s := S8x4096x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S1024x8_S8x1024_S1024x1024_1_0_0_1_n_n : DotDims S1024x8 S8x1024 S1024x1024 where
  lhsContracting := [1]
  rhsContracting := [0]
  lhsNonContracting := [0]
  rhsNonContracting := [1]
  lhsBatch := []
  rhsBatch := []
  wf := dot_S1024x8_S8x1024_S1024x1024_1_0_0_1_n_n_wf

abbrev win0_0 : Pipeline.Window sig grid0 :=
  Pipeline.Window.ofSpec (Memref.whole main_v27) S1x1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S1x8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v50_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 53
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_v27 : Ref sig .tc := ⟨.hbm, 40, rfl⟩
abbrev main_cst_10 : Ref sig .tc := ⟨.hbm, 41, rfl⟩
abbrev main_v28 : Ref sig .tc := ⟨.hbm, 42, rfl⟩
abbrev main_cst_11 : Ref sig .tc := ⟨.hbm, 43, rfl⟩
abbrev main_v29 : Ref sig .tc := ⟨.hbm, 44, rfl⟩
abbrev main_cst_12 : Ref sig .tc := ⟨.hbm, 45, rfl⟩
abbrev main_v30 : Ref sig .tc := ⟨.hbm, 46, rfl⟩
abbrev main_cst_13 : Ref sig .tc := ⟨.hbm, 47, rfl⟩
abbrev main_v31 : Ref sig .tc := ⟨.hbm, 48, rfl⟩
abbrev main_cst_14 : Ref sig .tc := ⟨.hbm, 49, rfl⟩
abbrev main_v32 : Ref sig .tc := ⟨.hbm, 50, rfl⟩
abbrev main_cst_15 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.KB.Kit.lean ====
/-
  The program around its one region, at any float instance: the 57 host lines before the region leave the two
  augmented arrays (and everything else they compute) in place; the region sweeps a grid of 8 × 4 × 4 points
  (batch b, row tile n, column tile m; point t = 16 b + 4 n + m); the 30 host lines after it read the two result
  arrays. Here: the buffers' contents when the region is entered, that no host line writes an argument array,
  each window's block at a point, and the two conditions the body branches on in closed form:
  m = 0 (the row minima are reset) and n = m = 0 (the column minima are reset).
-/
import proofs.«150241_j45406394253980_2_alg».proof.Proof.Gen.Kernel.Launch
import proofs.«150241_j45406394253980_2_alg».proof.Proof.Gen.Kernel.Skeleton
import proofs.«150241_j45406394253980_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- None of them writes an array the region stages: each writes its own result only. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro w; fin_cases w <;> exact StableHlo.devRef_ne_of_ne (by decide))

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host line before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes the first argument: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor the second. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post: both argument arrays end as launched (neither is staged by a window,
    neither is written by a host line). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's branch conditions -/

/-- The first branch is taken when the column-tile coordinate m is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second when both tile coordinates n and m are 0. -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond0_1 : ∀ t : Fin cfg0.N, cond0_1 (grid0.coords t) ↔ t.val % 16 = 0 :=
  (by decide +kernel : ∀ t : Fin grid0.N, cond0_1 (grid0.coords t) ↔ t.val % 16 = 0)

/-- At a point with m = 0 the slice of the column minima the body works on starts at column 0. -/
theorem hoff0 : ∀ t : Fin cfg0.N, t.val % 4 = 0 → k0_off1 (grid0.coords t) = ![0, 0, 0] := by
  decide +kernel

/-- No window is ever idle. -/
theorem live0 : ∀ (w : Fin cfg0.W) (i : grid0.Coords), cfg0.idle w i = false := fun _ _ => rfl

/-! ## The staging memrefs -/

abbrev VO0_2 : View sig .tc .vmem S1x1024x1 .f32 := (Memref.whole cc0_stg2_0 : Memref sig .tc .vmem S1x1024x1 .f32).view
abbrev VO0_3 : View sig .tc .vmem S1x1x4096 .f32 := (Memref.whole cc0_stg3_0 : Memref sig .tc .vmem S1x1x4096 .f32).view
abbrev ms0_0 (t : Fin cfg0.N) : Memref sig .tc .vmem S1x1024x8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4096 .f32 := win0_3.stage (cfg0.slots t 3)
abbrev hs0_3 (t : Fin cfg0.N) : (ms0_3 t).IsWhole := hstage0_3 ((cfg0.slots t 3).cast nbuf0_3)

end Cert.Kernel.Fr

end
-- ==== Proof.KB.Runs.lean ====
/-
  The kernel body run on any whole staging buffers, case by case. The three cases of a grid point (b, n, m):
  n = m = 0 (both minima are reset to +∞ first), m = 0 < n (only the row minima are reset), and m ≠ 0 (nothing is
  reset). In each the body loads the two input blocks, forms the 1024 × 1024 tile of clamped distances, folds its
  row minima into the row-minima buffer (whole) and its column minima into columns 1024 m … 1024 m + 1023 of the
  column-minima buffer. What each run finds is the list of stores into each of the two buffers, last first.
-/
import proofs.«150241_j45406394253980_2_alg».proof.Proof.KB.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- n = m = 0: both buffers are stored whole (+∞) before anything reads them, so they are taken at any contents. -/
noncomputable def kernelRun0_C (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : cond0_1 i) (hl0 : k0_off1 i = ![0, 0, 0])
    (x0 : Vec F S1x1024x8 .f32) (x1 : Vec F S1x8x1024 .f32) :
    Σ' (L2 : List (View.Piece (Elt F) S1x1024x1 .f32)), { L3 : List (View.Piece (Elt F) S1x1x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    letI : ClosedOff (k0_off1 i) := ⟨![0, 0, 0], hl0⟩
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact H3

set_option maxHeartbeats 4000000 in
/-- m = 0 < n: the row-minima buffer is reset, the column-minima buffer carries what the point before left (xo3). -/
noncomputable def kernelRun0_B (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : ¬cond0_1 i) (hl0 : k0_off1 i = ![0, 0, 0])
    (x0 : Vec F S1x1024x8 .f32) (x1 : Vec F S1x8x1024 .f32) (xo3 : Vec F S1x1x4096 .f32) :
    Σ' (L2 : List (View.Piece (Elt F) S1x1024x1 .f32)), { L3 : List (View.Piece (Elt F) S1x1x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    letI : ClosedOff (k0_off1 i) := ⟨![0, 0, 0], hl0⟩
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexact H3

set_option maxHeartbeats 4000000 in
/-- m ≠ 0: both buffers carry what the point before left (xo2, xo3). -/
noncomputable def kernelRun0_A (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : ¬cond0_0 i) (hc1 : ¬cond0_1 i)
    (x0 : Vec F S1x1024x8 .f32) (x1 : Vec F S1x8x1024 .f32) (xo2 : Vec F S1x1024x1 .f32) (xo3 : Vec F S1x1x4096 .f32) :
    Σ' (L2 : List (View.Piece (Elt F) S1x1024x1 .f32)), { L3 : List (View.Piece (Elt F) S1x1x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexact H3

end Cert.Kernel.Fr

end
-- ==== Proof.KB.Frame.lean ====
/-
  What the two minima buffers hold after each grid point, and the run of the whole program.
  After point t = 16 b + 4 n + m the row-minima buffer holds, for the rows of tile n, the running minimum over the
  column tiles 0 … m (restarted from +∞ at m = 0); the column-minima buffer holds, per column, the running minimum
  over the row tiles seen so far in batch b (restarted from +∞ at n = m = 0), only the columns of tile m changing
  at the point. Both are written back when their block index moves: the rows after m = 3, the columns after n = m = 3.
-/
import proofs.«150241_j45406394253980_2_alg».proof.Proof.KB.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem cover0_C_2 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : cond0_1 i) (hl0 : k0_off1 i = ![0, 0, 0])
    (x0 : Vec F S1x1024x8 .f32) (x1 : Vec F S1x8x1024 .f32) (y : S1x1024x1.Idx) :
    ∃ pc ∈ (kernelRun0_C c i arg3 harg3 arg4 harg4 arg5 harg5 arg6 harg6 hc0 hc1 hl0 x0 x1).1, y ∈ pc.1.set :=
  View.cover_of_tiledL (kernelRun0_C c i arg3 harg3 arg4 harg4 arg5 harg5 arg6 harg6 hc0 hc1 hl0 x0 x1).1 S1x1024x1.size (by sl_kernel_rfl) y
theorem cover0_C_3 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : cond0_1 i) (hl0 : k0_off1 i = ![0, 0, 0])
    (x0 : Vec F S1x1024x8 .f32) (x1 : Vec F S1x8x1024 .f32) (y : S1x1x4096.Idx) :
    ∃ pc ∈ (kernelRun0_C c i arg3 harg3 arg4 harg4 arg5 harg5 arg6 harg6 hc0 hc1 hl0 x0 x1).2.1, y ∈ pc.1.set :=
  View.cover_of_tiledL (kernelRun0_C c i arg3 harg3 arg4 harg4 arg5 harg5 arg6 harg6 hc0 hc1 hl0 x0 x1).2.1 S1x1x4096.size (by sl_kernel_rfl) y
/-- n = m = 0: the stores into the row-minima buffer read back (they cover it). -/
def out0_C_2 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : cond0_1 i) (hl0 : k0_off1 i = ![0, 0, 0])
    (x0 : Vec F S1x1024x8 .f32) (x1 : Vec F S1x8x1024 .f32) : Vec F S1x1024x1 .f32 :=
  VO0_2.read (Elt F) (VO0_2.writes (Elt F) VO0_2.junk (kernelRun0_C c i arg3 harg3 arg4 harg4 arg5 harg5 arg6 harg6 hc0 hc1 hl0 x0 x1).1)
/-- n = m = 0: the stores into the column-minima buffer read back (they cover it). -/
def out0_C_3 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : cond0_1 i) (hl0 : k0_off1 i = ![0, 0, 0])
    (x0 : Vec F S1x1024x8 .f32) (x1 : Vec F S1x8x1024 .f32) : Vec F S1x1x4096 .f32 :=
  VO0_3.read (Elt F) (VO0_3.writes (Elt F) VO0_3.junk (kernelRun0_C c i arg3 harg3 arg4 harg4 arg5 harg5 arg6 harg6 hc0 hc1 hl0 x0 x1).2.1)

theorem cover0_B_2 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : ¬cond0_1 i) (hl0 : k0_off1 i = ![0, 0, 0])
    (x0 : Vec F S1x1024x8 .f32) (x1 : Vec F S1x8x1024 .f32) (xo3 : Vec F S1x1x4096 .f32) (y : S1x1024x1.Idx) :
    ∃ pc ∈ (kernelRun0_B c i arg3 harg3 arg4 harg4 arg5 harg5 arg6 harg6 hc0 hc1 hl0 x0 x1 xo3).1, y ∈ pc.1.set :=
  View.cover_of_tiledL (kernelRun0_B c i arg3 harg3 arg4 harg4 arg5 harg5 arg6 harg6 hc0 hc1 hl0 x0 x1 xo3).1 S1x1024x1.size (by sl_kernel_rfl) y
/-- m = 0 < n: the row-minima buffer's stores read back (they cover it). -/
def out0_B_2 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : ¬cond0_1 i) (hl0 : k0_off1 i = ![0, 0, 0])
    (x0 : Vec F S1x1024x8 .f32) (x1 : Vec F S1x8x1024 .f32) (xo3 : Vec F S1x1x4096 .f32) : Vec F S1x1024x1 .f32 :=
  VO0_2.read (Elt F) (VO0_2.writes (Elt F) VO0_2.junk (kernelRun0_B c i arg3 harg3 arg4 harg4 arg5 harg5 arg6 harg6 hc0 hc1 hl0 x0 x1 xo3).1)
/-- m = 0 < n: the column-minima buffer's one slice store written over what the point before left. -/
def out0_B_3 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : ¬cond0_1 i) (hl0 : k0_off1 i = ![0, 0, 0])
    (x0 : Vec F S1x1024x8 .f32) (x1 : Vec F S1x8x1024 .f32) (xo3 : Vec F S1x1x4096 .f32) : Vec F S1x1x4096 .f32 :=
  arg6.view.read (Elt F) (arg6.view.writes (Elt F) (harg6.unread xo3) (kernelRun0_B c i arg3 harg3 arg4 harg4 arg5 harg5 arg6 harg6 hc0 hc1 hl0 x0 x1 xo3).2.1)

theorem cover0_A_2 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : ¬cond0_0 i) (hc1 : ¬cond0_1 i)
    (x0 : Vec F S1x1024x8 .f32) (x1 : Vec F S1x8x1024 .f32) (xo2 : Vec F S1x1024x1 .f32) (xo3 : Vec F S1x1x4096 .f32) (y : S1x1024x1.Idx) :
    ∃ pc ∈ (kernelRun0_A c i arg3 harg3 arg4 harg4 arg5 harg5 arg6 harg6 hc0 hc1 x0 x1 xo2 xo3).1, y ∈ pc.1.set :=
  View.cover_of_tiledL (kernelRun0_A c i arg3 harg3 arg4 harg4 arg5 harg5 arg6 harg6 hc0 hc1 x0 x1 xo2 xo3).1 S1x1024x1.size (by sl_kernel_rfl) y
/-- m ≠ 0: the row-minima buffer's store read back (it covers it). -/
def out0_A_2 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : ¬cond0_0 i) (hc1 : ¬cond0_1 i)
    (x0 : Vec F S1x1024x8 .f32) (x1 : Vec F S1x8x1024 .f32) (xo2 : Vec F S1x1024x1 .f32) (xo3 : Vec F S1x1x4096 .f32) : Vec F S1x1024x1 .f32 :=
  VO0_2.read (Elt F) (VO0_2.writes (Elt F) VO0_2.junk (kernelRun0_A c i arg3 harg3 arg4 harg4 arg5 harg5 arg6 harg6 hc0 hc1 x0 x1 xo2 xo3).1)
/-- m ≠ 0: the column-minima buffer's one slice store written over what the point before left. -/
def out0_A_3 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : ¬cond0_0 i) (hc1 : ¬cond0_1 i)
    (x0 : Vec F S1x1024x8 .f32) (x1 : Vec F S1x8x1024 .f32) (xo2 : Vec F S1x1024x1 .f32) (xo3 : Vec F S1x1x4096 .f32) : Vec F S1x1x4096 .f32 :=
  arg6.view.read (Elt F) (arg6.view.writes (Elt F) (harg6.unread xo3) (kernelRun0_A c i arg3 harg3 arg4 harg4 arg5 harg5 arg6 harg6 hc0 hc1 x0 x1 xo2 xo3).2.1)

/-! ## What the buffers hold after each point -/

/-- The two buffers after the body at position n: the case the closed forms select, run at the point's staging
    buffers and input blocks, a buffer the case reads before covering at what position n - 1 left. -/
def outsAt0 (c : Dev nD) : (n : ℕ) → n < cfg0.N → Vec F S1x1024x1 .f32 × Vec F S1x1x4096 .f32
  | 0, hn =>
    (out0_C_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) ((hcond0_1 ⟨0, hn⟩).mpr (Nat.zero_mod _)) (hoff0 ⟨0, hn⟩ (Nat.zero_mod _)) (iblk m c 0 ⟨0, hn⟩) (iblk m c 1 ⟨0, hn⟩),
     out0_C_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) ((hcond0_1 ⟨0, hn⟩).mpr (Nat.zero_mod _)) (hoff0 ⟨0, hn⟩ (Nat.zero_mod _)) (iblk m c 0 ⟨0, hn⟩) (iblk m c 1 ⟨0, hn⟩))
  | n + 1, hn =>
    if h16 : (n + 1) % 16 = 0 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr (by dsimp only; omega)) ((hcond0_1 ⟨n + 1, hn⟩).mpr h16) (hoff0 ⟨n + 1, hn⟩ (by dsimp only; omega)) (iblk m c 0 ⟨n + 1, hn⟩) (iblk m c 1 ⟨n + 1, hn⟩),
       out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr (by dsimp only; omega)) ((hcond0_1 ⟨n + 1, hn⟩).mpr h16) (hoff0 ⟨n + 1, hn⟩ (by dsimp only; omega)) (iblk m c 0 ⟨n + 1, hn⟩) (iblk m c 1 ⟨n + 1, hn⟩))
    else if h4 : (n + 1) % 4 = 0 then
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h4) (fun h => h16 ((hcond0_1 ⟨n + 1, hn⟩).mp h)) (hoff0 ⟨n + 1, hn⟩ h4) (iblk m c 0 ⟨n + 1, hn⟩) (iblk m c 1 ⟨n + 1, hn⟩) (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h4) (fun h => h16 ((hcond0_1 ⟨n + 1, hn⟩).mp h)) (hoff0 ⟨n + 1, hn⟩ h4) (iblk m c 0 ⟨n + 1, hn⟩) (iblk m c 1 ⟨n + 1, hn⟩) (outsAt0 c n (Nat.lt_of_succ_lt hn)).2)
    else
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h4 ((hcond0_0 ⟨n + 1, hn⟩).mp h)) (fun h => h16 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h4 ((hcond0_0 ⟨n + 1, hn⟩).mp h)) (fun h => h16 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- What the point before t left. -/
abbrev prev0 (c : Dev nD) (t : Fin cfg0.N) : Vec F S1x1024x1 .f32 × Vec F S1x1x4096 .f32 :=
  outsAt0 m c (t.val - 1) (Nat.lt_of_le_of_lt (Nat.sub_le _ _) t.isLt)

theorem outsAt0_C (c : Dev nD) (t : Fin cfg0.N) (h16 : t.val % 16 = 0) (h4 : t.val % 4 = 0) :
    outsAt0 m c t.val t.isLt =
      (out0_C_2 c (grid0.coords t) (ms0_0 t) (hs0_0 t) (ms0_1 t) (hs0_1 t) (ms0_2 t) (hs0_2 t) (ms0_3 t) (hs0_3 t) ((hcond0_0 t).mpr h4) ((hcond0_1 t).mpr h16) (hoff0 t h4) (iblk m c 0 t) (iblk m c 1 t),
       out0_C_3 c (grid0.coords t) (ms0_0 t) (hs0_0 t) (ms0_1 t) (hs0_1 t) (ms0_2 t) (hs0_2 t) (ms0_3 t) (hs0_3 t) ((hcond0_0 t).mpr h4) ((hcond0_1 t).mpr h16) (hoff0 t h4) (iblk m c 0 t) (iblk m c 1 t)) := by
  obtain ⟨n, hn⟩ := t
  cases n with
  | zero => exact rfl
  | succ n => exact (dif_pos h16).trans rfl

theorem outsAt0_B (c : Dev nD) (t : Fin cfg0.N) (h16 : ¬t.val % 16 = 0) (h4 : t.val % 4 = 0) :
    outsAt0 m c t.val t.isLt =
      (out0_B_2 c (grid0.coords t) (ms0_0 t) (hs0_0 t) (ms0_1 t) (hs0_1 t) (ms0_2 t) (hs0_2 t) (ms0_3 t) (hs0_3 t) ((hcond0_0 t).mpr h4) (fun h => h16 ((hcond0_1 t).mp h)) (hoff0 t h4) (iblk m c 0 t) (iblk m c 1 t) (prev0 m c t).2,
       out0_B_3 c (grid0.coords t) (ms0_0 t) (hs0_0 t) (ms0_1 t) (hs0_1 t) (ms0_2 t) (hs0_2 t) (ms0_3 t) (hs0_3 t) ((hcond0_0 t).mpr h4) (fun h => h16 ((hcond0_1 t).mp h)) (hoff0 t h4) (iblk m c 0 t) (iblk m c 1 t) (prev0 m c t).2) := by
  obtain ⟨n, hn⟩ := t
  cases n with
  | zero => exact (by exfalso; (try dsimp only at h16); exact absurd (Nat.zero_mod _) h16)
  | succ n => exact (dif_neg h16).trans ((dif_pos h4).trans rfl)

theorem outsAt0_A (c : Dev nD) (t : Fin cfg0.N) (h16 : ¬t.val % 16 = 0) (h4 : ¬t.val % 4 = 0) :
    outsAt0 m c t.val t.isLt =
      (out0_A_2 c (grid0.coords t) (ms0_0 t) (hs0_0 t) (ms0_1 t) (hs0_1 t) (ms0_2 t) (hs0_2 t) (ms0_3 t) (hs0_3 t) (fun h => h4 ((hcond0_0 t).mp h)) (fun h => h16 ((hcond0_1 t).mp h)) (iblk m c 0 t) (iblk m c 1 t) (prev0 m c t).1 (prev0 m c t).2,
       out0_A_3 c (grid0.coords t) (ms0_0 t) (hs0_0 t) (ms0_1 t) (hs0_1 t) (ms0_2 t) (hs0_2 t) (ms0_3 t) (hs0_3 t) (fun h => h4 ((hcond0_0 t).mp h)) (fun h => h16 ((hcond0_1 t).mp h)) (iblk m c 0 t) (iblk m c 1 t) (prev0 m c t).1 (prev0 m c t).2) := by
  obtain ⟨n, hn⟩ := t
  cases n with
  | zero => exact (by exfalso; (try dsimp only at h16); exact absurd (Nat.zero_mod _) h16)
  | succ n => exact (dif_neg h16).trans ((dif_neg h4).trans rfl)

/-! ## The proof data -/

/-- The arrays as the region finds them; after the body at point t each input buffer at its block and the two
    output buffers at `outsAt0`; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point with m ≠ 0 the row-minima buffer holds what the point before left: it was not written back between. -/
theorem before0_2_kept (c : Dev nD) (t : Fin cfg0.N) (h4 : ¬t.val % 4 = 0) (d) :
    (dats m 0 c).before 2 t d = (prev0 m c t).1 := by
  rw [Dat.before_out_kept _ 2 rfl t (by omega) (Bool.eq_false_iff.mpr fun h => by have := (flush0_2 _).mp h; dsimp only at this; omega)
    (fun _ => rfl) (fun _ _ => rfl)]
  dsimp only [dats]

/-- At a point other than n = m = 0 the column-minima buffer holds what the point before left. -/
theorem before0_3_kept (c : Dev nD) (t : Fin cfg0.N) (h16 : ¬t.val % 16 = 0) (d) :
    (dats m 0 c).before 3 t d = (prev0 m c t).2 := by
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 3200000 in
/-- The body at any point: the closed forms say which case the point is in; a buffer the case reads before covering
    holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h16 : t.val % 16 = 0
  · have h4 : t.val % 4 = 0 := by omega
    rw [outsAt0_C m c t h16 h4]
    dsimp only
    unfold out0_C_2 out0_C_3
    iintro ⟨HΦ, Ho, ⟨%d0, H0⟩, ⟨%d1, H1⟩, ⟨%d2, H2⟩, ⟨%d3, H3⟩⟩
    iapply ((kernelRun0_C c (grid0.coords t) _ _ _ _ _ _ _ _ ((hcond0_0 t).mpr h4) ((hcond0_1 t).mpr h16) (hoff0 t h4) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_C_2 c _ _ _ _ _ _ _ _ _ _ _ _ _ _)
    · unfold owns; iexists _; isplitr
      swap; · iexact H3
      ipureintro; exact View.read_writes_of_cover _ _ _ _ _ (cover0_C_3 c _ _ _ _ _ _ _ _ _ _ _ _ _ _)
  · by_cases h4 : t.val % 4 = 0
    · rw [outsAt0_B m c t h16 h4]
      dsimp only
      simp only [before0_3_kept m c t h16]
      unfold out0_B_2 out0_B_3
      iintro ⟨HΦ, Ho, ⟨%d0, H0⟩, ⟨%d1, H1⟩, ⟨%d2, H2⟩, ⟨%d3, H3⟩⟩
      iapply ((kernelRun0_B c (grid0.coords t) _ _ _ _ _ _ _ _ ((hcond0_0 t).mpr h4) (fun h => h16 ((hcond0_1 t).mp h)) (hoff0 t h4) (iblk m c 0 t) (iblk m c 1 t) _).2.2 Set.univ _)
      isplitl [H0]; · iexact H0
      isplitl [H1]; · iexact H1
      isplitl [H2]; · iexists _; iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _)
      · unfold owns; iexists _; isplitr
        swap; · iexact H3
        ipureintro; rfl
    · rw [outsAt0_A m c t h16 h4]
      dsimp only
      simp only [before0_2_kept m c t h4, before0_3_kept m c t h16]
      unfold out0_A_2 out0_A_3
      iintro ⟨HΦ, Ho, ⟨%d0, H0⟩, ⟨%d1, H1⟩, ⟨%d2, H2⟩, ⟨%d3, H3⟩⟩
      iapply ((kernelRun0_A c (grid0.coords t) _ _ _ _ _ _ _ _ (fun h => h4 ((hcond0_0 t).mp h)) (fun h => h16 ((hcond0_1 t).mp h)) (iblk m c 0 t) (iblk m c 1 t) _ _).2.2 Set.univ _)
      isplitl [H0]; · iexact H0
      isplitl [H1]; · iexact H1
      isplitl [H2]; · iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _)
      · unfold owns; iexists _; isplitr
        swap; · iexact H3
        ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array the region stages ends at what the library
    computes from the proof data, every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Fr

end
-- ==== Proof.KI.Kit.lean ====
/-
  The program around its one region, at any float instance: the 57 host lines before the region leave the two
  augmented arrays (and everything else they compute) in place; the region sweeps a grid of 8 × 4 × 4 points
  (batch b, row tile n, column tile m; point t = 16 b + 4 n + m); the 30 host lines after it read the two result
  arrays. Here: the buffers' contents when the region is entered, that no host line writes an argument array,
  each window's block at a point, and the two conditions the body branches on in closed form:
  m = 0 (the row minima are reset) and n = m = 0 (the column minima are reset).
-/
import proofs.«150241_j45406394253980_2_alg».proof.Proof.Gen.KernelIdeal.Launch
import proofs.«150241_j45406394253980_2_alg».proof.Proof.Gen.KernelIdeal.Skeleton
import proofs.«150241_j45406394253980_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- None of them writes an array the region stages: each writes its own result only. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro w; fin_cases w <;> exact StableHlo.devRef_ne_of_ne (by decide))

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host line before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes the first argument: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor the second. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post: both argument arrays end as launched (neither is staged by a window,
    neither is written by a host line). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's branch conditions -/

/-- The first branch is taken when the column-tile coordinate m is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second when both tile coordinates n and m are 0. -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond0_1 : ∀ t : Fin cfg0.N, cond0_1 (grid0.coords t) ↔ t.val % 16 = 0 :=
  (by decide +kernel : ∀ t : Fin grid0.N, cond0_1 (grid0.coords t) ↔ t.val % 16 = 0)

/-- At a point with m = 0 the slice of the column minima the body works on starts at column 0. -/
theorem hoff0 : ∀ t : Fin cfg0.N, t.val % 4 = 0 → k0_off1 (grid0.coords t) = ![0, 0, 0] := by
  decide +kernel

/-- No window is ever idle. -/
theorem live0 : ∀ (w : Fin cfg0.W) (i : grid0.Coords), cfg0.idle w i = false := fun _ _ => rfl

/-! ## The staging memrefs -/

abbrev VO0_2 : View sig .tc .vmem S1x1024x1 .f32 := (Memref.whole cc0_stg2_0 : Memref sig .tc .vmem S1x1024x1 .f32).view
abbrev VO0_3 : View sig .tc .vmem S1x1x4096 .f32 := (Memref.whole cc0_stg3_0 : Memref sig .tc .vmem S1x1x4096 .f32).view
abbrev ms0_0 (t : Fin cfg0.N) : Memref sig .tc .vmem S1x1024x8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4096 .f32 := win0_3.stage (cfg0.slots t 3)
abbrev hs0_3 (t : Fin cfg0.N) : (ms0_3 t).IsWhole := hstage0_3 ((cfg0.slots t 3).cast nbuf0_3)

end Cert.KernelIdeal.Fr

end
-- ==== Proof.KI.Runs.lean ====
/-
  The kernel body run on any whole staging buffers, case by case. The three cases of a grid point (b, n, m):
  n = m = 0 (both minima are reset to +∞ first), m = 0 < n (only the row minima are reset), and m ≠ 0 (nothing is
  reset). In each the body loads the two input blocks, forms the 1024 × 1024 tile of clamped distances, folds its
  row minima into the row-minima buffer (whole) and its column minima into columns 1024 m … 1024 m + 1023 of the
  column-minima buffer. What each run finds is the list of stores into each of the two buffers, last first.
-/
import proofs.«150241_j45406394253980_2_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- n = m = 0: both buffers are stored whole (+∞) before anything reads them, so they are taken at any contents. -/
noncomputable def kernelRun0_C (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : cond0_1 i) (hl0 : k0_off1 i = ![0, 0, 0])
    (x0 : Vec F S1x1024x8 .f32) (x1 : Vec F S1x8x1024 .f32) :
    Σ' (L2 : List (View.Piece (Elt F) S1x1024x1 .f32)), { L3 : List (View.Piece (Elt F) S1x1x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    letI : ClosedOff (k0_off1 i) := ⟨![0, 0, 0], hl0⟩
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact H3

set_option maxHeartbeats 4000000 in
/-- m = 0 < n: the row-minima buffer is reset, the column-minima buffer carries what the point before left (xo3). -/
noncomputable def kernelRun0_B (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : ¬cond0_1 i) (hl0 : k0_off1 i = ![0, 0, 0])
    (x0 : Vec F S1x1024x8 .f32) (x1 : Vec F S1x8x1024 .f32) (xo3 : Vec F S1x1x4096 .f32) :
    Σ' (L2 : List (View.Piece (Elt F) S1x1024x1 .f32)), { L3 : List (View.Piece (Elt F) S1x1x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    letI : ClosedOff (k0_off1 i) := ⟨![0, 0, 0], hl0⟩
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexact H3

set_option maxHeartbeats 4000000 in
/-- m ≠ 0: both buffers carry what the point before left (xo2, xo3). -/
noncomputable def kernelRun0_A (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : ¬cond0_0 i) (hc1 : ¬cond0_1 i)
    (x0 : Vec F S1x1024x8 .f32) (x1 : Vec F S1x8x1024 .f32) (xo2 : Vec F S1x1024x1 .f32) (xo3 : Vec F S1x1x4096 .f32) :
    Σ' (L2 : List (View.Piece (Elt F) S1x1024x1 .f32)), { L3 : List (View.Piece (Elt F) S1x1x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexact H3

end Cert.KernelIdeal.Fr

end
-- ==== Proof.KI.Frame.lean ====
/-
  What the two minima buffers hold after each grid point, and the run of the whole program.
  After point t = 16 b + 4 n + m the row-minima buffer holds, for the rows of tile n, the running minimum over the
  column tiles 0 … m (restarted from +∞ at m = 0); the column-minima buffer holds, per column, the running minimum
  over the row tiles seen so far in batch b (restarted from +∞ at n = m = 0), only the columns of tile m changing
  at the point. Both are written back when their block index moves: the rows after m = 3, the columns after n = m = 3.
-/
import proofs.«150241_j45406394253980_2_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem cover0_C_2 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : cond0_1 i) (hl0 : k0_off1 i = ![0, 0, 0])
    (x0 : Vec F S1x1024x8 .f32) (x1 : Vec F S1x8x1024 .f32) (y : S1x1024x1.Idx) :
    ∃ pc ∈ (kernelRun0_C c i arg3 harg3 arg4 harg4 arg5 harg5 arg6 harg6 hc0 hc1 hl0 x0 x1).1, y ∈ pc.1.set :=
  View.cover_of_tiledL (kernelRun0_C c i arg3 harg3 arg4 harg4 arg5 harg5 arg6 harg6 hc0 hc1 hl0 x0 x1).1 S1x1024x1.size (by sl_kernel_rfl) y
theorem cover0_C_3 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : cond0_1 i) (hl0 : k0_off1 i = ![0, 0, 0])
    (x0 : Vec F S1x1024x8 .f32) (x1 : Vec F S1x8x1024 .f32) (y : S1x1x4096.Idx) :
    ∃ pc ∈ (kernelRun0_C c i arg3 harg3 arg4 harg4 arg5 harg5 arg6 harg6 hc0 hc1 hl0 x0 x1).2.1, y ∈ pc.1.set :=
  View.cover_of_tiledL (kernelRun0_C c i arg3 harg3 arg4 harg4 arg5 harg5 arg6 harg6 hc0 hc1 hl0 x0 x1).2.1 S1x1x4096.size (by sl_kernel_rfl) y
/-- n = m = 0: the stores into the row-minima buffer read back (they cover it). -/
def out0_C_2 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : cond0_1 i) (hl0 : k0_off1 i = ![0, 0, 0])
    (x0 : Vec F S1x1024x8 .f32) (x1 : Vec F S1x8x1024 .f32) : Vec F S1x1024x1 .f32 :=
  VO0_2.read (Elt F) (VO0_2.writes (Elt F) VO0_2.junk (kernelRun0_C c i arg3 harg3 arg4 harg4 arg5 harg5 arg6 harg6 hc0 hc1 hl0 x0 x1).1)
/-- n = m = 0: the stores into the column-minima buffer read back (they cover it). -/
def out0_C_3 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : cond0_1 i) (hl0 : k0_off1 i = ![0, 0, 0])
    (x0 : Vec F S1x1024x8 .f32) (x1 : Vec F S1x8x1024 .f32) : Vec F S1x1x4096 .f32 :=
  VO0_3.read (Elt F) (VO0_3.writes (Elt F) VO0_3.junk (kernelRun0_C c i arg3 harg3 arg4 harg4 arg5 harg5 arg6 harg6 hc0 hc1 hl0 x0 x1).2.1)

theorem cover0_B_2 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : ¬cond0_1 i) (hl0 : k0_off1 i = ![0, 0, 0])
    (x0 : Vec F S1x1024x8 .f32) (x1 : Vec F S1x8x1024 .f32) (xo3 : Vec F S1x1x4096 .f32) (y : S1x1024x1.Idx) :
    ∃ pc ∈ (kernelRun0_B c i arg3 harg3 arg4 harg4 arg5 harg5 arg6 harg6 hc0 hc1 hl0 x0 x1 xo3).1, y ∈ pc.1.set :=
  View.cover_of_tiledL (kernelRun0_B c i arg3 harg3 arg4 harg4 arg5 harg5 arg6 harg6 hc0 hc1 hl0 x0 x1 xo3).1 S1x1024x1.size (by sl_kernel_rfl) y
/-- m = 0 < n: the row-minima buffer's stores read back (they cover it). -/
def out0_B_2 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : ¬cond0_1 i) (hl0 : k0_off1 i = ![0, 0, 0])
    (x0 : Vec F S1x1024x8 .f32) (x1 : Vec F S1x8x1024 .f32) (xo3 : Vec F S1x1x4096 .f32) : Vec F S1x1024x1 .f32 :=
  VO0_2.read (Elt F) (VO0_2.writes (Elt F) VO0_2.junk (kernelRun0_B c i arg3 harg3 arg4 harg4 arg5 harg5 arg6 harg6 hc0 hc1 hl0 x0 x1 xo3).1)
/-- m = 0 < n: the column-minima buffer's one slice store written over what the point before left. -/
def out0_B_3 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : ¬cond0_1 i) (hl0 : k0_off1 i = ![0, 0, 0])
    (x0 : Vec F S1x1024x8 .f32) (x1 : Vec F S1x8x1024 .f32) (xo3 : Vec F S1x1x4096 .f32) : Vec F S1x1x4096 .f32 :=
  arg6.view.read (Elt F) (arg6.view.writes (Elt F) (harg6.unread xo3) (kernelRun0_B c i arg3 harg3 arg4 harg4 arg5 harg5 arg6 harg6 hc0 hc1 hl0 x0 x1 xo3).2.1)

theorem cover0_A_2 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : ¬cond0_0 i) (hc1 : ¬cond0_1 i)
    (x0 : Vec F S1x1024x8 .f32) (x1 : Vec F S1x8x1024 .f32) (xo2 : Vec F S1x1024x1 .f32) (xo3 : Vec F S1x1x4096 .f32) (y : S1x1024x1.Idx) :
    ∃ pc ∈ (kernelRun0_A c i arg3 harg3 arg4 harg4 arg5 harg5 arg6 harg6 hc0 hc1 x0 x1 xo2 xo3).1, y ∈ pc.1.set :=
  View.cover_of_tiledL (kernelRun0_A c i arg3 harg3 arg4 harg4 arg5 harg5 arg6 harg6 hc0 hc1 x0 x1 xo2 xo3).1 S1x1024x1.size (by sl_kernel_rfl) y
/-- m ≠ 0: the row-minima buffer's store read back (it covers it). -/
def out0_A_2 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : ¬cond0_0 i) (hc1 : ¬cond0_1 i)
    (x0 : Vec F S1x1024x8 .f32) (x1 : Vec F S1x8x1024 .f32) (xo2 : Vec F S1x1024x1 .f32) (xo3 : Vec F S1x1x4096 .f32) : Vec F S1x1024x1 .f32 :=
  VO0_2.read (Elt F) (VO0_2.writes (Elt F) VO0_2.junk (kernelRun0_A c i arg3 harg3 arg4 harg4 arg5 harg5 arg6 harg6 hc0 hc1 x0 x1 xo2 xo3).1)
/-- m ≠ 0: the column-minima buffer's one slice store written over what the point before left. -/
def out0_A_3 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : ¬cond0_0 i) (hc1 : ¬cond0_1 i)
    (x0 : Vec F S1x1024x8 .f32) (x1 : Vec F S1x8x1024 .f32) (xo2 : Vec F S1x1024x1 .f32) (xo3 : Vec F S1x1x4096 .f32) : Vec F S1x1x4096 .f32 :=
  arg6.view.read (Elt F) (arg6.view.writes (Elt F) (harg6.unread xo3) (kernelRun0_A c i arg3 harg3 arg4 harg4 arg5 harg5 arg6 harg6 hc0 hc1 x0 x1 xo2 xo3).2.1)

/-! ## What the buffers hold after each point -/

/-- The two buffers after the body at position n: the case the closed forms select, run at the point's staging
    buffers and input blocks, a buffer the case reads before covering at what position n - 1 left. -/
def outsAt0 (c : Dev nD) : (n : ℕ) → n < cfg0.N → Vec F S1x1024x1 .f32 × Vec F S1x1x4096 .f32
  | 0, hn =>
    (out0_C_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) ((hcond0_1 ⟨0, hn⟩).mpr (Nat.zero_mod _)) (hoff0 ⟨0, hn⟩ (Nat.zero_mod _)) (iblk m c 0 ⟨0, hn⟩) (iblk m c 1 ⟨0, hn⟩),
     out0_C_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) ((hcond0_1 ⟨0, hn⟩).mpr (Nat.zero_mod _)) (hoff0 ⟨0, hn⟩ (Nat.zero_mod _)) (iblk m c 0 ⟨0, hn⟩) (iblk m c 1 ⟨0, hn⟩))
  | n + 1, hn =>
    if h16 : (n + 1) % 16 = 0 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr (by dsimp only; omega)) ((hcond0_1 ⟨n + 1, hn⟩).mpr h16) (hoff0 ⟨n + 1, hn⟩ (by dsimp only; omega)) (iblk m c 0 ⟨n + 1, hn⟩) (iblk m c 1 ⟨n + 1, hn⟩),
       out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr (by dsimp only; omega)) ((hcond0_1 ⟨n + 1, hn⟩).mpr h16) (hoff0 ⟨n + 1, hn⟩ (by dsimp only; omega)) (iblk m c 0 ⟨n + 1, hn⟩) (iblk m c 1 ⟨n + 1, hn⟩))
    else if h4 : (n + 1) % 4 = 0 then
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h4) (fun h => h16 ((hcond0_1 ⟨n + 1, hn⟩).mp h)) (hoff0 ⟨n + 1, hn⟩ h4) (iblk m c 0 ⟨n + 1, hn⟩) (iblk m c 1 ⟨n + 1, hn⟩) (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h4) (fun h => h16 ((hcond0_1 ⟨n + 1, hn⟩).mp h)) (hoff0 ⟨n + 1, hn⟩ h4) (iblk m c 0 ⟨n + 1, hn⟩) (iblk m c 1 ⟨n + 1, hn⟩) (outsAt0 c n (Nat.lt_of_succ_lt hn)).2)
    else
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h4 ((hcond0_0 ⟨n + 1, hn⟩).mp h)) (fun h => h16 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h4 ((hcond0_0 ⟨n + 1, hn⟩).mp h)) (fun h => h16 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- What the point before t left. -/
abbrev prev0 (c : Dev nD) (t : Fin cfg0.N) : Vec F S1x1024x1 .f32 × Vec F S1x1x4096 .f32 :=
  outsAt0 m c (t.val - 1) (Nat.lt_of_le_of_lt (Nat.sub_le _ _) t.isLt)

theorem outsAt0_C (c : Dev nD) (t : Fin cfg0.N) (h16 : t.val % 16 = 0) (h4 : t.val % 4 = 0) :
    outsAt0 m c t.val t.isLt =
      (out0_C_2 c (grid0.coords t) (ms0_0 t) (hs0_0 t) (ms0_1 t) (hs0_1 t) (ms0_2 t) (hs0_2 t) (ms0_3 t) (hs0_3 t) ((hcond0_0 t).mpr h4) ((hcond0_1 t).mpr h16) (hoff0 t h4) (iblk m c 0 t) (iblk m c 1 t),
       out0_C_3 c (grid0.coords t) (ms0_0 t) (hs0_0 t) (ms0_1 t) (hs0_1 t) (ms0_2 t) (hs0_2 t) (ms0_3 t) (hs0_3 t) ((hcond0_0 t).mpr h4) ((hcond0_1 t).mpr h16) (hoff0 t h4) (iblk m c 0 t) (iblk m c 1 t)) := by
  obtain ⟨n, hn⟩ := t
  cases n with
  | zero => exact rfl
  | succ n => exact (dif_pos h16).trans rfl

theorem outsAt0_B (c : Dev nD) (t : Fin cfg0.N) (h16 : ¬t.val % 16 = 0) (h4 : t.val % 4 = 0) :
    outsAt0 m c t.val t.isLt =
      (out0_B_2 c (grid0.coords t) (ms0_0 t) (hs0_0 t) (ms0_1 t) (hs0_1 t) (ms0_2 t) (hs0_2 t) (ms0_3 t) (hs0_3 t) ((hcond0_0 t).mpr h4) (fun h => h16 ((hcond0_1 t).mp h)) (hoff0 t h4) (iblk m c 0 t) (iblk m c 1 t) (prev0 m c t).2,
       out0_B_3 c (grid0.coords t) (ms0_0 t) (hs0_0 t) (ms0_1 t) (hs0_1 t) (ms0_2 t) (hs0_2 t) (ms0_3 t) (hs0_3 t) ((hcond0_0 t).mpr h4) (fun h => h16 ((hcond0_1 t).mp h)) (hoff0 t h4) (iblk m c 0 t) (iblk m c 1 t) (prev0 m c t).2) := by
  obtain ⟨n, hn⟩ := t
  cases n with
  | zero => exact (by exfalso; (try dsimp only at h16); exact absurd (Nat.zero_mod _) h16)
  | succ n => exact (dif_neg h16).trans ((dif_pos h4).trans rfl)

theorem outsAt0_A (c : Dev nD) (t : Fin cfg0.N) (h16 : ¬t.val % 16 = 0) (h4 : ¬t.val % 4 = 0) :
    outsAt0 m c t.val t.isLt =
      (out0_A_2 c (grid0.coords t) (ms0_0 t) (hs0_0 t) (ms0_1 t) (hs0_1 t) (ms0_2 t) (hs0_2 t) (ms0_3 t) (hs0_3 t) (fun h => h4 ((hcond0_0 t).mp h)) (fun h => h16 ((hcond0_1 t).mp h)) (iblk m c 0 t) (iblk m c 1 t) (prev0 m c t).1 (prev0 m c t).2,
       out0_A_3 c (grid0.coords t) (ms0_0 t) (hs0_0 t) (ms0_1 t) (hs0_1 t) (ms0_2 t) (hs0_2 t) (ms0_3 t) (hs0_3 t) (fun h => h4 ((hcond0_0 t).mp h)) (fun h => h16 ((hcond0_1 t).mp h)) (iblk m c 0 t) (iblk m c 1 t) (prev0 m c t).1 (prev0 m c t).2) := by
  obtain ⟨n, hn⟩ := t
  cases n with
  | zero => exact (by exfalso; (try dsimp only at h16); exact absurd (Nat.zero_mod _) h16)
  | succ n => exact (dif_neg h16).trans ((dif_neg h4).trans rfl)

/-! ## The proof data -/

/-- The arrays as the region finds them; after the body at point t each input buffer at its block and the two
    output buffers at `outsAt0`; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point with m ≠ 0 the row-minima buffer holds what the point before left: it was not written back between. -/
theorem before0_2_kept (c : Dev nD) (t : Fin cfg0.N) (h4 : ¬t.val % 4 = 0) (d) :
    (dats m 0 c).before 2 t d = (prev0 m c t).1 := by
  rw [Dat.before_out_kept _ 2 rfl t (by omega) (Bool.eq_false_iff.mpr fun h => by have := (flush0_2 _).mp h; dsimp only at this; omega)
    (fun _ => rfl) (fun _ _ => rfl)]
  dsimp only [dats]

/-- At a point other than n = m = 0 the column-minima buffer holds what the point before left. -/
theorem before0_3_kept (c : Dev nD) (t : Fin cfg0.N) (h16 : ¬t.val % 16 = 0) (d) :
    (dats m 0 c).before 3 t d = (prev0 m c t).2 := by
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 3200000 in
/-- The body at any point: the closed forms say which case the point is in; a buffer the case reads before covering
    holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h16 : t.val % 16 = 0
  · have h4 : t.val % 4 = 0 := by omega
    rw [outsAt0_C m c t h16 h4]
    dsimp only
    unfold out0_C_2 out0_C_3
    iintro ⟨HΦ, Ho, ⟨%d0, H0⟩, ⟨%d1, H1⟩, ⟨%d2, H2⟩, ⟨%d3, H3⟩⟩
    iapply ((kernelRun0_C c (grid0.coords t) _ _ _ _ _ _ _ _ ((hcond0_0 t).mpr h4) ((hcond0_1 t).mpr h16) (hoff0 t h4) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_C_2 c _ _ _ _ _ _ _ _ _ _ _ _ _ _)
    · unfold owns; iexists _; isplitr
      swap; · iexact H3
      ipureintro; exact View.read_writes_of_cover _ _ _ _ _ (cover0_C_3 c _ _ _ _ _ _ _ _ _ _ _ _ _ _)
  · by_cases h4 : t.val % 4 = 0
    · rw [outsAt0_B m c t h16 h4]
      dsimp only
      simp only [before0_3_kept m c t h16]
      unfold out0_B_2 out0_B_3
      iintro ⟨HΦ, Ho, ⟨%d0, H0⟩, ⟨%d1, H1⟩, ⟨%d2, H2⟩, ⟨%d3, H3⟩⟩
      iapply ((kernelRun0_B c (grid0.coords t) _ _ _ _ _ _ _ _ ((hcond0_0 t).mpr h4) (fun h => h16 ((hcond0_1 t).mp h)) (hoff0 t h4) (iblk m c 0 t) (iblk m c 1 t) _).2.2 Set.univ _)
      isplitl [H0]; · iexact H0
      isplitl [H1]; · iexact H1
      isplitl [H2]; · iexists _; iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _)
      · unfold owns; iexists _; isplitr
        swap; · iexact H3
        ipureintro; rfl
    · rw [outsAt0_A m c t h16 h4]
      dsimp only
      simp only [before0_2_kept m c t h4, before0_3_kept m c t h16]
      unfold out0_A_2 out0_A_3
      iintro ⟨HΦ, Ho, ⟨%d0, H0⟩, ⟨%d1, H1⟩, ⟨%d2, H2⟩, ⟨%d3, H3⟩⟩
      iapply ((kernelRun0_A c (grid0.coords t) _ _ _ _ _ _ _ _ (fun h => h4 ((hcond0_0 t).mp h)) (fun h => h16 ((hcond0_1 t).mp h)) (iblk m c 0 t) (iblk m c 1 t) _ _).2.2 Set.univ _)
      isplitl [H0]; · iexact H0
      isplitl [H1]; · iexact H1
      isplitl [H2]; · iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _)
      · unfold owns; iexists _; isplitr
        swap; · iexact H3
        ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array the region stages ends at what the library
    computes from the proof data, every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Fr

end
-- ==== Proof.KI.Outs.lean ====
/-
  What each case of the body leaves in the two minima buffers, as functions of what it loaded.
  Rows (the [1,1024,1] buffer): always one whole store of the row fold (`k0_pay4`) of the two input blocks and of
  the buffer's previous contents — which are +∞ (`k0_pay3`) where the case reset it first.
  Columns (the [1,1,4096] buffer): one store into the 1024 columns from 1024 m on, of the column fold (`k0_pay1` of
  `k0_pay6`) against what those columns held — +∞ (`k0_pay5`) where the case reset the buffer first; every other
  column keeps what it held.
-/
import proofs.«150241_j45406394253980_2_alg».proof.Proof.KI.Frame
import Idealize.ShloMosaic.Lib.Pipeline.Value
import Idealize.ShloMosaic.Lib.WritesUnit
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl

/-! ## The row minima -/

/-- m ≠ 0: the row fold of the blocks over what the buffer held. -/
theorem out_A_2 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : ¬cond0_0 i) (hc1 : ¬cond0_1 i)
    (x0 : Vec F S1x1024x8 .f32) (x1 : Vec F S1x8x1024 .f32) (xo2 : Vec F S1x1024x1 .f32) (xo3 : Vec F S1x1x4096 .f32) :
    out0_A_2 c i arg3 harg3 arg4 harg4 arg5 harg5 arg6 harg6 hc0 hc1 x0 x1 xo2 xo3 = k0_pay4 x0 x1 xo2 := by
  unfold out0_A_2
  rw [View.read_writes_eq_canon _ _ _ (cover0_A_2 c i arg3 harg3 arg4 harg4 arg5 harg5 arg6 harg6 hc0 hc1 x0 x1 xo2 xo3)]
  unfold kernelRun0_A
  dsimp only
  rw [View.canon_unit_zero hz3]
  simp only [View.readAt_eq_ld, harg3.read_unread, harg4.read_unread, harg5.read_unread,
    View.ld_unit_zero (S := S1x1024x8) hz3, View.ld_unit_zero (S := S1x8x1024) hz3, View.ld_unit_zero (S := S1x1024x1) hz3]

/-- m = 0 < n: the row fold of the blocks over +∞. -/
theorem out_B_2 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : ¬cond0_1 i) (hl0 : k0_off1 i = ![0, 0, 0])
    (x0 : Vec F S1x1024x8 .f32) (x1 : Vec F S1x8x1024 .f32) (xo3 : Vec F S1x1x4096 .f32) :
    out0_B_2 c i arg3 harg3 arg4 harg4 arg5 harg5 arg6 harg6 hc0 hc1 hl0 x0 x1 xo3 = k0_pay4 x0 x1 k0_pay3 := by
  unfold out0_B_2
  rw [View.read_writes_eq_canon _ _ _ (cover0_B_2 c i arg3 harg3 arg4 harg4 arg5 harg5 arg6 harg6 hc0 hc1 hl0 x0 x1 xo3)]
  unfold kernelRun0_B
  dsimp only
  sl_unfold_words
  rw [View.canon_cons_unit_zero (S := S1x1024x1) hz3, View.readCov_unit_zero (S := S1x1024x1) _ hz3]
  simp only [View.readAt_eq_ld, harg3.read_unread, harg4.read_unread,
    View.ld_unit_zero (S := S1x1024x8) hz3, View.ld_unit_zero (S := S1x8x1024) hz3, View.ld_unit_zero (S := S1x1024x1) hz3]

/-- n = m = 0: the same. -/
theorem out_C_2 (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : cond0_1 i) (hl0 : k0_off1 i = ![0, 0, 0])
    (x0 : Vec F S1x1024x8 .f32) (x1 : Vec F S1x8x1024 .f32) :
    out0_C_2 c i arg3 harg3 arg4 harg4 arg5 harg5 arg6 harg6 hc0 hc1 hl0 x0 x1 = k0_pay4 x0 x1 k0_pay3 := by
  unfold out0_C_2
  rw [View.read_writes_eq_canon _ _ _ (cover0_C_2 c i arg3 harg3 arg4 harg4 arg5 harg5 arg6 harg6 hc0 hc1 hl0 x0 x1)]
  unfold kernelRun0_C
  dsimp only
  sl_unfold_words
  rw [View.canon_cons_unit_zero (S := S1x1024x1) hz3, View.readCov_unit_zero (S := S1x1024x1) _ hz3]
  simp only [View.readAt_eq_ld, harg3.read_unread, harg4.read_unread,
    View.ld_unit_zero (S := S1x1024x8) hz3, View.ld_unit_zero (S := S1x8x1024) hz3, View.ld_unit_zero (S := S1x1024x1) hz3]

/-! ## The column minima -/

/-- The 1024 columns from 1024 m on, of contents X of the column buffer. -/
abbrev colSlice (i : grid0.Coords) (X : Vec F S1x1x4096 .f32) : Vec F S1x1x1024 .f32 :=
  View.ld X (Rect.unit (s := S1x1x4096) (k0_off1 i) S1x1x1024.size (k0_off1_inb i))

/-- m ≠ 0, a column of the point's tile: the column fold against what it held. -/
theorem out_A_3_hit (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : ¬cond0_0 i) (hc1 : ¬cond0_1 i)
    (x0 : Vec F S1x1024x8 .f32) (x1 : Vec F S1x8x1024 .f32) (xo2 : Vec F S1x1024x1 .f32) (xo3 : Vec F S1x1x4096 .f32)
    (q : Fin 1024) (col : Fin 4096) (hcol : col.val = 1024 * (i 2).val + q.val) :
    out0_A_3 c i arg3 harg3 arg4 harg4 arg5 harg5 arg6 harg6 hc0 hc1 x0 x1 xo2 xo3 (ValueIdx.ix3 (0 : Fin 1) (0 : Fin 1) col)
      = k0_pay1 (k0_pay6 x0 x1) (k0_pay7 (colSlice i xo3)) (ValueIdx.ix3 (0 : Fin 1) (0 : Fin 1) q) := by
  unfold out0_A_3
  unfold kernelRun0_A
  dsimp only
  sl_unfold_words
  refine (View.read_writes_cons_unit_of_mem _ _ _ _ _ (ValueIdx.ix3 (0 : Fin 1) (0 : Fin 1) col) (ValueIdx.ix3 (0 : Fin 1) (0 : Fin 1) q) (k0_off1_eq i) ?_).trans ?_
  · intro a
    match a with
    | ⟨0, _⟩ => rfl
    | ⟨1, _⟩ => rfl
    | ⟨2, _⟩ => exact hcol
  · simp only [View.readAt_eq_ld, harg3.read_unread, harg4.read_unread, harg6.read_unread,
      View.ld_unit_zero (S := S1x1024x8) hz3, View.ld_unit_zero (S := S1x8x1024) hz3]
    rfl

/-- m ≠ 0, a column outside the point's tile keeps what it held. -/
theorem out_A_3_miss (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : ¬cond0_0 i) (hc1 : ¬cond0_1 i)
    (x0 : Vec F S1x1024x8 .f32) (x1 : Vec F S1x8x1024 .f32) (xo2 : Vec F S1x1024x1 .f32) (xo3 : Vec F S1x1x4096 .f32)
    (col : Fin 4096) (hcol : col.val < 1024 * (i 2).val ∨ 1024 * (i 2).val + 1024 ≤ col.val) :
    out0_A_3 c i arg3 harg3 arg4 harg4 arg5 harg5 arg6 harg6 hc0 hc1 x0 x1 xo2 xo3 (ValueIdx.ix3 (0 : Fin 1) (0 : Fin 1) col) = xo3 (ValueIdx.ix3 (0 : Fin 1) (0 : Fin 1) col) := by
  unfold out0_A_3
  unfold kernelRun0_A
  dsimp only
  refine (View.read_writes_cons_unit_of_not_mem _ _ _ _ _ (ValueIdx.ix3 (0 : Fin 1) (0 : Fin 1) col) (k0_off1_eq i) (2 : Fin 3) ?_).trans ?_
  · exact hcol
  · rw [View.writes_nil, harg6.read_unread]

/-- m = 0 < n, a column of tile 0: the column fold against what it held. -/
theorem out_B_3_hit (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : ¬cond0_1 i) (hl0 : k0_off1 i = ![0, 0, 0])
    (x0 : Vec F S1x1024x8 .f32) (x1 : Vec F S1x8x1024 .f32) (xo3 : Vec F S1x1x4096 .f32)
    (q : Fin 1024) (col : Fin 4096) (hcol : col.val = 1024 * (i 2).val + q.val) :
    out0_B_3 c i arg3 harg3 arg4 harg4 arg5 harg5 arg6 harg6 hc0 hc1 hl0 x0 x1 xo3 (ValueIdx.ix3 (0 : Fin 1) (0 : Fin 1) col)
      = k0_pay1 (k0_pay6 x0 x1) (k0_pay7 (colSlice i xo3)) (ValueIdx.ix3 (0 : Fin 1) (0 : Fin 1) q) := by
  unfold out0_B_3
  unfold kernelRun0_B
  dsimp only
  sl_unfold_words
  refine (View.read_writes_cons_unit_of_mem _ _ _ _ _ (ValueIdx.ix3 (0 : Fin 1) (0 : Fin 1) col) (ValueIdx.ix3 (0 : Fin 1) (0 : Fin 1) q) (k0_off1_eq i) ?_).trans ?_
  · intro a
    match a with
    | ⟨0, _⟩ => rfl
    | ⟨1, _⟩ => rfl
    | ⟨2, _⟩ => exact hcol
  · simp only [View.readAt_eq_ld, harg3.read_unread, harg4.read_unread, harg6.read_unread,
      View.ld_unit_zero (S := S1x1024x8) hz3, View.ld_unit_zero (S := S1x8x1024) hz3]
    rfl

/-- m = 0 < n, a column outside tile 0 keeps what it held. -/
theorem out_B_3_miss (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : ¬cond0_1 i) (hl0 : k0_off1 i = ![0, 0, 0])
    (x0 : Vec F S1x1024x8 .f32) (x1 : Vec F S1x8x1024 .f32) (xo3 : Vec F S1x1x4096 .f32)
    (col : Fin 4096) (hcol : col.val < 1024 * (i 2).val ∨ 1024 * (i 2).val + 1024 ≤ col.val) :
    out0_B_3 c i arg3 harg3 arg4 harg4 arg5 harg5 arg6 harg6 hc0 hc1 hl0 x0 x1 xo3 (ValueIdx.ix3 (0 : Fin 1) (0 : Fin 1) col) = xo3 (ValueIdx.ix3 (0 : Fin 1) (0 : Fin 1) col) := by
  unfold out0_B_3
  unfold kernelRun0_B
  dsimp only
  refine (View.read_writes_cons_unit_of_not_mem _ _ _ _ _ (ValueIdx.ix3 (0 : Fin 1) (0 : Fin 1) col) (k0_off1_eq i) (2 : Fin 3) ?_).trans ?_
  · exact hcol
  · rw [View.writes_nil, harg6.read_unread]

/-- n = m = 0, a column of tile 0: the column fold against +∞. -/
theorem out_C_3_hit (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : cond0_1 i) (hl0 : k0_off1 i = ![0, 0, 0])
    (x0 : Vec F S1x1024x8 .f32) (x1 : Vec F S1x8x1024 .f32)
    (q : Fin 1024) (col : Fin 4096) (hcol : col.val = 1024 * (i 2).val + q.val) :
    out0_C_3 c i arg3 harg3 arg4 harg4 arg5 harg5 arg6 harg6 hc0 hc1 hl0 x0 x1 (ValueIdx.ix3 (0 : Fin 1) (0 : Fin 1) col)
      = k0_pay1 (k0_pay6 x0 x1) (k0_pay7 (colSlice i k0_pay5)) (ValueIdx.ix3 (0 : Fin 1) (0 : Fin 1) q) := by
  unfold out0_C_3
  unfold kernelRun0_C
  dsimp only
  sl_unfold_words
  refine (View.read_writes_cons_unit_of_mem _ _ _ _ _ (ValueIdx.ix3 (0 : Fin 1) (0 : Fin 1) col) (ValueIdx.ix3 (0 : Fin 1) (0 : Fin 1) q) (k0_off1_eq i) ?_).trans ?_
  · intro a
    match a with
    | ⟨0, _⟩ => rfl
    | ⟨1, _⟩ => rfl
    | ⟨2, _⟩ => exact hcol
  · have hcov : ∀ y : S1x1x4096.Idx, ∃ p ∈ ([⟨Rect.unit (s := S1x1x4096) ![0, 0, 0] S1x1x4096.size inb_S1x1x4096_S1x1x4096_0_0_0, k0_pay5 (F := F)⟩] : List (View.Piece (Elt F) S1x1x4096 .f32)), y ∈ p.1.set :=
      fun y => ⟨_, List.mem_singleton_self _, View.mem_set_unit_zero hz3 inb_S1x1x4096_S1x1x4096_0_0_0 y⟩
    rw [View.readCov_eq_canon_ld arg6.view _ _ hcov, View.canon_unit_zero hz3]
    simp only [View.readAt_eq_ld, harg3.read_unread, harg4.read_unread,
      View.ld_unit_zero (S := S1x1024x8) hz3, View.ld_unit_zero (S := S1x8x1024) hz3]
    rfl

/-- n = m = 0, a column outside tile 0 is +∞. -/
theorem out_C_3_miss (c : Dev nD) (i : grid0.Coords) (arg3 : Memref sig .tc .vmem S1x1024x8 .f32) (harg3 : arg3.IsWhole) (arg4 : Memref sig .tc .vmem S1x8x1024 .f32) (harg4 : arg4.IsWhole) (arg5 : Memref sig .tc .vmem S1x1024x1 .f32) (harg5 : arg5.IsWhole) (arg6 : Memref sig .tc .vmem S1x1x4096 .f32) (harg6 : arg6.IsWhole) (hc0 : cond0_0 i) (hc1 : cond0_1 i) (hl0 : k0_off1 i = ![0, 0, 0])
    (x0 : Vec F S1x1024x8 .f32) (x1 : Vec F S1x8x1024 .f32)
    (col : Fin 4096) (hcol : col.val < 1024 * (i 2).val ∨ 1024 * (i 2).val + 1024 ≤ col.val) :
    out0_C_3 c i arg3 harg3 arg4 harg4 arg5 harg5 arg6 harg6 hc0 hc1 hl0 x0 x1 (ValueIdx.ix3 (0 : Fin 1) (0 : Fin 1) col) = k0_pay5 (ValueIdx.ix3 (0 : Fin 1) (0 : Fin 1) col) := by
  unfold out0_C_3
  unfold kernelRun0_C
  dsimp only
  sl_unfold_words
  refine (View.read_writes_cons_unit_of_not_mem _ _ _ _ _ (ValueIdx.ix3 (0 : Fin 1) (0 : Fin 1) col) (k0_off1_eq i) (2 : Fin 3) ?_).trans ?_
  · exact hcol
  · exact View.read_writes_cons_unit_of_mem _ _ _ _ _ (ValueIdx.ix3 (0 : Fin 1) (0 : Fin 1) col) (ValueIdx.ix3 (0 : Fin 1) (0 : Fin 1) col) rfl
      (fun a => by
        match a with
        | ⟨0, _⟩ => rfl
        | ⟨1, _⟩ => rfl
        | ⟨2, _⟩ => exact (Nat.zero_add _).symm)

end Cert.KernelIdeal.Fr

end
-- ==== Proof.KI.Blocks.lean ====
/-
  What an input window's block at a grid point reads, at coordinates. The grid is 8 × 4 × 4: point t has batch
  b = t / 16, row tile n = (t / 4) % 4 and column tile j = t % 4. The first input window cuts the array of
  augmented left vectors [8, 4096, 8] into blocks [1, 1024, 8] and is at block (b, n, 0) at point t; the second
  cuts the array of augmented right vectors [8, 8, 4096] into blocks [1, 8, 1024] and is at block (b, 0, j).
  A block's coordinate on an axis is (block index) × (block size) + (the coordinate inside the block).
-/
import proofs.«150241_j45406394253980_2_alg».proof.Proof.KI.Kit
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The grid has 128 points. -/
theorem point_lt (t : Fin cfg0.N) : t.val < 128 := lt_of_lt_of_eq t.isLt N_0

/-- The first input window's block index at point t is (t / 16, (t / 4) % 4, 0). -/
theorem idx0 : ∀ t : Fin cfg0.N, win0_0.index t 0 = t.val / 16 ∧ win0_0.index t 1 = (t.val / 4) % 4
    ∧ win0_0.index t 2 = 0 :=
  (by decide +kernel : ∀ t : Fin grid0.N, _)

/-- The second input window's block index at point t is (t / 16, 0, t % 4). -/
theorem idx1 : ∀ t : Fin cfg0.N, win0_1.index t 0 = t.val / 16 ∧ win0_1.index t 1 = 0
    ∧ win0_1.index t 2 = t.val % 4 :=
  (by decide +kernel : ∀ t : Fin grid0.N, _)

/-- Row p, component k of the first window's block at point t is row 1024·n + p of batch b of the array. -/
theorem iblk0_apply (c : Dev nD) (t : Fin cfg0.N) (p : Fin 1024) (k : Fin 8) :
    (iblk m c 0 t : Vec F S1x1024x8 .f32) (ValueIdx.ix3 (0 : Fin 1) p k)
      = (V m c main_v27 : Vec F S8x4096x8 .f32)
          (ValueIdx.ix3 (⟨t.val / 16, by have := point_lt t; omega⟩ : Fin 8)
            (⟨1024 * ((t.val / 4) % 4) + p.val, by omega⟩ : Fin 4096) k) := by
  obtain ⟨e0, e1, e2⟩ := idx0 t
  unfold iblk
  rw [View.read_apply]
  show V m c main_v27 _ = V m c main_v27 _
  congr 1
  funext a
  apply Fin.ext
  match a with
  | ⟨0, _⟩ => show win0_0.index t 0 * 1 + 1 * 0 = t.val / 16; rw [e0]; omega
  | ⟨1, _⟩ => show win0_0.index t 1 * 1024 + 1 * p.val = 1024 * ((t.val / 4) % 4) + p.val; rw [e1]; omega
  | ⟨2, _⟩ => show win0_0.index t 2 * 8 + 1 * k.val = k.val; rw [e2]; omega

/-- Component k, column q of the second window's block at point t is column 1024·j + q of batch b of the array. -/
theorem iblk1_apply (c : Dev nD) (t : Fin cfg0.N) (k : Fin 8) (q : Fin 1024) :
    (iblk m c 1 t : Vec F S1x8x1024 .f32) (ValueIdx.ix3 (0 : Fin 1) k q)
      = (V m c main_v49 : Vec F S8x8x4096 .f32)
          (ValueIdx.ix3 (⟨t.val / 16, by have := point_lt t; omega⟩ : Fin 8) k
            (⟨1024 * (t.val % 4) + q.val, by omega⟩ : Fin 4096)) := by
  obtain ⟨e0, e1, e2⟩ := idx1 t
  unfold iblk
  rw [View.read_apply]
  show V m c main_v49 _ = V m c main_v49 _
  congr 1
  funext a
  apply Fin.ext
  match a with
  | ⟨0, _⟩ => show win0_1.index t 0 * 1 + 1 * 0 = t.val / 16; rw [e0]; omega
  | ⟨1, _⟩ => show win0_1.index t 1 * 8 + 1 * k.val = k.val; rw [e1]; omega
  | ⟨2, _⟩ => show win0_1.index t 2 * 1024 + 1 * q.val = 1024 * (t.val % 4) + q.val; rw [e2]; omega

end Cert.KernelIdeal.Fr

end
-- ==== Proof.Spec.lean ====
/-
  The mathematics of the squared-distance minima, stated once over the extended reals and over no program.

  A cloud is 8 batches of 4096 points in 3-space. For clouds x, y the squared distance of point n of x and point m
  of y (same batch b) is |x_n|² + |y_m|² − 2·⟨x_n, y_m⟩, clamped below by 0.  One side computes it exactly so
  (`dRef`); the other as ONE inner product of two augmented 8-vectors,
      (−2x₀, −2x₁, −2x₂, |x|², 1, 0, 0, 0) · (y₀, y₁, y₂, 1, |y|², 0, 0, 0)      (`dKer`),
  which is the same number whenever the coordinates are real (distributivity fails at infinities).
  The minimum over all m (resp. all n) is taken either in one sweep (`p2gRef`, `g2pRef`) or tile by tile:
  the axis is cut into 4 tiles of 1024, each tile's minimum is taken from +∞, and the four are folded into a
  running minimum that starts at +∞ (`accPart`, `p2gKer`, `g2pKer`).
-/
import Idealize.ShloMosaic.PureOps.Ideal
import Idealize.ShloMosaic.Lib.ValueIdx

noncomputable section

namespace Cert.Chamfer

open Idealize.ShloMosaic Idealize.ShloMosaic.ValueIdx

/-- 8 batches of 4096 points with 3 coordinates, as extended reals. -/
abbrev Cloud : Type := (⟨3, ![8, 4096, 3]⟩ : Shape).Idx → EReal

/-- The float patterns the two programs share, read at the ideal instance: +∞, 0, 1, 2, −2. -/
abbrev inf32 : EReal := Ideal.ofBits .f32 0x7F800000#32
abbrev zero32 : EReal := Ideal.ofBits .f32 0x00000000#32
abbrev one32 : EReal := Ideal.ofBits .f32 0x3F800000#32
abbrev two32 : EReal := Ideal.ofBits .f32 0x40000000#32
abbrev negTwo32 : EReal := Ideal.ofBits .f32 0xC0000000#32

/-- Every coordinate of the cloud is a real number. -/
def RealCloud (x : Cloud) : Prop := ∀ i, ∃ r : ℝ, x i = (r : EReal)

/-! ## The squared distance, two ways -/

/-- |x_n|² summed from zero over the three coordinates. -/
def sqR (x : Cloud) (b : Fin 8) (n : Fin 4096) : EReal :=
  zero32 + ∑ k : Fin 3, x (ix3 b n k) * x (ix3 b n k)

/-- ⟨x_n, y_m⟩. -/
def dotR (x y : Cloud) (b : Fin 8) (n m : Fin 4096) : EReal :=
  ∑ k : Fin 3, x (ix3 b n k) * y (ix3 b m k)

/-- max (|x_n|² + |y_m|² − 2⟨x_n, y_m⟩) 0. -/
def dRef (x y : Cloud) (b : Fin 8) (n m : Fin 4096) : EReal :=
  max ((sqR x b n + sqR y b m) - two32 * dotR x y b n m) zero32

/-- |x_n|² as (x₀² + x₁²) + x₂². -/
def sqK (x : Cloud) (b : Fin 8) (n : Fin 4096) : EReal :=
  (x (ix3 b n 0) * x (ix3 b n 0) + x (ix3 b n 1) * x (ix3 b n 1)) + x (ix3 b n 2) * x (ix3 b n 2)

/-- The augmented left vector (−2x₀, −2x₁, −2x₂, |x|², 1, 0, 0, 0) of point n. -/
def augL (x : Cloud) (b : Fin 8) (n : Fin 4096) : Fin 8 → EReal :=
  ![negTwo32 * x (ix3 b n 0), negTwo32 * x (ix3 b n 1), negTwo32 * x (ix3 b n 2), sqK x b n, one32, zero32, zero32, zero32]

/-- The augmented right vector (y₀, y₁, y₂, 1, |y|², 0, 0, 0) of point m. -/
def augR (y : Cloud) (b : Fin 8) (m : Fin 4096) : Fin 8 → EReal :=
  ![y (ix3 b m 0), y (ix3 b m 1), y (ix3 b m 2), one32, sqK y b m, zero32, zero32, zero32]

/-- max (augL · augR) 0. -/
def dKer (x y : Cloud) (b : Fin 8) (n m : Fin 4096) : EReal :=
  max (∑ k : Fin 8, augL x b n k * augR y b m k) zero32

/-! ## The minima, two ways -/

/-- The minimum over the whole axis in one sweep from +∞. -/
def sweepMin (f : Fin 4096 → EReal) : EReal := Finset.univ.fold min inf32 f

/-- Position q of tile j on an axis of 4 tiles of 1024. -/
abbrev tilePos (j : Fin 4) (q : Fin 1024) : Fin 4096 := ⟨1024 * j.val + q.val, by omega⟩

/-- Tile j's minimum from +∞. -/
def tileMin (f : Fin 4096 → EReal) (j : Fin 4) : EReal :=
  Finset.univ.fold min inf32 (fun q : Fin 1024 => f (tilePos j q))

/-- The running minimum after the first k tiles, started at +∞. -/
def accPart (f : Fin 4096 → EReal) : ℕ → EReal
  | 0 => inf32
  | k + 1 => if h : k < 4 then min (accPart f k) (tileMin f ⟨k, h⟩) else accPart f k

/-- min over m of the reference's distance. -/
def p2gRef (x y : Cloud) (b : Fin 8) (n : Fin 4096) : EReal := sweepMin fun m => dRef x y b n m
/-- min over n of the reference's distance. -/
def g2pRef (x y : Cloud) (b : Fin 8) (m : Fin 4096) : EReal := sweepMin fun n => dRef x y b n m
/-- The tile-by-tile running minimum over m of the augmented-product distance, all 4 tiles in. -/
def p2gKer (x y : Cloud) (b : Fin 8) (n : Fin 4096) : EReal := accPart (fun m => dKer x y b n m) 4
/-- The tile-by-tile running minimum over n of the augmented-product distance, all 4 tiles in. -/
def g2pKer (x y : Cloud) (b : Fin 8) (m : Fin 4096) : EReal := accPart (fun n => dKer x y b n m) 4

end Cert.Chamfer

end
-- ==== Proof.Payload.lean ====
/-
  The kernel side's pure values, read at an index. One grid step holds a block of 1024 augmented left vectors
  (rows of 8) and a block of 1024 augmented right vectors (columns of 8) of one batch. The tile's array is their
  1024 × 1024 matrix of inner products, clamped below by 0. Its minimum from +∞ over the columns of each row is folded
  into a column of running minima, its minimum from +∞ over the rows of each column into a row of running minima;
  both running minima start at +∞. The remaining values only add or drop a unit axis. A minimum over one axis from
  +∞ is the sweep over that axis's coordinates, and a product into a zero accumulator is the sum of the 8 products.
-/
import proofs.«150241_j45406394253980_2_alg».proof.Proof.Gen.KernelIdeal.Skeleton
import proofs.«150241_j45406394253980_2_alg».proof.Proof.Spec
import Idealize.ShloMosaic.PureOps.Reduce
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx Cert.Chamfer

/-! ## The payloads that only move or fill -/

/-- The running minimum of a tile of columns: the elementwise minimum of the two rows, stored under a unit axis. -/
theorem pay1_apply (v26 v29 : FVec Ideal S1x1024 .f32) (q : Fin 1024) :
    k0_pay1 (F := Ideal) v26 v29 (ix3 (0 : Fin 1) (0 : Fin 1) q) = min (v29 (ix2 (0 : Fin 1) q)) (v26 (ix2 (0 : Fin 1) q)) := by
  unfold k0_pay1
  exact shapeCast_ab_1ab_apply (minimumf v29 v26) _ (0 : Fin 1) (0 : Fin 1) q

/-- A row read with its leading unit axis dropped. -/
theorem pay7_apply (v28 : Vec Ideal S1x1x1024 .f32) (q : Fin 1024) :
    k0_pay7 (F := Ideal) v28 (ix2 (0 : Fin 1) q) = v28 (ix3 (0 : Fin 1) (0 : Fin 1) q) := by
  unfold k0_pay7
  exact shapeCast_1ab_ab_apply v28 _ (0 : Fin 1) q

/-- The column of running minima starts at +∞. -/
theorem pay3_apply (p : Fin 1024) : k0_pay3 (F := Ideal) (ix3 (0 : Fin 1) p (0 : Fin 1)) = inf32 := rfl

/-- The row of running minima starts at +∞. -/
theorem pay5_apply (col : Fin 4096) : k0_pay5 (F := Ideal) (ix3 (0 : Fin 1) (0 : Fin 1) col) = inf32 := rfl

/-! ## The clamped matrix product -/

/-- The left operand's row coordinate at result index i is i's row. -/
theorem lhs_row (i : S1024x1024.Idx) (c : dot_S1024x8_S8x1024_S1024x1024_1_0_0_1_n_n.contr.Idx) :
    (dot_S1024x8_S8x1024_S1024x1024_1_0_0_1_n_n.lhsIdx i c 0).val = (i 0).val := by
  unfold DotDims.lhsIdx
  rw [dif_neg (show ¬(0 : Fin S1024x8.rank) ∈ dot_S1024x8_S8x1024_S1024x1024_1_0_0_1_n_n.lhsBatch by decide),
    dif_pos (show (0 : Fin S1024x8.rank) ∈ dot_S1024x8_S8x1024_S1024x1024_1_0_0_1_n_n.lhsNonContracting by decide)]
  rfl

/-- Its column coordinate is the contracted position. -/
theorem lhs_col (i : S1024x1024.Idx) (c : dot_S1024x8_S8x1024_S1024x1024_1_0_0_1_n_n.contr.Idx) :
    (dot_S1024x8_S8x1024_S1024x1024_1_0_0_1_n_n.lhsIdx i c 1).val = (c ⟨0, by decide⟩).val :=
  dot_S1024x8_S8x1024_S1024x1024_1_0_0_1_n_n.lhsIdx_val_of_single rfl i c

/-- The right operand's row coordinate is the contracted position. -/
theorem rhs_row (i : S1024x1024.Idx) (c : dot_S1024x8_S8x1024_S1024x1024_1_0_0_1_n_n.contr.Idx) :
    (dot_S1024x8_S8x1024_S1024x1024_1_0_0_1_n_n.rhsIdx i c 0).val = (c ⟨0, by decide⟩).val :=
  dot_S1024x8_S8x1024_S1024x1024_1_0_0_1_n_n.rhsIdx_val_of_single rfl i c

/-- Its column coordinate at result index i is i's column. -/
theorem rhs_col (i : S1024x1024.Idx) (c : dot_S1024x8_S8x1024_S1024x1024_1_0_0_1_n_n.contr.Idx) :
    (dot_S1024x8_S8x1024_S1024x1024_1_0_0_1_n_n.rhsIdx i c 1).val = (i 1).val := by
  unfold DotDims.rhsIdx
  rw [dif_neg (show ¬(1 : Fin S8x1024.rank) ∈ dot_S1024x8_S8x1024_S1024x1024_1_0_0_1_n_n.rhsBatch by decide),
    dif_pos (show (1 : Fin S8x1024.rank) ∈ dot_S1024x8_S8x1024_S1024x1024_1_0_0_1_n_n.rhsNonContracting by decide)]
  rfl

/-- Entry (p, q) of a 1024 × 8 matrix times an 8 × 1024 matrix, accumulated from zero, is the sum over the
    8 contracted positions of the products. -/
theorem matmul_entry (l : FVec Ideal S1024x8 .f32) (r : FVec Ideal S8x1024 .f32) (p q : Fin 1024) :
    matmul (F := Ideal) dot_S1024x8_S8x1024_S1024x1024_1_0_0_1_n_n (some .fp32) l r (constant (F := Ideal) S1024x1024 .f32 0x00000000#32) (ix2 p q)
      = ∑ k : Fin 8, l (ix2 p k) * r (ix2 k q) := by
  show FloatOps.matmul dot_S1024x8_S8x1024_S1024x1024_1_0_0_1_n_n (some .fp32) l r (constant (F := Ideal) S1024x1024 .f32 0x00000000#32) (ix2 p q) = _
  rw [Ideal.matmul_constant_zero_apply, ← Equiv.sum_comp (contrEquiv1 dot_S1024x8_S8x1024_S1024x1024_1_0_0_1_n_n 8 rfl rfl).symm]
  refine Finset.sum_congr rfl fun k _ => ?_
  have hk := contrEquiv1_symm_val dot_S1024x8_S8x1024_S1024x1024_1_0_0_1_n_n 8 rfl rfl k
  have el : dot_S1024x8_S8x1024_S1024x1024_1_0_0_1_n_n.lhsIdx (ix2 p q) ((contrEquiv1 dot_S1024x8_S8x1024_S1024x1024_1_0_0_1_n_n 8 rfl rfl).symm k) = ix2 p k :=
    funext fun a => Fin.ext (by
      match a with
      | ⟨0, _⟩ => exact lhs_row _ _
      | ⟨1, _⟩ => exact (lhs_col _ _).trans hk)
  have er : dot_S1024x8_S8x1024_S1024x1024_1_0_0_1_n_n.rhsIdx (ix2 p q) ((contrEquiv1 dot_S1024x8_S8x1024_S1024x1024_1_0_0_1_n_n 8 rfl rfl).symm k) = ix2 k q :=
    funext fun a => Fin.ext (by
      match a with
      | ⟨0, _⟩ => exact (rhs_row _ _).trans hk
      | ⟨1, _⟩ => exact rhs_col _ _)
  rw [el, er]

/-- Entry (p, q) of the tile's array: the inner product of row p of the left block with column q of the right block,
    clamped below by 0. -/
theorem pay2_apply (x0 : Vec Ideal S1x1024x8 .f32) (x1 : Vec Ideal S1x8x1024 .f32) (p q : Fin 1024) :
    k0_pay2 (F := Ideal) x0 x1 (ix2 p q) = max (∑ k : Fin 8, x0 (ix3 (0 : Fin 1) p k) * x1 (ix3 (0 : Fin 1) k q)) zero32 := by
  unfold k0_pay2
  show max (matmul (F := Ideal) dot_S1024x8_S8x1024_S1024x1024_1_0_0_1_n_n (some .fp32) _ _ _ (ix2 p q)) zero32 = _
  rw [matmul_entry]
  refine congrArg (max · zero32) (Finset.sum_congr rfl fun k _ => ?_)
  rw [shapeCast_1ab_ab_apply, shapeCast_1ab_ab_apply]

/-! ## The two minima of a tile -/

/-- A column vector of n entries made from a vector reads, at (p, 0), entry p. -/
theorem shapeCast_col_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column q with row k put back is (k, q). -/
theorem lift_rows (h : S1024x1024.Reduces [0] S1024) (q : Fin 1024) (k : Fin (S1024x1024.size 0)) :
    h.lift (ix1 q) k = ix2 (⟨k.val, k.isLt⟩ : Fin 1024) q := by
  funext c; apply Fin.ext
  fin_cases c <;> rfl

/-- Row p with column k put back is (p, k). -/
theorem lift_cols (h : S1024x1024.Reduces [1] S1024) (p : Fin 1024) (k : Fin (S1024x1024.size 1)) :
    h.lift (ix1 p) k = ix2 p (⟨k.val, k.isLt⟩ : Fin 1024) := by
  funext c; apply Fin.ext
  fin_cases c <;> rfl

/-- The minimum from +∞ over the rows of a 1024 × 1024 array, at column q, is the sweep over the rows there. -/
theorem minReduce_rows (src : FVec Ideal S1024x1024 .f32) (h : S1024x1024.Reduces [0] S1024) (hφ : FKind.Formats .f32)
    (hacc : (0x7F800000#32 : BitVec FTy.f32.bits) = FKind.minimumf.neutral .f32 hφ) (q : Fin 1024) :
    multiReduction (F := Ideal) .minimumf [0] S1024 src 0x7F800000#32 h hφ hacc (ix1 q)
      = Finset.univ.fold min inf32 (fun p : Fin 1024 => src (ix2 p q)) := by
  refine (multiReduction_minimumf_eq_fold src _ h hφ hacc (ix1 q)).trans ?_
  refine (h.fold_filter_drop_single _ _ src (ix1 q)).trans ?_
  have hf : (src ∘ h.lift (ix1 q)) = fun p : Fin 1024 => src (ix2 p q) :=
    funext fun k => congrArg src (lift_rows h q k)
  exact congrArg (fun f => Finset.fold min inf32 f (Finset.univ : Finset (Fin 1024))) hf

/-- The minimum from +∞ over the columns of a 1024 × 1024 array, at row p, is the sweep over the columns there. -/
theorem minReduce_cols (src : FVec Ideal S1024x1024 .f32) (h : S1024x1024.Reduces [1] S1024) (hφ : FKind.Formats .f32)
    (hacc : (0x7F800000#32 : BitVec FTy.f32.bits) = FKind.minimumf.neutral .f32 hφ) (p : Fin 1024) :
    multiReduction (F := Ideal) .minimumf [1] S1024 src 0x7F800000#32 h hφ hacc (ix1 p)
      = Finset.univ.fold min inf32 (fun q : Fin 1024 => src (ix2 p q)) := by
  refine (multiReduction_minimumf_eq_fold src _ h hφ hacc (ix1 p)).trans ?_
  refine (h.fold_filter_drop_single _ _ src (ix1 p)).trans ?_
  have hf : (src ∘ h.lift (ix1 p)) = fun q : Fin 1024 => src (ix2 p q) :=
    funext fun k => congrArg src (lift_cols h p k)
  exact congrArg (fun f => Finset.fold min inf32 f (Finset.univ : Finset (Fin 1024))) hf

/-- The tile's minimum over its rows, at column q, stored under a unit axis. -/
theorem pay6_apply (x0 : Vec Ideal S1x1024x8 .f32) (x1 : Vec Ideal S1x8x1024 .f32) (q : Fin 1024) :
    k0_pay6 (F := Ideal) x0 x1 (ix2 (0 : Fin 1) q)
      = Finset.univ.fold min inf32 (fun p : Fin 1024 => k0_pay2 (F := Ideal) x0 x1 (ix2 p q)) := by
  unfold k0_pay6
  refine (shapeCast_a_1a_apply _ _ (0 : Fin 1) q).trans ?_
  exact minReduce_rows (k0_pay2 (F := Ideal) x0 x1) _ _ _ q

/-- The column of running minima after a tile: the old entry against the tile's minimum over its columns at row p. -/
theorem pay4_apply (x0 : Vec Ideal S1x1024x8 .f32) (x1 : Vec Ideal S1x8x1024 .f32) (v12 : Vec Ideal S1x1024x1 .f32) (p : Fin 1024) :
    k0_pay4 (F := Ideal) x0 x1 v12 (ix3 (0 : Fin 1) p (0 : Fin 1))
      = min (v12 (ix3 (0 : Fin 1) p (0 : Fin 1)))
          (Finset.univ.fold min inf32 (fun q : Fin 1024 => k0_pay2 (F := Ideal) x0 x1 (ix2 p q))) := by
  unfold k0_pay4
  refine (shapeCast_ab_1ab_apply _ _ (0 : Fin 1) p (0 : Fin 1)).trans ?_
  show min (shapeCast S1024x1 v12 _ (ix2 p (0 : Fin 1))) (shapeCast S1024x1 _ _ (ix2 p (0 : Fin 1))) = _
  rw [shapeCast_1ab_ab_apply, shapeCast_col_apply]
  exact congrArg (min _) (minReduce_cols (k0_pay2 (F := Ideal) x0 x1) _ _ _ p)

end Cert.KernelIdeal.Pay

end
-- ==== Proof.Prefix.lean ====
/-
  What the host lines before the region compute, read at an index, over the extended reals.

  From each cloud the lines cut its three coordinate planes ([8, 4096, 1] slices viewed [8, 4096]), form the
  squared length (x₀² + x₁²) + x₂², the constant planes 1, 0 and −2, and lay eight planes of thickness one side by side:
      along the last axis   (−2x₀, −2x₁, −2x₂, |x|², 1, 0, 0, 0)   — the augmented left vectors of the first cloud,
      along the middle axis (y₀, y₁, y₂, 1, |y|², 0, 0, 0)          — the augmented right vectors of the second.
  A concatenation of planes of thickness one read at position k of its axis is plane k; a broadcast along a unit axis,
  a reshape that drops a unit axis and a unit-stride slice each read one entry of their operand; products, sums and
  constants are entrywise. Neither cloud is written by any of these lines.
-/
import proofs.«150241_j45406394253980_2_alg».proof.Proof.Gen.KernelIdeal.Launch
import proofs.«150241_j45406394253980_2_alg».proof.Proof.Spec
import Idealize.ShloMosaic.Lib.StableHlo.Run
import Idealize.ShloMosaic.Lib.ValueIdx
import Idealize.ShloMosaic.Lib.Pipeline.Value
import Idealize.ShloMosaic.Lib.ValueLayout

set_option maxRecDepth 8192

noncomputable section

namespace Cert.KernelIdeal.Prefix

open Idealize.ShloMosaic Idealize.ShloMosaic.TcCoe Idealize.ShloMosaic.ValueIdx
open Idealize.SL.Sem
open Cert.KernelIdeal Cert.KernelIdeal.Gen

/-! ## Reading the layout operations at an index -/

section Reads
variable {α : Type}

/-- Eight pieces of thickness one laid along the last axis: at position `k` of that axis the concatenation is
    piece `k`. -/
theorem cat8_last (p0 p1 p2 p3 p4 p5 p6 p7 : S8x4096x1.Idx → α)
    (h : Shape.Concatenates ([⟨S8x4096x1, p0⟩, ⟨S8x4096x1, p1⟩, ⟨S8x4096x1, p2⟩, ⟨S8x4096x1, p3⟩, ⟨S8x4096x1, p4⟩,
      ⟨S8x4096x1, p5⟩, ⟨S8x4096x1, p6⟩, (⟨S8x4096x1, p7⟩ : (s : Shape) × (s.Idx → α))].map (·.1)) S8x4096x8 2)
    (b : Fin 8) (n : Fin 4096) (k : Fin 8) :
    concatenate S8x4096x8 2 [⟨S8x4096x1, p0⟩, ⟨S8x4096x1, p1⟩, ⟨S8x4096x1, p2⟩, ⟨S8x4096x1, p3⟩, ⟨S8x4096x1, p4⟩,
      ⟨S8x4096x1, p5⟩, ⟨S8x4096x1, p6⟩, ⟨S8x4096x1, p7⟩] h (ix3 b n k)
      = (![p0, p1, p2, p3, p4, p5, p6, p7] : Fin 8 → S8x4096x1.Idx → α) k (ix3 b n 0) := by
  have hi : ∀ (k : Fin 8) (b' : Fin S8x4096x1.rank), b'.cast (rfl : S8x4096x1.rank = S8x4096x8.rank) ≠ 2 →
      ((ix3 b n 0 : S8x4096x1.Idx) b').val = ((ix3 b n k : S8x4096x8.Idx) (b'.cast rfl)).val := fun k b' =>
    match b' with
    | ⟨0, _⟩ => fun _ => rfl
    | ⟨1, _⟩ => fun _ => rfl
    | ⟨2, _⟩ => fun hne => absurd (Fin.ext rfl) hne
  fin_cases k
  · refine concatenate_apply_piece (2 : Fin 3) [⟨S8x4096x1, p0⟩, ⟨S8x4096x1, p1⟩, ⟨S8x4096x1, p2⟩, ⟨S8x4096x1, p3⟩, ⟨S8x4096x1, p4⟩,
        ⟨S8x4096x1, p5⟩, ⟨S8x4096x1, p6⟩, ⟨S8x4096x1, p7⟩] h (ix3 b n 0) 0 ?_ S8x4096x1 p0 ?_ ?_ 0 ?_ (ix3 b n 0) ?_ ?_
    · show (0 : ℕ) < 8; omega
    · rfl
    · rfl
    · simp
    · exact hi 0
    · rfl
  · refine concatenate_apply_piece (2 : Fin 3) [⟨S8x4096x1, p0⟩, ⟨S8x4096x1, p1⟩, ⟨S8x4096x1, p2⟩, ⟨S8x4096x1, p3⟩, ⟨S8x4096x1, p4⟩,
        ⟨S8x4096x1, p5⟩, ⟨S8x4096x1, p6⟩, ⟨S8x4096x1, p7⟩] h (ix3 b n 1) 1 ?_ S8x4096x1 p1 ?_ ?_ 1 ?_ (ix3 b n 0) ?_ ?_
    · show (1 : ℕ) < 8; omega
    · rfl
    · rfl
    · simp
    · exact hi 1
    · rfl
  · refine concatenate_apply_piece (2 : Fin 3) [⟨S8x4096x1, p0⟩, ⟨S8x4096x1, p1⟩, ⟨S8x4096x1, p2⟩, ⟨S8x4096x1, p3⟩, ⟨S8x4096x1, p4⟩,
        ⟨S8x4096x1, p5⟩, ⟨S8x4096x1, p6⟩, ⟨S8x4096x1, p7⟩] h (ix3 b n 2) 2 ?_ S8x4096x1 p2 ?_ ?_ 2 ?_ (ix3 b n 0) ?_ ?_
    · show (2 : ℕ) < 8; omega
    · rfl
    · rfl
    · simp
    · exact hi 2
    · rfl
  · refine concatenate_apply_piece (2 : Fin 3) [⟨S8x4096x1, p0⟩, ⟨S8x4096x1, p1⟩, ⟨S8x4096x1, p2⟩, ⟨S8x4096x1, p3⟩, ⟨S8x4096x1, p4⟩,
        ⟨S8x4096x1, p5⟩, ⟨S8x4096x1, p6⟩, ⟨S8x4096x1, p7⟩] h (ix3 b n 3) 3 ?_ S8x4096x1 p3 ?_ ?_ 3 ?_ (ix3 b n 0) ?_ ?_
    · show (3 : ℕ) < 8; omega
    · rfl
    · rfl
    · simp
    · exact hi 3
    · rfl
  · refine concatenate_apply_piece (2 : Fin 3) [⟨S8x4096x1, p0⟩, ⟨S8x4096x1, p1⟩, ⟨S8x4096x1, p2⟩, ⟨S8x4096x1, p3⟩, ⟨S8x4096x1, p4⟩,
        ⟨S8x4096x1, p5⟩, ⟨S8x4096x1, p6⟩, ⟨S8x4096x1, p7⟩] h (ix3 b n 4) 4 ?_ S8x4096x1 p4 ?_ ?_ 4 ?_ (ix3 b n 0) ?_ ?_
    · show (4 : ℕ) < 8; omega
    · rfl
    · rfl
    · simp
    · exact hi 4
    · rfl
  · refine concatenate_apply_piece (2 : Fin 3) [⟨S8x4096x1, p0⟩, ⟨S8x4096x1, p1⟩, ⟨S8x4096x1, p2⟩, ⟨S8x4096x1, p3⟩, ⟨S8x4096x1, p4⟩,
        ⟨S8x4096x1, p5⟩, ⟨S8x4096x1, p6⟩, ⟨S8x4096x1, p7⟩] h (ix3 b n 5) 5 ?_ S8x4096x1 p5 ?_ ?_ 5 ?_ (ix3 b n 0) ?_ ?_
    · show (5 : ℕ) < 8; omega
    · rfl
    · rfl
    · simp
    · exact hi 5
    · rfl
  · refine concatenate_apply_piece (2 : Fin 3) [⟨S8x4096x1, p0⟩, ⟨S8x4096x1, p1⟩, ⟨S8x4096x1, p2⟩, ⟨S8x4096x1, p3⟩, ⟨S8x4096x1, p4⟩,
        ⟨S8x4096x1, p5⟩, ⟨S8x4096x1, p6⟩, ⟨S8x4096x1, p7⟩] h (ix3 b n 6) 6 ?_ S8x4096x1 p6 ?_ ?_ 6 ?_ (ix3 b n 0) ?_ ?_
    · show (6 : ℕ) < 8; omega
    · rfl
    · rfl
    · simp
    · exact hi 6
    · rfl
  · refine concatenate_apply_piece (2 : Fin 3) [⟨S8x4096x1, p0⟩, ⟨S8x4096x1, p1⟩, ⟨S8x4096x1, p2⟩, ⟨S8x4096x1, p3⟩, ⟨S8x4096x1, p4⟩,
        ⟨S8x4096x1, p5⟩, ⟨S8x4096x1, p6⟩, ⟨S8x4096x1, p7⟩] h (ix3 b n 7) 7 ?_ S8x4096x1 p7 ?_ ?_ 7 ?_ (ix3 b n 0) ?_ ?_
    · show (7 : ℕ) < 8; omega
    · rfl
    · rfl
    · simp
    · exact hi 7
    · rfl

/-- Eight pieces of thickness one laid along the middle axis: at position `k` of that axis the concatenation is
    piece `k`. -/
theorem cat8_mid (p0 p1 p2 p3 p4 p5 p6 p7 : S8x1x4096.Idx → α)
    (h : Shape.Concatenates ([⟨S8x1x4096, p0⟩, ⟨S8x1x4096, p1⟩, ⟨S8x1x4096, p2⟩, ⟨S8x1x4096, p3⟩, ⟨S8x1x4096, p4⟩,
      ⟨S8x1x4096, p5⟩, ⟨S8x1x4096, p6⟩, (⟨S8x1x4096, p7⟩ : (s : Shape) × (s.Idx → α))].map (·.1)) S8x8x4096 1)
    (b : Fin 8) (k : Fin 8) (n : Fin 4096) :
    concatenate S8x8x4096 1 [⟨S8x1x4096, p0⟩, ⟨S8x1x4096, p1⟩, ⟨S8x1x4096, p2⟩, ⟨S8x1x4096, p3⟩, ⟨S8x1x4096, p4⟩,
      ⟨S8x1x4096, p5⟩, ⟨S8x1x4096, p6⟩, ⟨S8x1x4096, p7⟩] h (ix3 b k n)
      = (![p0, p1, p2, p3, p4, p5, p6, p7] : Fin 8 → S8x1x4096.Idx → α) k (ix3 b 0 n) := by
  have hi : ∀ (k : Fin 8) (b' : Fin S8x1x4096.rank), b'.cast (rfl : S8x1x4096.rank = S8x8x4096.rank) ≠ 1 →
      ((ix3 b 0 n : S8x1x4096.Idx) b').val = ((ix3 b k n : S8x8x4096.Idx) (b'.cast rfl)).val := fun k b' =>
    match b' with
    | ⟨0, _⟩ => fun _ => rfl
    | ⟨1, _⟩ => fun hne => absurd (Fin.ext rfl) hne
    | ⟨2, _⟩ => fun _ => rfl
  fin_cases k
  · refine concatenate_apply_piece (1 : Fin 3) [⟨S8x1x4096, p0⟩, ⟨S8x1x4096, p1⟩, ⟨S8x1x4096, p2⟩, ⟨S8x1x4096, p3⟩, ⟨S8x1x4096, p4⟩,
        ⟨S8x1x4096, p5⟩, ⟨S8x1x4096, p6⟩, ⟨S8x1x4096, p7⟩] h (ix3 b 0 n) 0 ?_ S8x1x4096 p0 ?_ ?_ 0 ?_ (ix3 b 0 n) ?_ ?_
    · show (0 : ℕ) < 8; omega
    · rfl
    · rfl
    · simp
    · exact hi 0
    · rfl
  · refine concatenate_apply_piece (1 : Fin 3) [⟨S8x1x4096, p0⟩, ⟨S8x1x4096, p1⟩, ⟨S8x1x4096, p2⟩, ⟨S8x1x4096, p3⟩, ⟨S8x1x4096, p4⟩,
        ⟨S8x1x4096, p5⟩, ⟨S8x1x4096, p6⟩, ⟨S8x1x4096, p7⟩] h (ix3 b 1 n) 1 ?_ S8x1x4096 p1 ?_ ?_ 1 ?_ (ix3 b 0 n) ?_ ?_
    · show (1 : ℕ) < 8; omega
    · rfl
    · rfl
    · simp
    · exact hi 1
    · rfl
  · refine concatenate_apply_piece (1 : Fin 3) [⟨S8x1x4096, p0⟩, ⟨S8x1x4096, p1⟩, ⟨S8x1x4096, p2⟩, ⟨S8x1x4096, p3⟩, ⟨S8x1x4096, p4⟩,
        ⟨S8x1x4096, p5⟩, ⟨S8x1x4096, p6⟩, ⟨S8x1x4096, p7⟩] h (ix3 b 2 n) 2 ?_ S8x1x4096 p2 ?_ ?_ 2 ?_ (ix3 b 0 n) ?_ ?_
    · show (2 : ℕ) < 8; omega
    · rfl
    · rfl
    · simp
    · exact hi 2
    · rfl
  · refine concatenate_apply_piece (1 : Fin 3) [⟨S8x1x4096, p0⟩, ⟨S8x1x4096, p1⟩, ⟨S8x1x4096, p2⟩, ⟨S8x1x4096, p3⟩, ⟨S8x1x4096, p4⟩,
        ⟨S8x1x4096, p5⟩, ⟨S8x1x4096, p6⟩, ⟨S8x1x4096, p7⟩] h (ix3 b 3 n) 3 ?_ S8x1x4096 p3 ?_ ?_ 3 ?_ (ix3 b 0 n) ?_ ?_
    · show (3 : ℕ) < 8; omega
    · rfl
    · rfl
    · simp
    · exact hi 3
    · rfl
  · refine concatenate_apply_piece (1 : Fin 3) [⟨S8x1x4096, p0⟩, ⟨S8x1x4096, p1⟩, ⟨S8x1x4096, p2⟩, ⟨S8x1x4096, p3⟩, ⟨S8x1x4096, p4⟩,
        ⟨S8x1x4096, p5⟩, ⟨S8x1x4096, p6⟩, ⟨S8x1x4096, p7⟩] h (ix3 b 4 n) 4 ?_ S8x1x4096 p4 ?_ ?_ 4 ?_ (ix3 b 0 n) ?_ ?_
    · show (4 : ℕ) < 8; omega
    · rfl
    · rfl
    · simp
    · exact hi 4
    · rfl
  · refine concatenate_apply_piece (1 : Fin 3) [⟨S8x1x4096, p0⟩, ⟨S8x1x4096, p1⟩, ⟨S8x1x4096, p2⟩, ⟨S8x1x4096, p3⟩, ⟨S8x1x4096, p4⟩,
        ⟨S8x1x4096, p5⟩, ⟨S8x1x4096, p6⟩, ⟨S8x1x4096, p7⟩] h (ix3 b 5 n) 5 ?_ S8x1x4096 p5 ?_ ?_ 5 ?_ (ix3 b 0 n) ?_ ?_
    · show (5 : ℕ) < 8; omega
    · rfl
    · rfl
    · simp
    · exact hi 5
    · rfl
  · refine concatenate_apply_piece (1 : Fin 3) [⟨S8x1x4096, p0⟩, ⟨S8x1x4096, p1⟩, ⟨S8x1x4096, p2⟩, ⟨S8x1x4096, p3⟩, ⟨S8x1x4096, p4⟩,
        ⟨S8x1x4096, p5⟩, ⟨S8x1x4096, p6⟩, ⟨S8x1x4096, p7⟩] h (ix3 b 6 n) 6 ?_ S8x1x4096 p6 ?_ ?_ 6 ?_ (ix3 b 0 n) ?_ ?_
    · show (6 : ℕ) < 8; omega
    · rfl
    · rfl
    · simp
    · exact hi 6
    · rfl
  · refine concatenate_apply_piece (1 : Fin 3) [⟨S8x1x4096, p0⟩, ⟨S8x1x4096, p1⟩, ⟨S8x1x4096, p2⟩, ⟨S8x1x4096, p3⟩, ⟨S8x1x4096, p4⟩,
        ⟨S8x1x4096, p5⟩, ⟨S8x1x4096, p6⟩, ⟨S8x1x4096, p7⟩] h (ix3 b 7 n) 7 ?_ S8x1x4096 p7 ?_ ?_ 7 ?_ (ix3 b 0 n) ?_ ?_
    · show (7 : ℕ) < 8; omega
    · rfl
    · rfl
    · simp
    · exact hi 7
    · rfl

/-- A [8, 4096] array broadcast to [8, 4096, 1] reads its own entry. -/
theorem bcast_last (h : S8x4096.BroadcastsInDim S8x4096x1 (![0, 1] : Fin 2 → Fin S8x4096x1.rank)) (q : S8x4096.Idx → α)
    (b : Fin 8) (n : Fin 4096) : broadcastInDim S8x4096x1 ![0, 1] h q (ix3 b n 0) = q (ix2 b n) :=
  broadcastInDim_apply _ h q _ (ix2 b n) fun a => match a with
    | ⟨0, _⟩ => rfl
    | ⟨1, _⟩ => rfl

/-- A [8, 4096] array broadcast to [8, 1, 4096] reads its own entry. -/
theorem bcast_mid (h : S8x4096.BroadcastsInDim S8x1x4096 (![0, 2] : Fin 2 → Fin S8x1x4096.rank)) (q : S8x4096.Idx → α)
    (b : Fin 8) (n : Fin 4096) : broadcastInDim S8x1x4096 ![0, 2] h q (ix3 b 0 n) = q (ix2 b n) :=
  broadcastInDim_apply _ h q _ (ix2 b n) fun a => match a with
    | ⟨0, _⟩ => rfl
    | ⟨1, _⟩ => rfl

/-- A scalar broadcast to [8, 4096] reads the scalar. -/
theorem bcast_scalar (h : S_.BroadcastsInDim S8x4096 (![] : Fin 0 → Fin S8x4096.rank)) (v : S_.Idx → α)
    (b : Fin 8) (n : Fin 4096) : broadcastInDim S8x4096 ![] h v (ix2 b n) = v ix0 :=
  broadcastInDim_apply _ h v _ ix0 fun a => a.elim0

/-- The [8, 4096, 1] slice at coordinate `d` of the points, viewed [8, 4096], reads coordinate `d` of point `n`. -/
theorem coord_read (x : S8x4096x3.Idx → α) (d : Fin 3) (hs : S8x4096x3.Slices ![0, 0, d.val] S8x4096x1)
    (hc : S8x4096x1.ShapeCasts S8x4096) (b : Fin 8) (n : Fin 4096) :
    shapeCast S8x4096 (extractStridedSlice S8x4096x1 ![0, 0, d.val] x hs) hc (ix2 b n) = x (ix3 b n d) := by
  refine (shapeCast_apply _ hc (ix2 b n) (ix3 b n 0) ?_).trans ?_
  · rw [Shape.rowMajor_val_three, Shape.rowMajor_val_two]
    show (b.val * 4096 + n.val) * 1 + 0 = b.val * 4096 + n.val
    omega
  · refine extractStridedSlice_apply _ x hs _ (ix3 b n d) fun a => ?_
    match a with
    | ⟨0, _⟩ => show b.val = 0 + b.val; omega
    | ⟨1, _⟩ => show n.val = 0 + n.val; omega
    | ⟨2, _⟩ => show d.val = d.val + 0; omega

end Reads

variable [Cert.KernelIdeal.Facts]
variable (m : (ℓ : Loc nD τ sig) → Buf (Elt Ideal) ℓ) (c : Dev nD)

/-- The buffers after the host lines before the region. -/
abbrev W : Valuation τ sig (Elt Ideal) := StableHlo.after (Cert.KernelIdeal.Gen.hostOps0 (F := Ideal)) (fun b => m (c, b))
/-- The first cloud as launched. -/
abbrev X : Cert.Chamfer.Cloud := m ((c : Thread nD τ).loc main_arg0)
/-- The second cloud as launched. -/
abbrev Y : Cert.Chamfer.Cloud := m ((c : Thread nD τ).loc main_arg1)

/-! ## The clouds are kept -/

/-- No host line before the region writes the first cloud. -/
theorem arg0_kept : W m c (Proc.devRef .tc main_arg0) = X m c :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line before the region writes the second cloud. -/
theorem arg1_kept : W m c (Proc.devRef .tc main_arg1) = Y m c :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The two concatenations -/

/-- The first concatenation's result is the concatenation of its eight operands' contents. -/
theorem cat27_result (hxs hy) (V : Valuation τ sig (Elt Ideal)) :
    (StableHlo.nary (τ := τ) ![main_v19, main_v20, main_v21, main_v22, main_v23, main_v24, main_v25, main_v26] main_v27
        (fun u => concatenate S8x4096x8 2 [⟨S8x4096x1, u 0⟩, ⟨S8x4096x1, u 1⟩, ⟨S8x4096x1, u 2⟩, ⟨S8x4096x1, u 3⟩, ⟨S8x4096x1, u 4⟩, ⟨S8x4096x1, u 5⟩, ⟨S8x4096x1, u 6⟩, ⟨S8x4096x1, u 7⟩] concatenates_S8x4096x1_S8x4096x1_S8x4096x1_S8x4096x1_S8x4096x1_S8x4096x1_S8x4096x1_S8x4096x1_S8x4096x8_d2)
        hxs hy).result V (Proc.devRef .tc main_v27)
      = concatenate S8x4096x8 2 [⟨S8x4096x1, V (Proc.devRef .tc main_v19)⟩, ⟨S8x4096x1, V (Proc.devRef .tc main_v20)⟩,
          ⟨S8x4096x1, V (Proc.devRef .tc main_v21)⟩, ⟨S8x4096x1, V (Proc.devRef .tc main_v22)⟩, ⟨S8x4096x1, V (Proc.devRef .tc main_v23)⟩,
          ⟨S8x4096x1, V (Proc.devRef .tc main_v24)⟩, ⟨S8x4096x1, V (Proc.devRef .tc main_v25)⟩, ⟨S8x4096x1, V (Proc.devRef .tc main_v26)⟩]
          concatenates_S8x4096x1_S8x4096x1_S8x4096x1_S8x4096x1_S8x4096x1_S8x4096x1_S8x4096x1_S8x4096x1_S8x4096x8_d2 :=
  StableHlo.nary_result _ _ _ hxs hy V

/-- The second concatenation's result is the concatenation of its eight operands' contents. -/
theorem cat49_result (hxs hy) (V : Valuation τ sig (Elt Ideal)) :
    (StableHlo.nary (τ := τ) ![main_v41, main_v42, main_v43, main_v44, main_v45, main_v46, main_v47, main_v48] main_v49
        (fun u => concatenate S8x8x4096 1 [⟨S8x1x4096, u 0⟩, ⟨S8x1x4096, u 1⟩, ⟨S8x1x4096, u 2⟩, ⟨S8x1x4096, u 3⟩, ⟨S8x1x4096, u 4⟩, ⟨S8x1x4096, u 5⟩, ⟨S8x1x4096, u 6⟩, ⟨S8x1x4096, u 7⟩] concatenates_S8x1x4096_S8x1x4096_S8x1x4096_S8x1x4096_S8x1x4096_S8x1x4096_S8x1x4096_S8x1x4096_S8x8x4096_d1)
        hxs hy).result V (Proc.devRef .tc main_v49)
      = concatenate S8x8x4096 1 [⟨S8x1x4096, V (Proc.devRef .tc main_v41)⟩, ⟨S8x1x4096, V (Proc.devRef .tc main_v42)⟩,
          ⟨S8x1x4096, V (Proc.devRef .tc main_v43)⟩, ⟨S8x1x4096, V (Proc.devRef .tc main_v44)⟩, ⟨S8x1x4096, V (Proc.devRef .tc main_v45)⟩,
          ⟨S8x1x4096, V (Proc.devRef .tc main_v46)⟩, ⟨S8x1x4096, V (Proc.devRef .tc main_v47)⟩, ⟨S8x1x4096, V (Proc.devRef .tc main_v48)⟩]
          concatenates_S8x1x4096_S8x1x4096_S8x1x4096_S8x1x4096_S8x1x4096_S8x1x4096_S8x1x4096_S8x1x4096_S8x8x4096_d1 :=
  StableHlo.nary_result _ _ _ hxs hy V

/-- The squared length of point `n` as the host lines compute it: (x₀² + x₁²) + x₂², each coordinate read through its
    slice and reshape. -/
theorem sq_read (x : S8x4096x3.Idx → EReal) (d : Fin 3) (hs : S8x4096x3.Slices ![0, 0, d.val] S8x4096x1)
    (hc : S8x4096x1.ShapeCasts S8x4096) (b : Fin 8) (n : Fin 4096) :
    (mulf (F := Ideal) (s := S8x4096) (φ := .f32) (fun i => shapeCast S8x4096 (extractStridedSlice S8x4096x1 ![0, 0, d.val] x hs) hc i)
        (fun i => shapeCast S8x4096 (extractStridedSlice S8x4096x1 ![0, 0, d.val] x hs) hc i)) (ix2 b n)
      = x (ix3 b n d) * x (ix3 b n d) :=
  (mulf_apply _ _ _).trans (congrArg₂ (· * ·) (coord_read x d hs hc b n) (coord_read x d hs hc b n))

/-- Row `n` of batch `b` of the first concatenation is the augmented left vector of point `n` of the first cloud. -/
theorem aug_left (b : Fin 8) (n : Fin 4096) (k : Fin 8) :
    (W m c (Proc.devRef .tc main_v27) : S8x4096x8.Idx → EReal) (ix3 b n k) = Cert.Chamfer.augL (X m c) b n k := by
  dsimp only [W, hostOps0]
  simp (disch := decide) only [StableHlo.after_cons, StableHlo.after_nil,
      StableHlo.nullary_result_ne', StableHlo.unary_result_ne', StableHlo.binary_result_ne', StableHlo.reshape_result_ne',
      StableHlo.nary_result_ne']
  rw [cat27_result]
  after_results_simp
  refine (cat8_last _ _ _ _ _ _ _ _ _ b n k).trans ?_
  fin_cases k
  · show _ = Cert.Chamfer.negTwo32 * X m c (ix3 b n 0)
    refine (bcast_last bcast_S8x4096_S8x4096x1_0_1 _ b n).trans ((mulf_apply _ _ _).trans (congrArg₂ (· * ·) ?_ ?_))
    · exact (bcast_scalar bcast_S_S8x4096 _ b n).trans (constant_apply _ _)
    · exact coord_read (X m c) 0 slices_S8x4096x3_S8x4096x1_0_0_0 shapeCasts_S8x4096x1_S8x4096 b n
  · show _ = Cert.Chamfer.negTwo32 * X m c (ix3 b n 1)
    refine (bcast_last bcast_S8x4096_S8x4096x1_0_1 _ b n).trans ((mulf_apply _ _ _).trans (congrArg₂ (· * ·) ?_ ?_))
    · exact (bcast_scalar bcast_S_S8x4096 _ b n).trans (constant_apply _ _)
    · exact coord_read (X m c) 1 slices_S8x4096x3_S8x4096x1_0_0_1 shapeCasts_S8x4096x1_S8x4096 b n
  · show _ = Cert.Chamfer.negTwo32 * X m c (ix3 b n 2)
    refine (bcast_last bcast_S8x4096_S8x4096x1_0_1 _ b n).trans ((mulf_apply _ _ _).trans (congrArg₂ (· * ·) ?_ ?_))
    · exact (bcast_scalar bcast_S_S8x4096 _ b n).trans (constant_apply _ _)
    · exact coord_read (X m c) 2 slices_S8x4096x3_S8x4096x1_0_0_2 shapeCasts_S8x4096x1_S8x4096 b n
  · show _ = Cert.Chamfer.sqK (X m c) b n
    refine (bcast_last bcast_S8x4096_S8x4096x1_0_1 _ b n).trans ((addf_apply _ _ _).trans (congrArg₂ (· + ·) ((addf_apply _ _ _).trans (congrArg₂ (· + ·) ?_ ?_)) ?_))
    · exact sq_read (X m c) 0 slices_S8x4096x3_S8x4096x1_0_0_0 shapeCasts_S8x4096x1_S8x4096 b n
    · exact sq_read (X m c) 1 slices_S8x4096x3_S8x4096x1_0_0_1 shapeCasts_S8x4096x1_S8x4096 b n
    · exact sq_read (X m c) 2 slices_S8x4096x3_S8x4096x1_0_0_2 shapeCasts_S8x4096x1_S8x4096 b n
  · show _ = Cert.Chamfer.one32
    exact (bcast_last bcast_S8x4096_S8x4096x1_0_1 _ b n).trans ((bcast_scalar bcast_S_S8x4096 _ b n).trans (constant_apply _ _))
  · show _ = Cert.Chamfer.zero32
    exact (bcast_last bcast_S8x4096_S8x4096x1_0_1 _ b n).trans ((bcast_scalar bcast_S_S8x4096 _ b n).trans (constant_apply _ _))
  · show _ = Cert.Chamfer.zero32
    exact (bcast_last bcast_S8x4096_S8x4096x1_0_1 _ b n).trans ((bcast_scalar bcast_S_S8x4096 _ b n).trans (constant_apply _ _))
  · show _ = Cert.Chamfer.zero32
    exact (bcast_last bcast_S8x4096_S8x4096x1_0_1 _ b n).trans ((bcast_scalar bcast_S_S8x4096 _ b n).trans (constant_apply _ _))

/-- Column `n` of batch `b` of the second concatenation is the augmented right vector of point `n` of the second cloud. -/
theorem aug_right (b : Fin 8) (k : Fin 8) (n : Fin 4096) :
    (W m c (Proc.devRef .tc main_v49) : S8x8x4096.Idx → EReal) (ix3 b k n) = Cert.Chamfer.augR (Y m c) b n k := by
  dsimp only [W, hostOps0]
  simp (disch := decide) only [StableHlo.after_cons, StableHlo.after_nil,
      StableHlo.nullary_result_ne', StableHlo.unary_result_ne', StableHlo.binary_result_ne', StableHlo.reshape_result_ne',
      StableHlo.nary_result_ne']
  rw [cat49_result]
  after_results_simp
  refine (cat8_mid _ _ _ _ _ _ _ _ _ b k n).trans ?_
  fin_cases k
  · show _ = Y m c (ix3 b n 0)
    exact (bcast_mid bcast_S8x4096_S8x1x4096_0_2 _ b n).trans (coord_read (Y m c) 0 slices_S8x4096x3_S8x4096x1_0_0_0 shapeCasts_S8x4096x1_S8x4096 b n)
  · show _ = Y m c (ix3 b n 1)
    exact (bcast_mid bcast_S8x4096_S8x1x4096_0_2 _ b n).trans (coord_read (Y m c) 1 slices_S8x4096x3_S8x4096x1_0_0_1 shapeCasts_S8x4096x1_S8x4096 b n)
  · show _ = Y m c (ix3 b n 2)
    exact (bcast_mid bcast_S8x4096_S8x1x4096_0_2 _ b n).trans (coord_read (Y m c) 2 slices_S8x4096x3_S8x4096x1_0_0_2 shapeCasts_S8x4096x1_S8x4096 b n)
  · show _ = Cert.Chamfer.one32
    exact (bcast_mid bcast_S8x4096_S8x1x4096_0_2 _ b n).trans ((bcast_scalar bcast_S_S8x4096 _ b n).trans (constant_apply _ _))
  · show _ = Cert.Chamfer.sqK (Y m c) b n
    refine (bcast_mid bcast_S8x4096_S8x1x4096_0_2 _ b n).trans ((addf_apply _ _ _).trans (congrArg₂ (· + ·) ((addf_apply _ _ _).trans (congrArg₂ (· + ·) ?_ ?_)) ?_))
    · exact sq_read (Y m c) 0 slices_S8x4096x3_S8x4096x1_0_0_0 shapeCasts_S8x4096x1_S8x4096 b n
    · exact sq_read (Y m c) 1 slices_S8x4096x3_S8x4096x1_0_0_1 shapeCasts_S8x4096x1_S8x4096 b n
    · exact sq_read (Y m c) 2 slices_S8x4096x3_S8x4096x1_0_0_2 shapeCasts_S8x4096x1_S8x4096 b n
  · show _ = Cert.Chamfer.zero32
    exact (bcast_mid bcast_S8x4096_S8x1x4096_0_2 _ b n).trans ((bcast_scalar bcast_S_S8x4096 _ b n).trans (constant_apply _ _))
  · show _ = Cert.Chamfer.zero32
    exact (bcast_mid bcast_S8x4096_S8x1x4096_0_2 _ b n).trans ((bcast_scalar bcast_S_S8x4096 _ b n).trans (constant_apply _ _))
  · show _ = Cert.Chamfer.zero32
    exact (bcast_mid bcast_S8x4096_S8x1x4096_0_2 _ b n).trans ((bcast_scalar bcast_S_S8x4096 _ b n).trans (constant_apply _ _))

end Cert.KernelIdeal.Prefix

end
-- ==== Proof.LibRealEntries.lean ====
/-
  Entries of a float array that passes the test `all(|x| < +∞)` are real numbers.

  Floats are read here as extended reals. The test takes the absolute value `max x (-x)` of every entry,
  compares it (strictly) with the word `0x7F800000`, whose value is `+∞`, and folds the resulting bits with
  `and` into one scalar bit. If that bit is 1 then every comparison bit is 1, so `max x (-x) < +∞` at every
  entry; an extended real with that property is neither `+∞` nor `-∞` (at either infinity the maximum is `+∞`),
  hence it is the image of a real number.
-/
import Idealize.ShloMosaic.Lib.ReduceAll
import Idealize.ShloMosaic.Lib.ValueIdx
import Idealize.ShloMosaic.PureOps.Ideal.Laws

namespace Cert.LibRealEntries

open Idealize.ShloMosaic

/-- The rank-0 shape has exactly one index: there is no axis to choose a coordinate on. -/
instance subsingleton_scalar_idx : Subsingleton (⟨0, ![]⟩ : Shape).Idx :=
  ⟨fun a b => funext fun d => d.elim0⟩

/-- The 32-bit word `0x7F800000` (sign 0, exponent all ones, mantissa 0) denotes `+∞`. -/
theorem ofBits_pos_inf : Ideal.ofBits .f32 0x7F800000#32 = (⊤ : EReal) := by
  simp [Ideal.ofBits, Ideal.ieee]

/-- An extended real whose absolute value `max x (-x)` is strictly below `+∞` is a real number:
    at `x = +∞` the maximum is `x` itself, at `x = -∞` it is `-x = +∞`. -/
theorem exists_real_of_abs_lt_top (x : EReal) (h : max x (-x) < ⊤) : ∃ r : ℝ, x = (r : EReal) := by
  induction x using EReal.rec with
  | bot => simp at h
  | coe r => exact ⟨r, rfl⟩
  | top => simp at h

/-- One entry: if the comparison bit of `|x| < +∞` is 1, then `x` is a real number. -/
theorem exists_real_of_cmp_bit (x : Ideal .f32)
    (h : FloatOps.cmpf .olt (FloatOps.hostAbsf x) (FloatOps.ofBits (F := Ideal) .f32 0x7F800000#32) = 1#1) :
    ∃ r : ℝ, (x : EReal) = (r : EReal) := by
  change Ideal.cmp .olt (max (x : EReal) (-(x : EReal))) (Ideal.ofBits .f32 0x7F800000#32) = 1#1 at h
  rw [ofBits_pos_inf] at h
  unfold Ideal.cmp at h
  refine exists_real_of_abs_lt_top x ?_
  by_contra hn
  simp [hn] at h

/-- A whole array: if the `and`-fold over all axes of the bits `|x i| < +∞` is 1, every entry of `x` is real. -/
theorem exists_real_of_all {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] hb (constant ⟨0, ![]⟩ .f32 0x7F800000#32)))
          (constantI ⟨0, ![]⟩ 1 1#1) hr hu ValueIdx.ix0 = 1#1)
    (i : s.Idx) : ∃ r : ℝ, x i = (r : EReal) :=
  exists_real_of_cmp_bit (x i) (Host.reduce_andi_all _ _ hr hu _ e i)

end Cert.LibRealEntries
-- ==== Proof.Algebra.lean ====
/-
  The algebra behind the two ways of computing the squared-distance minima, over the extended reals.

  Part 1: on real coordinates the inner product of the two augmented 8-vectors equals
  |x|² + |y|² − 2⟨x, y⟩ (distributivity and commutativity in ℝ), so the two clamped distances agree.
  Part 2: the minimum over the axis taken tile by tile equals the minimum taken in one sweep.
  Part 3: two arrays that pass the test all(|x| < +∞) ∧ all(|y| < +∞) have only real entries.
-/
import proofs.«150241_j45406394253980_2_alg».proof.Proof.Spec
import proofs.«150241_j45406394253980_2_alg».proof.Proof.LibRealEntries
import proofs.«150241_j45406394253980_2_alg».proof.Pre_finite_inputs
import Mathlib

noncomputable section

namespace Cert.Chamfer

open Idealize.ShloMosaic Idealize.ShloMosaic.ValueIdx

/-! ## The five shared float patterns as extended reals -/

/-- The pattern of +∞ denotes ⊤. -/
theorem inf32_eq : inf32 = ⊤ := by
  simp [Ideal.ofBits, Ideal.ieee]

/-- The pattern of +0.0 denotes the real 0. -/
theorem zero32_eq : zero32 = ((0 : ℝ) : EReal) := by
  simp [Ideal.ofBits, Ideal.ieee]

/-- The pattern of 1.0 denotes the real 1. -/
theorem one32_eq : one32 = ((1 : ℝ) : EReal) := by
  simp [Ideal.ofBits, Ideal.ieee, -EReal.coe_mul]; norm_num

/-- The pattern of 2.0 denotes the real 2. -/
theorem two32_eq : two32 = ((2 : ℝ) : EReal) := by
  simp [Ideal.ofBits, Ideal.ieee, -EReal.coe_mul]; norm_num

/-- The pattern of −2.0 denotes the real −2. -/
theorem negTwo32_eq : negTwo32 = ((-2 : ℝ) : EReal) := by
  simp [Ideal.ofBits, Ideal.ieee, -EReal.coe_mul]; norm_num

/-! ## The squared distance -/

/-- On real coordinates the augmented inner product is |x|² + |y|² − 2⟨x, y⟩. -/
theorem augDot_eq {x y : Cloud} (hx : RealCloud x) (hy : RealCloud y) (b : Fin 8) (n m : Fin 4096) :
    ∑ k : Fin 8, augL x b n k * augR y b m k = (sqR x b n + sqR y b m) - two32 * dotR x y b n m := by
  choose xr hxr using hx
  choose yr hyr using hy
  simp only [Fin.sum_univ_eight, Fin.sum_univ_three, augL, augR, sqK, sqR, dotR]
  simp only [Matrix.cons_val_zero, Matrix.cons_val_one, Matrix.cons_val]
  rw [zero32_eq, one32_eq, two32_eq, negTwo32_eq]
  simp only [hxr, hyr, ← EReal.coe_mul, ← EReal.coe_add, ← EReal.coe_sub]
  congr 1
  ring

/-- The two clamped squared distances agree on real clouds. -/
theorem dKer_eq_dRef {x y : Cloud} (hx : RealCloud x) (hy : RealCloud y) (b : Fin 8) (n m : Fin 4096) :
    dKer x y b n m = dRef x y b n m := by
  unfold dKer dRef
  rw [augDot_eq hx hy b n m]

/-! ## The minima

  Part 2: a minimum folded from +∞ is an infimum; the axis of 4096 positions is the disjoint union of the
  4 tiles of 1024, so the infimum over the axis is the infimum over the tiles of each tile's infimum; and an
  infimum over 4 tiles is the 4-fold running minimum started at ⊤. -/

/-- A minimum folded from +∞ is the infimum of the family. -/
theorem fold_min_inf32 {ι : Type*} (s : Finset ι) (f : ι → EReal) : s.fold min inf32 f = s.inf f := by
  rw [inf32_eq]; rfl

/-- (tile, position in tile) ↦ position on the axis: 1024·j + q, a bijection of 4 × 1024 with 4096. -/
def tileEquiv : Fin 4 × Fin 1024 ≃ Fin 4096 where
  toFun p := tilePos p.1 p.2
  invFun i := (⟨i.val / 1024, by omega⟩, ⟨i.val % 1024, by omega⟩)
  left_inv := by
    rintro ⟨j, q⟩
    ext
    · show (1024 * j.val + q.val) / 1024 = j.val
      omega
    · show (1024 * j.val + q.val) % 1024 = q.val
      omega
  right_inv := by
    intro i
    ext
    show 1024 * (i.val / 1024) + i.val % 1024 = i.val
    omega

/-- The one-sweep minimum is the infimum over the axis. -/
theorem sweepMin_eq_iInf (f : Fin 4096 → EReal) : sweepMin f = ⨅ i, f i := by
  unfold sweepMin
  rw [fold_min_inf32, Finset.inf_univ_eq_iInf]

/-- A tile's minimum is the infimum over the tile. -/
theorem tileMin_eq_iInf (f : Fin 4096 → EReal) (j : Fin 4) : tileMin f j = ⨅ q, f (tilePos j q) := by
  unfold tileMin
  rw [fold_min_inf32, Finset.inf_univ_eq_iInf]

/-- An infimum of four is the 4-fold running minimum from ⊤. -/
theorem iInf_fin_four (g : Fin 4 → EReal) :
    ⨅ j, g j = min (min (min (min ⊤ (g 0)) (g 1)) (g 2)) (g 3) := by
  apply le_antisymm
  · simp only [le_min_iff, le_top, true_and]
    exact ⟨⟨⟨iInf_le g 0, iInf_le g 1⟩, iInf_le g 2⟩, iInf_le g 3⟩
  · refine le_iInf fun j => ?_
    fin_cases j <;> simp [min_le_iff]

/-- The infimum over the axis, regrouped by tiles. -/
theorem iInf_axis_eq_tiles (f : Fin 4096 → EReal) : ⨅ i, f i = ⨅ j : Fin 4, ⨅ q : Fin 1024, f (tilePos j q) := by
  rw [← Equiv.iInf_comp tileEquiv, iInf_prod]
  rfl

/-- The running minimum with all four tiles in, written out. -/
theorem accPart_four_unfold (f : Fin 4096 → EReal) :
    accPart f 4 = min (min (min (min inf32 (tileMin f 0)) (tileMin f 1)) (tileMin f 2)) (tileMin f 3) := by
  simp only [accPart]
  rfl

/-- The tile-by-tile running minimum with all four tiles in is the one-sweep minimum. -/
theorem accPart_four (f : Fin 4096 → EReal) : accPart f 4 = sweepMin f := by
  rw [accPart_four_unfold, inf32_eq, ← iInf_fin_four (tileMin f), sweepMin_eq_iInf, iInf_axis_eq_tiles]
  simp only [tileMin_eq_iInf]

/-- On real clouds the tile-by-tile minimum over m of the augmented distance is the one-sweep minimum of the
    reference's distance. -/
theorem p2gKer_eq_p2gRef {x y : Cloud} (hx : RealCloud x) (hy : RealCloud y) (b : Fin 8) (n : Fin 4096) :
    p2gKer x y b n = p2gRef x y b n := by
  unfold p2gKer p2gRef
  rw [accPart_four]
  congr 1
  funext m
  exact dKer_eq_dRef hx hy b n m

/-- On real clouds the tile-by-tile minimum over n of the augmented distance is the one-sweep minimum of the
    reference's distance. -/
theorem g2pKer_eq_g2pRef {x y : Cloud} (hx : RealCloud x) (hy : RealCloud y) (b : Fin 8) (m : Fin 4096) :
    g2pKer x y b m = g2pRef x y b m := by
  unfold g2pKer g2pRef
  rw [accPart_four]
  congr 1
  funext n
  exact dKer_eq_dRef hx hy b n m

/-! ## Finiteness

  Part 3: the precondition is the conjunction of two tests all(|·| < +∞), one per array. The conjunction bit is 1
  only if both test bits are 1, and an array whose test bit is 1 has a real number at every index. -/

/-- Arrays that pass the finiteness test are real clouds. -/
theorem real_of_pre [Cert.Pre_finite_inputs.Facts]
    (x y : (⟨Cert.Pre_finite_inputs.S8x4096x3, .f32⟩ : BufTy).Contents (Elt Ideal))
    (h : Cert.Pre_finite_inputs.fn (F := Ideal) x y = fun _ => 1#1) : RealCloud x ∧ RealCloud y := by
  have h0 := congrFun h ValueIdx.ix0
  dsimp only [Cert.Pre_finite_inputs.fn] at h0
  obtain ⟨hx, hy⟩ := IntOp.andi_eq_one.1 h0
  exact ⟨fun i => Cert.LibRealEntries.exists_real_of_all x _ _ _ hx i,
    fun i => Cert.LibRealEntries.exists_real_of_all y _ _ _ hy i⟩

end Cert.Chamfer

end
-- ==== Proof.Sweep.lean ====
/-
  The induction behind the minima that are accumulated across the steps of a sweep, over the extended reals
  and over no program.

  Within one batch the sweep has 16 steps k = 4·n + j: the row tile n = k / 4 runs outside, the column tile
  j = k % 4 inside. A column buffer starts at +∞; at step k only the columns of tile j change, each to the
  minimum of its old value and the minimum over row tile n. A column of tile jm is therefore touched at the
  steps 4·n + jm, n = 0, 1, 2, 3, in that order, and after step k it holds the running minimum over the first
  k / 4 + (1 if jm ≤ k % 4 else 0) row tiles. After step 15 that is all four.
-/
import proofs.«150241_j45406394253980_2_alg».proof.Proof.Algebra
import Mathlib

noncomputable section

namespace Cert.Chamfer

/-- The running minimum over the first r of four values, started at +∞. -/
def run4 (g : Fin 4 → EReal) : ℕ → EReal
  | 0 => inf32
  | r + 1 => if h : r < 4 then min (run4 g r) (g ⟨r, h⟩) else run4 g r

/-- One more value enters the running minimum. -/
theorem run4_succ (g : Fin 4 → EReal) (r : ℕ) (h : r < 4) : run4 g (r + 1) = min (run4 g r) (g ⟨r, h⟩) := by
  simp [run4, h]

/-- The running minimum with all four values in, written out. -/
theorem run4_four (g : Fin 4 → EReal) : run4 g 4 = min (min (min (min inf32 (g 0)) (g 1)) (g 2)) (g 3) := by
  simp only [run4]
  rfl

/-- After step k a column of tile jm holds the running minimum over the first k / 4 + [jm ≤ k % 4] row tiles. -/
theorem cols_invariant (g : Fin 4096 → Fin 4 → EReal) (C : ℕ → Fin 4096 → EReal)
    (h0 : ∀ col : Fin 4096, C 0 col = if col.val / 1024 = 0 then min inf32 (g col 0) else inf32)
    (hs : ∀ k, (hk : k + 1 < 16) → ∀ col : Fin 4096, C (k + 1) col =
      if col.val / 1024 = (k + 1) % 4 then min (C k col) (g col ⟨(k + 1) / 4, by omega⟩) else C k col)
    (col : Fin 4096) :
    ∀ k, k < 16 → C k col = run4 (g col) (k / 4 + if col.val / 1024 ≤ k % 4 then 1 else 0) := by
  intro k
  induction k with
  | zero =>
    intro _
    rw [h0 col]
    by_cases hc : col.val / 1024 = 0
    · have e : (0 / 4 + if col.val / 1024 ≤ 0 % 4 then 1 else 0) = 0 + 1 := by
        split_ifs <;> omega
      rw [if_pos hc, e, run4_succ _ _ (by omega)]
      rfl
    · have e : (0 / 4 + if col.val / 1024 ≤ 0 % 4 then 1 else 0) = 0 := by
        split_ifs <;> omega
      rw [if_neg hc, e]
      rfl
  | succ k ih =>
    intro hk
    have hcol : col.val / 1024 < 4 := by omega
    rw [hs k hk col, ih (by omega)]
    by_cases hc : col.val / 1024 = (k + 1) % 4
    · have e2 : (k / 4 + if col.val / 1024 ≤ k % 4 then 1 else 0) = (k + 1) / 4 := by
        split_ifs <;> omega
      have e1 : ((k + 1) / 4 + if col.val / 1024 ≤ (k + 1) % 4 then 1 else 0) = (k + 1) / 4 + 1 := by
        split_ifs <;> omega
      rw [if_pos hc, e1, e2, run4_succ _ _ (by omega)]
    · rw [if_neg hc]
      congr 1
      split_ifs <;> omega

/-- After the 16 steps every column holds the running minimum over all four row tiles. -/
theorem cols_sweep (g : Fin 4096 → Fin 4 → EReal) (C : ℕ → Fin 4096 → EReal)
    (h0 : ∀ col : Fin 4096, C 0 col = if col.val / 1024 = 0 then min inf32 (g col 0) else inf32)
    (hs : ∀ k, (hk : k + 1 < 16) → ∀ col : Fin 4096, C (k + 1) col =
      if col.val / 1024 = (k + 1) % 4 then min (C k col) (g col ⟨(k + 1) / 4, by omega⟩) else C k col) :
    ∀ col, C 15 col = min (min (min (min inf32 (g col 0)) (g col 1)) (g col 2)) (g col 3) := by
  intro col
  have hcol : col.val / 1024 ≤ 15 % 4 := by omega
  rw [cols_invariant g C h0 hs col 15 (by omega), if_pos hcol]
  exact run4_four (g col)

/-- The same with the row-tile minima of a family f nn col: every column ends at the tile-by-tile running
    minimum over the rows. -/
theorem cols_sweep_accPart (f : Fin 4096 → Fin 4096 → EReal) (C : ℕ → Fin 4096 → EReal)
    (h0 : ∀ col : Fin 4096, C 0 col =
      if col.val / 1024 = 0 then min inf32 (tileMin (fun nn => f nn col) 0) else inf32)
    (hs : ∀ k, (hk : k + 1 < 16) → ∀ col : Fin 4096, C (k + 1) col =
      if col.val / 1024 = (k + 1) % 4 then min (C k col) (tileMin (fun nn => f nn col) ⟨(k + 1) / 4, by omega⟩)
      else C k col) :
    ∀ col, C 15 col = accPart (fun nn => f nn col) 4 := fun col =>
  (cols_sweep (fun col n => tileMin (fun nn => f nn col) n) C h0 hs col).trans
    (accPart_four_unfold fun nn => f nn col).symm

/-- A row accumulator that takes in one column tile per step holds the 4-fold running minimum after 4 steps. -/
theorem rows_sweep (g : Fin 4 → EReal) (R : ℕ → EReal) (h0 : R 0 = min inf32 (g 0))
    (hs : ∀ j, (hj : j + 1 < 4) → R (j + 1) = min (R j) (g ⟨j + 1, hj⟩)) :
    R 3 = min (min (min (min inf32 (g 0)) (g 1)) (g 2)) (g 3) := by
  rw [hs 2 (by omega), hs 1 (by omega), hs 0 (by omega), h0]
  rfl

/-- The same with the column-tile minima of a family f: the row accumulator ends at the tile-by-tile running
    minimum. -/
theorem rows_sweep_accPart (f : Fin 4096 → EReal) (R : ℕ → EReal) (h0 : R 0 = min inf32 (tileMin f 0))
    (hs : ∀ j, (hj : j + 1 < 4) → R (j + 1) = min (R j) (tileMin f ⟨j + 1, hj⟩)) :
    R 3 = accPart f 4 :=
  (rows_sweep (tileMin f) R h0 hs).trans (accPart_four_unfold f).symm

end Cert.Chamfer

end
-- ==== Proof.Points.lean ====
/-
  From what happens at each point of the sweep to the final minima, over the extended reals and over no program.

  The sweep has 128 points t = 16·b + 4·n + j: batch b = t / 16, row tile n = (t / 4) % 4, column tile j = t % 4.
  A row accumulator of 1024 entries (the rows of tile n) is reset at j = 0 and takes in the minimum over column
  tile j at every point; at j = 3 it holds the tile-by-tile running minimum over all columns. A column accumulator
  of 4096 entries is reset at n = j = 0 and at every point takes in, on the columns of tile j only, the minimum
  over row tile n; at n = j = 3 it holds the tile-by-tile running minimum over all rows. Both follow from the
  abstract sweeps by shifting to the first point of the block of 4 (resp. 16) points.
-/
import proofs.«150241_j45406394253980_2_alg».proof.Proof.Sweep
import Mathlib

noncomputable section

namespace Cert.Chamfer

/-- The batch of point t. -/
abbrev bt (t : ℕ) (ht : t < 128) : Fin 8 := ⟨t / 16, by omega⟩

/-- Row p of point t's row tile, on the axis of 4096 rows. -/
abbrev rowOf (t : ℕ) (ht : t < 128) (p : Fin 1024) : Fin 4096 := ⟨1024 * ((t / 4) % 4) + p.val, by omega⟩

/-- Column q of point t's column tile, on the axis of 4096 columns. -/
abbrev colOf (t : ℕ) (ht : t < 128) (q : Fin 1024) : Fin 4096 := ⟨1024 * (t % 4) + q.val, by omega⟩

/-- A family indexed by three bounded numbers takes equal values at indices with equal values. -/
theorem f_congr (f : Fin 8 → Fin 4096 → Fin 4096 → EReal) {a a' : Fin 8} {r r' c c' : Fin 4096}
    (ha : a.val = a'.val) (hr : r.val = r'.val) (hc : c.val = c'.val) : f a r c = f a' r' c' := by
  rw [Fin.ext ha, Fin.ext hr, Fin.ext hc]

/-- Minima of pointwise equal families are equal. -/
theorem fold_min_congr {g g' : Fin 1024 → EReal} (h : ∀ q, g q = g' q) :
    Finset.univ.fold min inf32 g = Finset.univ.fold min inf32 g' := by
  have e : g = g' := funext h
  rw [e]

/-- The row accumulator at the last point of a block of 4 points holds the tile-by-tile running minimum over all
    4096 columns. -/
theorem rows_from_points (f : Fin 8 → Fin 4096 → Fin 4096 → EReal) (R : ℕ → Fin 1024 → EReal)
    (hfirst : ∀ t (ht : t < 128), t % 4 = 0 → ∀ p, R t p = min inf32
      (Finset.univ.fold min inf32 (fun q : Fin 1024 => f (bt t ht) (rowOf t ht p) (colOf t ht q))))
    (hstep : ∀ t (ht : t < 128), t % 4 ≠ 0 → ∀ p, R t p = min (R (t - 1) p)
      (Finset.univ.fold min inf32 (fun q : Fin 1024 => f (bt t ht) (rowOf t ht p) (colOf t ht q)))) :
    ∀ t (ht : t < 128), t % 4 = 3 → ∀ p, R t p = accPart (fun mm => f (bt t ht) (rowOf t ht p) mm) 4 := by
  intro t ht h3 p
  -- at the j-th point of the block the minimum taken in is the minimum over column tile j of this row
  have key : ∀ j (hj : j < 4) (hp : t - 3 + j < 128),
      Finset.univ.fold min inf32
          (fun q : Fin 1024 => f (bt (t - 3 + j) hp) (rowOf (t - 3 + j) hp p) (colOf (t - 3 + j) hp q))
        = tileMin (fun mm => f (bt t ht) (rowOf t ht p) mm) ⟨j, hj⟩ := by
    intro j hj hp
    unfold tileMin
    refine fold_min_congr fun q => f_congr f ?_ ?_ ?_
    · show (t - 3 + j) / 16 = t / 16
      omega
    · show 1024 * (((t - 3 + j) / 4) % 4) + p.val = 1024 * ((t / 4) % 4) + p.val
      omega
    · show 1024 * ((t - 3 + j) % 4) + q.val = 1024 * j + q.val
      omega
  have h0 : R (t - 3 + 0) p = min inf32 (tileMin (fun mm => f (bt t ht) (rowOf t ht p) mm) 0) :=
    (hfirst (t - 3 + 0) (by omega) (by omega) p).trans
      (congrArg (min inf32) (key 0 (by omega) (by omega)))
  have hs : ∀ j, (hj : j + 1 < 4) → R (t - 3 + (j + 1)) p
      = min (R (t - 3 + j) p) (tileMin (fun mm => f (bt t ht) (rowOf t ht p) mm) ⟨j + 1, hj⟩) := by
    intro j hj
    have e : t - 3 + (j + 1) - 1 = t - 3 + j := by omega
    have h1 := hstep (t - 3 + (j + 1)) (by omega) (by omega) p
    rw [e, key (j + 1) hj (by omega)] at h1
    exact h1
  have h := rows_sweep_accPart (fun mm => f (bt t ht) (rowOf t ht p) mm) (fun j => R (t - 3 + j) p) h0 hs
  have e3 : t - 3 + 3 = t := by omega
  calc R t p = R (t - 3 + 3) p := by rw [e3]
    _ = _ := h

/-- The column accumulator at the last point of a block of 16 points holds the tile-by-tile running minimum over
    all 4096 rows. -/
theorem cols_from_points (f : Fin 8 → Fin 4096 → Fin 4096 → EReal) (C : ℕ → Fin 4096 → EReal)
    (hfirst : ∀ t (ht : t < 128), t % 16 = 0 → ∀ col : Fin 4096, C t col =
      if col.val / 1024 = 0 then min inf32
        (Finset.univ.fold min inf32 (fun p : Fin 1024 => f (bt t ht) (rowOf t ht p) col)) else inf32)
    (hstep : ∀ t (ht : t < 128), t % 16 ≠ 0 → ∀ col : Fin 4096, C t col =
      if col.val / 1024 = t % 4 then min (C (t - 1) col)
        (Finset.univ.fold min inf32 (fun p : Fin 1024 => f (bt t ht) (rowOf t ht p) col)) else C (t - 1) col) :
    ∀ t (ht : t < 128), t % 16 = 15 → ∀ col, C t col = accPart (fun nn => f (bt t ht) nn col) 4 := by
  intro t ht h15 col
  -- at the k-th point of the block the minimum taken in is the minimum over row tile k / 4 of the column
  have key : ∀ k (hk : k < 16) (hp : t - 15 + k < 128) (col : Fin 4096),
      Finset.univ.fold min inf32 (fun p : Fin 1024 => f (bt (t - 15 + k) hp) (rowOf (t - 15 + k) hp p) col)
        = tileMin (fun nn => f (bt t ht) nn col) ⟨k / 4, by omega⟩ := by
    intro k hk hp col
    unfold tileMin
    refine fold_min_congr fun p => f_congr f ?_ ?_ rfl
    · show (t - 15 + k) / 16 = t / 16
      omega
    · show 1024 * (((t - 15 + k) / 4) % 4) + p.val = 1024 * (k / 4) + p.val
      omega
  have h0 : ∀ col : Fin 4096, C (t - 15 + 0) col =
      if col.val / 1024 = 0 then min inf32 (tileMin (fun nn => f (bt t ht) nn col) 0) else inf32 := by
    intro col
    have h1 := hfirst (t - 15 + 0) (by omega) (by omega) col
    rw [key 0 (by omega) (by omega) col] at h1
    exact h1
  have hs : ∀ k, (hk : k + 1 < 16) → ∀ col : Fin 4096, C (t - 15 + (k + 1)) col =
      if col.val / 1024 = (k + 1) % 4 then
        min (C (t - 15 + k) col) (tileMin (fun nn => f (bt t ht) nn col) ⟨(k + 1) / 4, by omega⟩)
      else C (t - 15 + k) col := by
    intro k hk col
    have e2 : t - 15 + (k + 1) - 1 = t - 15 + k := by omega
    have e1 : (t - 15 + (k + 1)) % 4 = (k + 1) % 4 := by omega
    have h1 := hstep (t - 15 + (k + 1)) (by omega) (by omega) col
    rw [e2, e1, key (k + 1) hk (by omega) col] at h1
    exact h1
  have h := cols_sweep_accPart (fun nn col => f (bt t ht) nn col) (fun k => C (t - 15 + k)) h0 hs col
  have e15 : t - 15 + 15 = t := by omega
  calc C t col = C (t - 15 + 15) col := by rw [e15]
    _ = _ := h

end Cert.Chamfer

end
-- ==== Proof.KI.State.lean ====
/-
  The two minima buffers after each grid point, at the ideal instance, in the vocabulary of the specification.
  With x, y the two argument clouds, the 1024 × 1024 tile the body forms at point t = 16 b + 4 n + j is the clamped
  distance dKer x y b (1024 n + p) (1024 j + q): its entries are the inner products of the augmented rows the host
  lines before the region built. So at each point the row buffer takes, per row, the minimum of what it held
  (+∞ at j = 0) and the tile's row minimum; the column buffer takes, per column of tile j, the minimum of what it
  held (+∞ at n = j = 0) and the tile's column minimum, every other column unchanged.
-/
import proofs.«150241_j45406394253980_2_alg».proof.Proof.KI.Outs
import proofs.«150241_j45406394253980_2_alg».proof.Proof.KI.Blocks
import proofs.«150241_j45406394253980_2_alg».proof.Proof.Payload
import proofs.«150241_j45406394253980_2_alg».proof.Proof.Prefix
import proofs.«150241_j45406394253980_2_alg».proof.Proof.Points

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Chamfer Cert.KernelIdeal.Pay Idealize.ShloMosaic.ValueIdx

variable (m : (ℓ : Loc nD τ sig) → Buf (Elt Ideal) ℓ) (ρ : Dev nD → PrngReg) (c : Dev nD)

/-- The two argument clouds. -/
abbrev X : Cloud := m ((c : Thread nD τ).loc main_arg0)
abbrev Y : Cloud := m ((c : Thread nD τ).loc main_arg1)

/-! ## The augmented arrays the region finds -/

theorem V_eq_W (b : Ref sig .tc) : V m c b = Cert.KernelIdeal.Prefix.W m c (Proc.devRef .tc b) := by
  show StableHlo.after (List.flatten [hostOps0]) _ _ = StableHlo.after hostOps0 _ _
  simp only [List.flatten_cons, List.flatten_nil, List.append_nil]

theorem V27_apply (b : Fin 8) (r : Fin 4096) (k : Fin 8) :
    (V m c main_v27 : Vec Ideal S8x4096x8 .f32) (ix3 b r k) = augL (X m c) b r k := by
  rw [V_eq_W]; exact Cert.KernelIdeal.Prefix.aug_left m c b r k

theorem V49_apply (b : Fin 8) (k : Fin 8) (r : Fin 4096) :
    (V m c main_v49 : Vec Ideal S8x8x4096 .f32) (ix3 b k r) = augR (Y m c) b r k := by
  rw [V_eq_W]; exact Cert.KernelIdeal.Prefix.aug_right m c b k r

/-! ## Points -/

theorem lt_N {t : ℕ} (ht : t < 128) : t < cfg0.N := by rw [show cfg0.N = 128 from N_0]; exact ht

/-- The column-tile coordinate of point t is t mod 4. -/
theorem coords2 : ∀ t : Fin cfg0.N, ((grid0.coords t) 2).val = t.val % 4 :=
  (by decide +kernel : ∀ t : Fin grid0.N, ((grid0.coords t) 2).val = t.val % 4)

/-- The tile of clamped distances the body forms at point t. -/
theorem tile_eq (t : ℕ) (ht : t < 128) (p q : Fin 1024) :
    k0_pay2 (F := Ideal) (iblk m c 0 ⟨t, lt_N ht⟩) (iblk m c 1 ⟨t, lt_N ht⟩) (ix2 p q)
      = dKer (X m c) (Y m c) (bt t ht) (rowOf t ht p) (colOf t ht q) := by
  rw [pay2_apply]
  unfold dKer
  refine congrArg (fun s => max s zero32) (Finset.sum_congr rfl fun k _ => ?_)
  rw [iblk0_apply, iblk1_apply]
  exact congrArg₂ (· * ·) (V27_apply m c _ _ k) (V49_apply m c _ k _)

/-- A column slice read at a column. -/
theorem colSlice_apply (i : grid0.Coords) (Z : Vec Ideal S1x1x4096 .f32) (q : Fin 1024) (col : Fin 4096)
    (hcol : col.val = 1024 * (i 2).val + q.val) :
    colSlice i Z (ix3 (0 : Fin 1) (0 : Fin 1) q) = Z (ix3 (0 : Fin 1) (0 : Fin 1) col) := by
  show Z _ = Z _
  refine congrArg Z (funext fun a => Fin.ext ?_)
  have e := k0_off1_eq i
  match a with
  | ⟨0, _⟩ => show k0_off1 i 0 + 1 * 0 = 0; rw [e]; rfl
  | ⟨1, _⟩ => show k0_off1 i 1 + 1 * 0 = 0; rw [e]; rfl
  | ⟨2, _⟩ => show k0_off1 i 2 + 1 * q.val = col.val; rw [e, hcol]; show 1024 * (i 2).val + 1 * q.val = _; omega

/-! ## The buffers after each point, as total functions of the point's number -/

/-- Row r of the row-minima buffer after point t. -/
def rowsT (t : ℕ) (p : Fin 1024) : EReal :=
  if h : t < cfg0.N then (outsAt0 m c t h).1 (ix3 (0 : Fin 1) p (0 : Fin 1)) else inf32
/-- Column col of the column-minima buffer after point t. -/
def colsT (t : ℕ) (col : Fin 4096) : EReal :=
  if h : t < cfg0.N then (outsAt0 m c t h).2 (ix3 (0 : Fin 1) (0 : Fin 1) col) else inf32

theorem rows_first (t : ℕ) (ht : t < 128) (h4 : t % 4 = 0) (p : Fin 1024) :
    rowsT m c t p = min inf32 (Finset.univ.fold min inf32 (fun q : Fin 1024 => dKer (X m c) (Y m c) (bt t ht) (rowOf t ht p) (colOf t ht q))) := by
  unfold rowsT
  rw [dif_pos (lt_N ht)]
  by_cases h16 : t % 16 = 0
  · have e := outsAt0_C m c ⟨t, lt_N ht⟩ h16 h4
    dsimp only at e
    rw [e]
    dsimp only
    rw [out_C_2, pay4_apply, pay3_apply]
    exact congrArg (min inf32) (Finset.fold_congr fun q _ => tile_eq m c t ht p q)
  · have e := outsAt0_B m c ⟨t, lt_N ht⟩ h16 h4
    dsimp only at e
    rw [e]
    dsimp only
    rw [out_B_2, pay4_apply, pay3_apply]
    exact congrArg (min inf32) (Finset.fold_congr fun q _ => tile_eq m c t ht p q)

theorem rows_step (t : ℕ) (ht : t < 128) (h4 : t % 4 ≠ 0) (p : Fin 1024) :
    rowsT m c t p = min (rowsT m c (t - 1) p) (Finset.univ.fold min inf32 (fun q : Fin 1024 => dKer (X m c) (Y m c) (bt t ht) (rowOf t ht p) (colOf t ht q))) := by
  have h16 : ¬t % 16 = 0 := by omega
  unfold rowsT
  rw [dif_pos (lt_N ht), dif_pos (Nat.lt_of_le_of_lt (Nat.sub_le _ _) (lt_N ht))]
  have e := outsAt0_A m c ⟨t, lt_N ht⟩ h16 h4
  dsimp only at e
  rw [e]
  dsimp only
  rw [out_A_2, pay4_apply]
  exact congrArg (min _) (Finset.fold_congr fun q _ => tile_eq m c t ht p q)

/-- The +∞ buffer is +∞ everywhere. -/
theorem pay5_const (j : S1x1x4096.Idx) : k0_pay5 (F := Ideal) j = inf32 := by
  rw [eq_ix3 j]
  have h0 : j 0 = (0 : Fin 1) := Fin.ext (Nat.lt_one_iff.mp (j 0).isLt)
  have h1 : j 1 = (0 : Fin 1) := Fin.ext (Nat.lt_one_iff.mp (j 1).isLt)
  rw [h0, h1]
  exact pay5_apply (j 2)

theorem cols_first (t : ℕ) (ht : t < 128) (h16 : t % 16 = 0) (col : Fin 4096) :
    colsT m c t col = if col.val / 1024 = 0 then min inf32 (Finset.univ.fold min inf32 (fun p : Fin 1024 => dKer (X m c) (Y m c) (bt t ht) (rowOf t ht p) col)) else inf32 := by
  have h4 : t % 4 = 0 := by omega
  have hi2 : ((grid0.coords ⟨t, lt_N ht⟩) 2).val = 0 := (coords2 ⟨t, lt_N ht⟩).trans h4
  unfold colsT
  rw [dif_pos (lt_N ht)]
  have e := outsAt0_C m c ⟨t, lt_N ht⟩ h16 h4
  dsimp only at e
  rw [e]
  dsimp only
  by_cases hc : col.val / 1024 = 0
  · rw [if_pos hc]
    have hq : col.val < 1024 := by omega
    rw [out_C_3_hit c _ _ _ _ _ _ _ _ _ _ _ _ _ _ ⟨col.val, hq⟩ col (by rw [hi2]; show col.val = 1024 * 0 + col.val; omega), pay1_apply, pay7_apply, pay6_apply,
      colSlice_apply _ _ ⟨col.val, hq⟩ col (by rw [hi2]; show col.val = 1024 * 0 + col.val; omega), pay5_const]
    refine congrArg (min inf32) (Finset.fold_congr fun p _ => ?_)
    rw [tile_eq m c t ht p ⟨col.val, hq⟩]
    exact congrArg (dKer (X m c) (Y m c) (bt t ht) (rowOf t ht p)) (Fin.ext (by show 1024 * (t % 4) + col.val = col.val; omega))
  · rw [if_neg hc, out_C_3_miss c _ _ _ _ _ _ _ _ _ _ _ _ _ _ col (Or.inr (by rw [hi2]; omega)), pay5_apply]

theorem cols_step (t : ℕ) (ht : t < 128) (h16 : t % 16 ≠ 0) (col : Fin 4096) :
    colsT m c t col = if col.val / 1024 = t % 4 then min (colsT m c (t - 1) col) (Finset.univ.fold min inf32 (fun p : Fin 1024 => dKer (X m c) (Y m c) (bt t ht) (rowOf t ht p) col)) else colsT m c (t - 1) col := by
  have hi2 : ((grid0.coords ⟨t, lt_N ht⟩) 2).val = t % 4 := coords2 ⟨t, lt_N ht⟩
  have hq : col.val % 1024 < 1024 := Nat.mod_lt _ (by decide)
  unfold colsT
  rw [dif_pos (lt_N ht), dif_pos (Nat.lt_of_le_of_lt (Nat.sub_le _ _) (lt_N ht))]
  by_cases h4 : t % 4 = 0
  · have e := outsAt0_B m c ⟨t, lt_N ht⟩ h16 h4
    dsimp only at e
    rw [e]
    dsimp only
    by_cases hc : col.val / 1024 = t % 4
    · rw [if_pos hc]
      have hcol : col.val = 1024 * ((grid0.coords ⟨t, lt_N ht⟩) 2).val + (⟨col.val % 1024, hq⟩ : Fin 1024).val := by
        rw [hi2]; show col.val = 1024 * (t % 4) + col.val % 1024; omega
      rw [out_B_3_hit c _ _ _ _ _ _ _ _ _ _ _ _ _ _ _ ⟨col.val % 1024, hq⟩ col hcol, pay1_apply, pay7_apply, pay6_apply,
        colSlice_apply _ _ ⟨col.val % 1024, hq⟩ col hcol]
      refine congrArg (min _) (Finset.fold_congr fun p _ => ?_)
      rw [tile_eq m c t ht p ⟨col.val % 1024, hq⟩]
      exact congrArg (dKer (X m c) (Y m c) (bt t ht) (rowOf t ht p)) (Fin.ext (by show 1024 * (t % 4) + col.val % 1024 = col.val; omega))
    · rw [if_neg hc, out_B_3_miss c _ _ _ _ _ _ _ _ _ _ _ _ _ _ _ col (by rw [hi2]; omega)]
  · have e := outsAt0_A m c ⟨t, lt_N ht⟩ h16 h4
    dsimp only at e
    rw [e]
    dsimp only
    by_cases hc : col.val / 1024 = t % 4
    · rw [if_pos hc]
      have hcol : col.val = 1024 * ((grid0.coords ⟨t, lt_N ht⟩) 2).val + (⟨col.val % 1024, hq⟩ : Fin 1024).val := by
        rw [hi2]; show col.val = 1024 * (t % 4) + col.val % 1024; omega
      rw [out_A_3_hit c _ _ _ _ _ _ _ _ _ _ _ _ _ _ _ ⟨col.val % 1024, hq⟩ col hcol, pay1_apply, pay7_apply, pay6_apply,
        colSlice_apply _ _ ⟨col.val % 1024, hq⟩ col hcol]
      refine congrArg (min _) (Finset.fold_congr fun p _ => ?_)
      rw [tile_eq m c t ht p ⟨col.val % 1024, hq⟩]
      exact congrArg (dKer (X m c) (Y m c) (bt t ht) (rowOf t ht p)) (Fin.ext (by show 1024 * (t % 4) + col.val % 1024 = col.val; omega))
    · rw [if_neg hc, out_A_3_miss c _ _ _ _ _ _ _ _ _ _ _ _ _ _ _ col (by rw [hi2]; omega)]

end Cert.KernelIdeal.Fr

end
-- ==== Proof.KI.Arrays.lean ====
/-
  The two result arrays after the sweep, from what the output staging buffers hold at the points that write them
  back. The array of row minima [8, 4096, 1] is cut into blocks [1, 1024, 1]; at point t (batch b = t / 16, row
  tile n = (t / 4) % 4, column tile j = t % 4) its window is at block (b, n, 0) and the block is written back when
  j = 3. The array of column minima [8, 1, 4096] is cut into blocks [1, 1, 4096]; its window is at block (b, 0, 0)
  and the block is written back when n = j = 3. The blocks of the writing points tile each array, so if every
  written block agrees with the matching block of a function G of the indices, the array ends as G.
-/
import proofs.«150241_j45406394253980_2_alg».proof.Proof.KI.Frame
import proofs.«150241_j45406394253980_2_alg».proof.Proof.KI.Blocks
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The row-minima window's block index at point t is (t / 16, (t / 4) % 4, 0). -/
theorem idx2 : ∀ t : Fin cfg0.N, win0_2.index t 0 = t.val / 16 ∧ win0_2.index t 1 = (t.val / 4) % 4
    ∧ win0_2.index t 2 = 0 :=
  (by decide +kernel : ∀ t : Fin grid0.N, _)

/-- The column-minima window's block index at point t is (t / 16, 0, 0). -/
theorem idx3 : ∀ t : Fin cfg0.N, win0_3.index t 0 = t.val / 16 ∧ win0_3.index t 1 = 0
    ∧ win0_3.index t 2 = 0 :=
  (by decide +kernel : ∀ t : Fin grid0.N, _)

/-! ## The row minima -/

/-- What a writing point writes back is its block of G2. -/
theorem flushed2_eq (c : Dev nD) (G2 : Buf (Elt F) ((c : Thread nD τ).loc main_v50_0))
    (h : ∀ t : Fin cfg0.N, t.val % 4 = 3 → ∀ p : Fin 1024,
      (outsAt0 m c t.val t.isLt).1 (ValueIdx.ix3 (0 : Fin 1) p (0 : Fin 1))
        = G2 (ValueIdx.ix3 (⟨t.val / 16, by have := point_lt t; omega⟩ : Fin 8)
            (⟨1024 * ((t.val / 4) % 4) + p.val, by omega⟩ : Fin 4096) (0 : Fin 1)))
    (t : Fin cfg0.N) (hf : (cfg0.win 2).flush t = true) :
    (dats m 0 c).flushed 2 t = ((cfg0.win 2).blk t).view.read (Elt F) G2 := by
  have h3 : t.val % 4 = 3 := (flush0_2 t).mp hf
  obtain ⟨e0, e1, e2⟩ := idx2 t
  show (cfg0.win 2).cut (grid0.coords t) ((dats m 0 c).after 2 t) = _
  rw [after0_2]
  have key : ∀ j : S1x1024x1.Idx,
      (outsAt0 m c t.val t.isLt).1 j = G2 (((cfg0.win 2).blk t).view.emb j) := by
    intro j
    obtain ⟨a, p, z, rfl⟩ : ∃ (a : Fin 1) (p : Fin 1024) (z : Fin 1), j = ValueIdx.ix3 a p z :=
      ⟨j 0, j 1, j 2, ValueIdx.eq_ix3 j⟩
    obtain rfl : a = 0 := Subsingleton.elim _ _
    obtain rfl : z = 0 := Subsingleton.elim _ _
    rw [h t h3 p]
    refine congrArg G2 ?_
    symm
    funext a
    apply Fin.ext
    match a with
    | ⟨0, _⟩ => show win0_2.index t 0 * 1 + 1 * 0 = t.val / 16; rw [e0]; omega
    | ⟨1, _⟩ => show win0_2.index t 1 * 1024 + 1 * p.val = 1024 * ((t.val / 4) % 4) + p.val; rw [e1]; omega
    | ⟨2, _⟩ => show win0_2.index t 2 * 1 + 1 * 0 = 0; rw [e2]
  funext j
  rw [View.read_apply]
  exact key j

/-- An index of the array is in point t's block iff each coordinate is in the block's range on its axis. -/
theorem mem_blk2 (t : Fin cfg0.N) (i : S8x4096x1.Idx) :
    i ∈ ((cfg0.win 2).blk t).view.set ↔ ∀ a : Fin 3, win0_2.index t a * S1x1024x1.size a ≤ (i a).val
      ∧ (i a).val < win0_2.index t a * S1x1024x1.size a + S1x1024x1.size a := by
  show i ∈ ((View.whole main_v50_0).slice (win0_2.rect t)).set ↔ _
  rw [View.set_slice_whole, Rect.mem_set_unit]
  exact Iff.rfl

/-- Row r of batch b is in the block written at the point of batch b, row tile r / 1024 and column tile 3. -/
theorem cover2 (i : S8x4096x1.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 1 := (i 2).isLt
  have hN : cfg0.N = 128 := N_0
  let t : Fin cfg0.N := ⟨16 * (i 0).val + 4 * ((i 1).val / 1024) + 3, by rw [hN]; omega⟩
  have ht : t.val = 16 * (i 0).val + 4 * ((i 1).val / 1024) + 3 := rfl
  obtain ⟨e0, e1, e2⟩ := idx2 t
  refine ⟨t, (flush0_2 t).mpr (by rw [ht]; omega), ?_⟩
  rw [mem_blk2]
  intro a
  match a with
  | ⟨0, _⟩ => show win0_2.index t 0 * 1 ≤ (i 0).val ∧ (i 0).val < win0_2.index t 0 * 1 + 1
              rw [e0, ht]; omega
  | ⟨1, _⟩ => show win0_2.index t 1 * 1024 ≤ (i 1).val ∧ (i 1).val < win0_2.index t 1 * 1024 + 1024
              rw [e1, ht]; omega
  | ⟨2, _⟩ => show win0_2.index t 2 * 1 ≤ (i 2).val ∧ (i 2).val < win0_2.index t 2 * 1 + 1
              rw [e2]; omega

/-- The array of row minima ends as G2 when every written block is G2's. -/
theorem final2 (c : Dev nD) (G2 : Buf (Elt F) ((c : Thread nD τ).loc main_v50_0))
    (h : ∀ t : Fin cfg0.N, t.val % 4 = 3 → ∀ p : Fin 1024,
      (outsAt0 m c t.val t.isLt).1 (ValueIdx.ix3 (0 : Fin 1) p (0 : Fin 1))
        = G2 (ValueIdx.ix3 (⟨t.val / 16, by have := point_lt t; omega⟩ : Fin 8)
            (⟨1024 * ((t.val / 4) % 4) + p.val, by omega⟩ : Fin 4096) (0 : Fin 1))) :
    (dats m 0 c).arrAt 2 cfg0.N = G2 :=
  (dats m 0 c).arrAt_eq_of_cover 2 G2 (flushed2_eq m c G2 h) cover2

/-! ## The column minima -/

/-- What a writing point writes back is its block of G3. -/
theorem flushed3_eq (c : Dev nD) (G3 : Buf (Elt F) ((c : Thread nD τ).loc main_v50_1))
    (h : ∀ t : Fin cfg0.N, t.val % 16 = 15 → ∀ col : Fin 4096,
      (outsAt0 m c t.val t.isLt).2 (ValueIdx.ix3 (0 : Fin 1) (0 : Fin 1) col)
        = G3 (ValueIdx.ix3 (⟨t.val / 16, by have := point_lt t; omega⟩ : Fin 8) (0 : Fin 1) col))
    (t : Fin cfg0.N) (hf : (cfg0.win 3).flush t = true) :
    (dats m 0 c).flushed 3 t = ((cfg0.win 3).blk t).view.read (Elt F) G3 := by
  have h15 : t.val % 16 = 15 := (flush0_3 t).mp hf
  obtain ⟨e0, e1, e2⟩ := idx3 t
  show (cfg0.win 3).cut (grid0.coords t) ((dats m 0 c).after 3 t) = _
  rw [after0_3]
  have key : ∀ j : S1x1x4096.Idx,
      (outsAt0 m c t.val t.isLt).2 j = G3 (((cfg0.win 3).blk t).view.emb j) := by
    intro j
    obtain ⟨a, z, col, rfl⟩ : ∃ (a : Fin 1) (z : Fin 1) (col : Fin 4096), j = ValueIdx.ix3 a z col :=
      ⟨j 0, j 1, j 2, ValueIdx.eq_ix3 j⟩
    obtain rfl : a = 0 := Subsingleton.elim _ _
    obtain rfl : z = 0 := Subsingleton.elim _ _
    rw [h t h15 col]
    refine congrArg G3 ?_
    symm
    funext a
    apply Fin.ext
    match a with
    | ⟨0, _⟩ => show win0_3.index t 0 * 1 + 1 * 0 = t.val / 16; rw [e0]; omega
    | ⟨1, _⟩ => show win0_3.index t 1 * 1 + 1 * 0 = 0; rw [e1]
    | ⟨2, _⟩ => show win0_3.index t 2 * 4096 + 1 * col.val = col.val; rw [e2]; omega
  funext j
  rw [View.read_apply]
  exact key j

/-- An index of the array is in point t's block iff each coordinate is in the block's range on its axis. -/
theorem mem_blk3 (t : Fin cfg0.N) (i : S8x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_v50_1).slice (win0_3.rect t)).set ↔ _
  rw [View.set_slice_whole, Rect.mem_set_unit]
  exact Iff.rfl

/-- Every column of batch b is in the block written at the last point of batch b. -/
theorem cover3 (i : S8x1x4096.Idx) :
    ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 4096 := (i 2).isLt
  have hN : cfg0.N = 128 := N_0
  let t : Fin cfg0.N := ⟨16 * (i 0).val + 15, by rw [hN]; omega⟩
  have ht : t.val = 16 * (i 0).val + 15 := rfl
  obtain ⟨e0, e1, e2⟩ := idx3 t
  refine ⟨t, (flush0_3 t).mpr (by rw [ht]; omega), ?_⟩
  rw [mem_blk3]
  intro a
  match a with
  | ⟨0, _⟩ => show win0_3.index t 0 * 1 ≤ (i 0).val ∧ (i 0).val < win0_3.index t 0 * 1 + 1
              rw [e0, ht]; omega
  | ⟨1, _⟩ => show win0_3.index t 1 * 1 ≤ (i 1).val ∧ (i 1).val < win0_3.index t 1 * 1 + 1
              rw [e1]; omega
  | ⟨2, _⟩ => show win0_3.index t 2 * 4096 ≤ (i 2).val ∧ (i 2).val < win0_3.index t 2 * 4096 + 4096
              rw [e2]; omega

/-- The array of column minima ends as G3 when every written block is G3's. -/
theorem final3 (c : Dev nD) (G3 : Buf (Elt F) ((c : Thread nD τ).loc main_v50_1))
    (h : ∀ t : Fin cfg0.N, t.val % 16 = 15 → ∀ col : Fin 4096,
      (outsAt0 m c t.val t.isLt).2 (ValueIdx.ix3 (0 : Fin 1) (0 : Fin 1) col)
        = G3 (ValueIdx.ix3 (⟨t.val / 16, by have := point_lt t; omega⟩ : Fin 8) (0 : Fin 1) col)) :
    (dats m 0 c).arrAt 3 cfg0.N = G3 :=
  (dats m 0 c).arrAt_eq_of_cover 3 G3 (flushed3_eq m c G3 h) cover3

end Cert.KernelIdeal.Fr

end
-- ==== Proof.Tail.lean ====
/-
  What both programs do with the two [8, 4096] arrays of squared nearest-neighbour distances P (from x to y)
  and G (from y to x): per batch the root of the mean over the 4096 entries, then
      (mean over the 8 batches of (rootMean P + rootMean G) / 2,  mean of rootMean P,  mean of rootMean G),
  every mean a sum from zero divided by the count. Stated once, so that neither proof has to open it: the shape
  facts the operations carry are passed in (any two proofs of one fact are equal).
-/
import Idealize.ShloMosaic.PureOps
import Idealize.ShloMosaic.PureOps.Ideal

noncomputable section

namespace Cert.Chamfer

open Idealize.ShloMosaic

abbrev T8x4096 : Shape := ⟨2, ![8, 4096]⟩
abbrev T8 : Shape := ⟨1, ![8]⟩
abbrev T0 : Shape := ⟨0, ![]⟩

variable (h1 : T8x4096.ReducesTo [1] T8) (h0 : T8.ReducesTo [0] T0)
  (hb : T0.BroadcastsInDim T8 (![] : Fin 0 → Fin T8.rank)) (hu : 0 < T0.numel)

/-- Per batch: the square root of (the sum from 0 of the 4096 entries, divided by 4096). -/
def rootMean (P : FVec Ideal T8x4096 .f32) : FVec Ideal T8 .f32 :=
  Host.sqrt (F := Ideal) (Host.divf (F := Ideal) (Host.reduceAdd (F := Ideal) P (constant (F := Ideal) T0 .f32 0x00000000#32) h1 hu)
    (broadcastInDim T8 ![] hb (constant (F := Ideal) T0 .f32 0x45800000#32)))

/-- The sum from 0 of the 8 entries, divided by 8. -/
def mean8 (v : FVec Ideal T8 .f32) : FVec Ideal T0 .f32 :=
  Host.divf (F := Ideal) (Host.reduceAdd (F := Ideal) v (constant (F := Ideal) T0 .f32 0x00000000#32) h0 hu) (constant (F := Ideal) T0 .f32 0x41000000#32)

/-- The mean over batches of (rootMean P + rootMean G) / 2. -/
def res0 (P G : FVec Ideal T8x4096 .f32) : FVec Ideal T0 .f32 :=
  mean8 h0 hu (Host.divf (F := Ideal) (addf (rootMean h1 hb hu P) (rootMean h1 hb hu G))
    (broadcastInDim T8 ![] hb (constant (F := Ideal) T0 .f32 0x40000000#32)))

/-- The mean over batches of rootMean P. -/
def res1 (P : FVec Ideal T8x4096 .f32) : FVec Ideal T0 .f32 := mean8 h0 hu (rootMean h1 hb hu P)

end Cert.Chamfer

end
-- ==== Proof.KI.TailRun.lean ====
/-
  The host lines after the region, at the ideal values. They read the two arrays the region leaves — the row
  minima as [8, 4096, 1] and the column minima as [8, 1, 4096] —, view each as [8, 4096], and then take, per batch,
  the root of the mean, and over the batches the three means: exactly the shared tail. So if the two final arrays
  are P and G entry by entry, the three results are the three means of P and G. The lines are first read over
  arbitrary contents of the buffers, and only then at what the region leaves, so that neither the buffers' contents
  at the region's entry nor the write-backs of the 128 grid points are ever opened.
-/
import proofs.«150241_j45406394253980_2_alg».proof.Proof.KI.Frame
import proofs.«150241_j45406394253980_2_alg».proof.Proof.Tail
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Chamfer

variable (m : (ℓ : Loc nD τ sig) → Buf (Elt Ideal) ℓ)

/-! ## The host lines after the region, over any contents of the buffers -/

/-- From any contents W of the buffers, the lines after the region leave in the first result the mean over batches of
    half the sum of the two root-means of the two final arrays read as [8, 4096]. -/
theorem tail65_of (W : Valuation τ sig (Elt Ideal)) :
    StableHlo.after (hostOps1 (F := Ideal)) W (Proc.devRef .tc main_v65)
      = res0 reducesTo_S8x4096_S8_d1 reducesTo_S8_S_d0 bcast_S_S8 h_S_
          (shapeCast S8x4096 (W (Proc.devRef .tc main_v50_0)) shapeCasts_S8x4096x1_S8x4096)
          (shapeCast S8x4096 (W (Proc.devRef .tc main_v50_1)) shapeCasts_S8x1x4096_S8x4096) := by
  after_results_simp
  rfl

/-- The second result: the mean over batches of the root-mean of the first final array. -/
theorem tail67_of (W : Valuation τ sig (Elt Ideal)) :
    StableHlo.after (hostOps1 (F := Ideal)) W (Proc.devRef .tc main_v67)
      = res1 reducesTo_S8x4096_S8_d1 reducesTo_S8_S_d0 bcast_S_S8 h_S_
          (shapeCast S8x4096 (W (Proc.devRef .tc main_v50_0)) shapeCasts_S8x4096x1_S8x4096) := by
  after_results_simp
  rfl

/-- The third result: the mean over batches of the root-mean of the second final array. -/
theorem tail69_of (W : Valuation τ sig (Elt Ideal)) :
    StableHlo.after (hostOps1 (F := Ideal)) W (Proc.devRef .tc main_v69)
      = res1 reducesTo_S8x4096_S8_d1 reducesTo_S8_S_d0 bcast_S_S8 h_S_
          (shapeCast S8x4096 (W (Proc.devRef .tc main_v50_1)) shapeCasts_S8x1x4096_S8x4096) := by
  after_results_simp
  rfl

/-! ## The two reshapes read at an index -/

/-- An [8, 4096, 1] array read as [8, 4096]: entry (b, row) is entry (b, row, 0). -/
theorem cast_col_apply {α : Type} (A : S8x4096x1.Idx → α) (h : S8x4096x1.ShapeCasts S8x4096) (b : Fin 8) (row : Fin 4096) :
    shapeCast S8x4096 A h (ix2 b row) = A (ix3 b row (0 : Fin 1)) :=
  shapeCast_apply A h _ _ (by
    rw [Shape.rowMajor_val_three, Shape.rowMajor_val_two]
    show (b.val * 4096 + row.val) * 1 + 0 = b.val * 4096 + row.val
    omega)

/-- An [8, 1, 4096] array read as [8, 4096]: entry (b, col) is entry (b, 0, col). -/
theorem cast_row_apply {α : Type} (A : S8x1x4096.Idx → α) (h : S8x1x4096.ShapeCasts S8x4096) (b : Fin 8) (col : Fin 4096) :
    shapeCast S8x4096 A h (ix2 b col) = A (ix3 b (0 : Fin 1) col) :=
  shapeCast_apply A h _ _ (by
    rw [Shape.rowMajor_val_three, Shape.rowMajor_val_two]
    show (b.val * 1 + 0) * 4096 + col.val = b.val * 4096 + col.val
    omega)

/-! ## The three results from the two final arrays -/

/-- If the array of row minima ends at P and the array of column minima at G (entry by entry), the three results
    are the three means of P and G. -/
theorem tail_results (c : Dev nD) (P G : FVec Ideal S8x4096 .f32)
    (hP : ∀ (b : Fin 8) (row : Fin 4096), (dats m 0 c).arrAt 2 cfg0.N (ix3 b row (0 : Fin 1)) = P (ix2 b row))
    (hG : ∀ (b : Fin 8) (col : Fin 4096), (dats m 0 c).arrAt 3 cfg0.N (ix3 b (0 : Fin 1) col) = G (ix2 b col)) :
    Pipeline.afterTail₀ cfgs (dats m) 0 (V0 m) [hostOps1] c main_v65
        = res0 reducesTo_S8x4096_S8_d1 reducesTo_S8_S_d0 bcast_S_S8 h_S_ P G
      ∧ Pipeline.afterTail₀ cfgs (dats m) 0 (V0 m) [hostOps1] c main_v67
        = res1 reducesTo_S8x4096_S8_d1 reducesTo_S8_S_d0 bcast_S_S8 h_S_ P
      ∧ Pipeline.afterTail₀ cfgs (dats m) 0 (V0 m) [hostOps1] c main_v69
        = res1 reducesTo_S8x4096_S8_d1 reducesTo_S8_S_d0 bcast_S_S8 h_S_ G := by
  have e2 : Pipeline.withArrays spec0 c (V0 m c) (fun w => (dats m 0 c).arrAt w cfg0.N) (Proc.devRef .tc main_v50_0)
      = (dats m 0 c).arrAt 2 cfg0.N := Pipeline.withArrays_arr spec0 launch0.win.arr_inj c _ _ 2
  have e3 : Pipeline.withArrays spec0 c (V0 m c) (fun w => (dats m 0 c).arrAt w cfg0.N) (Proc.devRef .tc main_v50_1)
      = (dats m 0 c).arrAt 3 cfg0.N := Pipeline.withArrays_arr spec0 launch0.win.arr_inj c _ _ 3
  have hP' : shapeCast S8x4096 (Pipeline.withArrays spec0 c (V0 m c) (fun w => (dats m 0 c).arrAt w cfg0.N) (Proc.devRef .tc main_v50_0))
      shapeCasts_S8x4096x1_S8x4096 = P := by
    rw [e2]
    funext i
    rw [eq_ix2 i]
    exact (cast_col_apply _ _ _ _).trans (hP _ _)
  have hG' : shapeCast S8x4096 (Pipeline.withArrays spec0 c (V0 m c) (fun w => (dats m 0 c).arrAt w cfg0.N) (Proc.devRef .tc main_v50_1))
      shapeCasts_S8x1x4096_S8x4096 = G := by
    rw [e3]
    funext i
    rw [eq_ix2 i]
    exact (cast_row_apply _ _ _ _).trans (hG _ _)
  have h65 := tail65_of (Pipeline.withArrays spec0 c (V0 m c) (fun w => (dats m 0 c).arrAt w cfg0.N))
  have h67 := tail67_of (Pipeline.withArrays spec0 c (V0 m c) (fun w => (dats m 0 c).arrAt w cfg0.N))
  have h69 := tail69_of (Pipeline.withArrays spec0 c (V0 m c) (fun w => (dats m 0 c).arrAt w cfg0.N))
  rw [hP', hG'] at h65
  rw [hP'] at h67
  rw [hG'] at h69
  exact ⟨h65, h67, h69⟩

end Cert.KernelIdeal.Fr

end
-- ==== Proof.Vals.lean ====
/-
  The two [8, 4096] arrays of squared nearest-neighbour distances as the tile-by-tile computation produces them:
  entry (b, n) of the first is the running minimum over the four column tiles of the augmented-product distance
  from point n of x to the points of y, entry (b, m) of the second the same from point m of y to the points of x.
-/
import proofs.«150241_j45406394253980_2_alg».proof.Proof.Spec
import proofs.«150241_j45406394253980_2_alg».proof.Proof.Tail

noncomputable section

namespace Cert.Chamfer

open Idealize.ShloMosaic

/-- Per point of x: the squared distance to the nearest point of y. -/
def pArr (x y : Cloud) : FVec Ideal T8x4096 .f32 :=
  fun i => p2gKer x y ⟨(i 0).val, (i 0).isLt⟩ ⟨(i 1).val, (i 1).isLt⟩

/-- Per point of y: the squared distance to the nearest point of x. -/
def gArr (x y : Cloud) : FVec Ideal T8x4096 .f32 :=
  fun i => g2pKer x y ⟨(i 0).val, (i 0).isLt⟩ ⟨(i 1).val, (i 1).isLt⟩

end Cert.Chamfer

end
-- ==== Proof.KI.Final.lean ====
/-
  The idealized kernel program's results. At each flushing point the buffer written back holds the four-tile running
  minimum, so the two result arrays of the region are, entry by entry, the tile-by-tile minima of the
  augmented-product distance (`pArr`, `gArr`); the host lines after the region then form the three means of them.
-/
import proofs.«150241_j45406394253980_2_alg».proof.Proof.KI.State
import proofs.«150241_j45406394253980_2_alg».proof.Proof.KI.Arrays
import proofs.«150241_j45406394253980_2_alg».proof.Proof.KI.TailRun
import proofs.«150241_j45406394253980_2_alg».proof.Proof.Vals

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Chamfer Cert.KernelIdeal.Pay Idealize.ShloMosaic.ValueIdx

variable (m : (ℓ : Loc nD τ sig) → Buf (Elt Ideal) ℓ) (ρ : Dev nD → PrngReg) (c : Dev nD)

/-- After the last column tile of a row tile, each row holds the minimum over all 4096 columns, tile by tile. -/
theorem rows_final (t : ℕ) (ht : t < 128) (h3 : t % 4 = 3) (p : Fin 1024) :
    rowsT m c t p = accPart (fun mm => dKer (X m c) (Y m c) (bt t ht) (rowOf t ht p) mm) 4 :=
  rows_from_points (fun b r cc => dKer (X m c) (Y m c) b r cc) (rowsT m c) (rows_first m c) (rows_step m c) t ht h3 p

/-- After the last point of a batch, each column holds the minimum over all 4096 rows, tile by tile. -/
theorem cols_final (t : ℕ) (ht : t < 128) (h15 : t % 16 = 15) (col : Fin 4096) :
    colsT m c t col = accPart (fun nn => dKer (X m c) (Y m c) (bt t ht) nn col) 4 :=
  cols_from_points (fun b r cc => dKer (X m c) (Y m c) b r cc) (colsT m c) (cols_first m c) (cols_step m c) t ht h15 col

/-- The first result array of the region: per point of x the nearest squared distance. -/
def G2 : Buf (Elt Ideal) ((c : Thread nD τ).loc main_v50_0) :=
  fun i => p2gKer (X m c) (Y m c) ⟨(i 0).val, (i 0).isLt⟩ ⟨(i 1).val, (i 1).isLt⟩
/-- The second: per point of y. -/
def G3 : Buf (Elt Ideal) ((c : Thread nD τ).loc main_v50_1) :=
  fun i => g2pKer (X m c) (Y m c) ⟨(i 0).val, (i 0).isLt⟩ ⟨(i 2).val, (i 2).isLt⟩

theorem arr2 : (dats m 0 c).arrAt 2 cfg0.N = G2 m c :=
  final2 m c (G2 m c) fun t h3 p => by
    have ht : t.val < 128 := point_lt t
    have e := rows_final m c t.val ht h3 p
    unfold rowsT at e
    rw [dif_pos t.isLt] at e
    exact e

theorem arr3 : (dats m 0 c).arrAt 3 cfg0.N = G3 m c :=
  final3 m c (G3 m c) fun t h15 col => by
    have ht : t.val < 128 := point_lt t
    have e := cols_final m c t.val ht h15 col
    unfold colsT at e
    rw [dif_pos t.isLt] at e
    exact e

/-- The three results, as the shared tail of the two arrays. -/
theorem results :
    Pipeline.afterTail₀ cfgs (dats m) 0 (V0 m) [hostOps1] c main_v65 = Cert.Chamfer.res0 reducesTo_S8x4096_S8_d1 reducesTo_S8_S_d0 bcast_S_S8 h_S_ (pArr (X m c) (Y m c)) (gArr (X m c) (Y m c))
    ∧ Pipeline.afterTail₀ cfgs (dats m) 0 (V0 m) [hostOps1] c main_v67 = Cert.Chamfer.res1 reducesTo_S8x4096_S8_d1 reducesTo_S8_S_d0 bcast_S_S8 h_S_ (pArr (X m c) (Y m c))
    ∧ Pipeline.afterTail₀ cfgs (dats m) 0 (V0 m) [hostOps1] c main_v69 = Cert.Chamfer.res1 reducesTo_S8x4096_S8_d1 reducesTo_S8_S_d0 bcast_S_S8 h_S_ (gArr (X m c) (Y m c)) :=
  tail_results m c (pArr (X m c) (Y m c)) (gArr (X m c) (Y m c))
    (fun b row => by rw [arr2]; rfl) (fun b col => by rw [arr3]; rfl)

/-- The run of the idealized kernel program, read: its three results and its unchanged arguments. -/
theorem run_values : θ_run (defs (F := Ideal)) (onTc (τ := τ) (main (F := Ideal))) ⟨m, fun _ => 0, ρ⟩ (fun r => ∀ c : Dev nD,
      r.2.mem ((c.tc : Thread nD τ).loc main_v65) = Cert.Chamfer.res0 reducesTo_S8x4096_S8_d1 reducesTo_S8_S_d0 bcast_S_S8 h_S_ (pArr (m ((c.tc : Thread nD τ).loc main_arg0)) (m ((c.tc : Thread nD τ).loc main_arg1))) (gArr (m ((c.tc : Thread nD τ).loc main_arg0)) (m ((c.tc : Thread nD τ).loc main_arg1)))
      ∧ r.2.mem ((c.tc : Thread nD τ).loc main_v67) = Cert.Chamfer.res1 reducesTo_S8x4096_S8_d1 reducesTo_S8_S_d0 bcast_S_S8 h_S_ (pArr (m ((c.tc : Thread nD τ).loc main_arg0)) (m ((c.tc : Thread nD τ).loc main_arg1)))
      ∧ r.2.mem ((c.tc : Thread nD τ).loc main_v69) = Cert.Chamfer.res1 reducesTo_S8x4096_S8_d1 reducesTo_S8_S_d0 bcast_S_S8 h_S_ (gArr (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v65 (Pipeline.mem_restRefs_of main_v65 (by decide) (by decide))).trans (results m c).1,
     ((h c).2 main_v67 (Pipeline.mem_restRefs_of main_v67 (by decide) (by decide))).trans (results m c).2.1,
     ((h c).2 main_v69 (Pipeline.mem_restRefs_of main_v69 (by decide) (by decide))).trans (results m c).2.2,
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Fr

end
-- ==== Proof.RefSide.lean ====
/-
  The reference side. Its program squares and sums the coordinates of each point, takes all inner products of a
  point of x with a point of y of the same batch, forms |x_n|² + |y_m|² − 2⟨x_n, y_m⟩ clamped below by 0 at every
  (b, n, m), and takes the minimum of that array from +∞ once over m and once over n. Read at an index the array is
  the distance dRef of the statement of the mathematics; a minimum over one axis from +∞ is the sweep over that axis's
  coordinates, so the two arrays of minima are p2gRef and g2pRef. The remaining operations (root of the mean per
  batch, then the three means over batches) are the shared tail applied to those two arrays, term for term.
-/
import proofs.«150241_j45406394253980_2_alg».proof.Proof.Gen.ReferenceIdeal.Read
import proofs.«150241_j45406394253980_2_alg».proof.Proof.Spec
import proofs.«150241_j45406394253980_2_alg».proof.Proof.Tail
import Idealize.ShloMosaic.PureOps.Reduce
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx Cert.Chamfer

/-- One entry of the clamped squared-distance array: the reference's operations read at (b, n, m). -/
theorem dist_apply (x y : FVec Ideal S8x4096x3 .f32) (b : Fin 8) (n m : Fin 4096) :
    val_main_v14 (F := Ideal) x y (ix3 b n m) = dRef x y b n m := by
  rw [val_main_v14_apply, val_main_v12_apply, val_main_v13_apply, val_main_v9_apply, val_main_v11_apply,
    val_main_v10_apply, val_main_v7_apply, val_main_v8_apply, val_main_v5_apply, val_main_v6_apply,
    val_main_v1_apply, val_main_v3_apply, val_main_v4_apply, val_main_cst_apply, val_main_cst_0_apply,
    val_main_cst_1_apply, val_main_cst_2_apply]
  have e1 : ∀ k : Fin 3, idx_main_v1 (idx_main_v5 (idx_main_v7 (ix3 b n m))) k = ix3 b n k := fun k =>
    funext fun a => by match a with | ⟨0, _⟩ => rfl | ⟨1, _⟩ => rfl | ⟨2, _⟩ => rfl
  have e3 : ∀ k : Fin 3, idx_main_v3 (idx_main_v6 (idx_main_v8 (ix3 b n m))) k = ix3 b m k := fun k =>
    funext fun a => by match a with | ⟨0, _⟩ => rfl | ⟨1, _⟩ => rfl | ⟨2, _⟩ => rfl
  have el : ∀ k : Fin 3, lidx_main_v4 (ix3 b n m) k = ix3 b n k := fun k =>
    funext fun a => by match a with | ⟨0, _⟩ => rfl | ⟨1, _⟩ => rfl | ⟨2, _⟩ => rfl
  have er : ∀ k : Fin 3, ridx_main_v4 (ix3 b n m) k = ix3 b m k := fun k =>
    funext fun a => by match a with | ⟨0, _⟩ => rfl | ⟨1, _⟩ => rfl | ⟨2, _⟩ => rfl
  simp only [e1, e3, el, er, val_main_v0_apply, val_main_v2_apply]
  rfl

/-- The facts of the two one-axis reductions in the form that carries the inserted-coordinate index. -/
theorem reduces_d2 : S8x4096x4096.Reduces [2] S8x4096 :=
  ⟨reducesTo_S8x4096x4096_S8x4096_d2.1, by decide, reducesTo_S8x4096x4096_S8x4096_d2.2⟩
theorem reduces_d1 : S8x4096x4096.Reduces [1] S8x4096 :=
  ⟨reducesTo_S8x4096x4096_S8x4096_d1.1, by decide, reducesTo_S8x4096x4096_S8x4096_d1.2⟩

/-- (b, n) with coordinate k put back on the last axis is (b, n, k). -/
theorem lift_d2 (b : Fin 8) (n : Fin 4096) (k : Fin (S8x4096x4096.size 2)) :
    reduces_d2.lift (ix2 b n) k = ix3 b n (⟨k.val, k.isLt⟩ : Fin 4096) := by
  funext c; apply Fin.ext
  fin_cases c <;> rfl

/-- (b, m) with coordinate k put back on the middle axis is (b, k, m). -/
theorem lift_d1 (b : Fin 8) (m : Fin 4096) (k : Fin (S8x4096x4096.size 1)) :
    reduces_d1.lift (ix2 b m) k = ix3 b (⟨k.val, k.isLt⟩ : Fin 4096) m := by
  funext c; apply Fin.ext
  fin_cases c <;> rfl

/-- The minimum over the last axis from +∞ is the sweep over m of the reference's distance. -/
theorem p2g_eq (x y : FVec Ideal S8x4096x3 .f32) (b : Fin 8) (n : Fin 4096) :
    val_main_v15 (F := Ideal) x y (ix2 b n) = p2gRef x y b n := by
  unfold val_main_v15
  rw [Host.reduce_eq_fold_single FloatOps.minimumf _ _ reducesTo_S8x4096x4096_S8x4096_d2 reduces_d2 h_S_]
  have hf : (val_main_v14 (F := Ideal) x y ∘ reduces_d2.lift (ix2 b n)) = fun m : Fin 4096 => dRef x y b n m :=
    funext fun k => (congrArg (val_main_v14 (F := Ideal) x y) (lift_d2 b n k)).trans (dist_apply x y b n _)
  exact congrArg (fun f => Finset.fold min inf32 f (Finset.univ : Finset (Fin 4096))) hf

/-- The minimum over the middle axis from +∞ is the sweep over n of the reference's distance. -/
theorem g2p_eq (x y : FVec Ideal S8x4096x3 .f32) (b : Fin 8) (m : Fin 4096) :
    val_main_v16 (F := Ideal) x y (ix2 b m) = g2pRef x y b m := by
  unfold val_main_v16
  rw [Host.reduce_eq_fold_single FloatOps.minimumf _ _ reducesTo_S8x4096x4096_S8x4096_d1 reduces_d1 h_S_]
  have hf : (val_main_v14 (F := Ideal) x y ∘ reduces_d1.lift (ix2 b m)) = fun n : Fin 4096 => dRef x y b n m :=
    funext fun k => (congrArg (val_main_v14 (F := Ideal) x y) (lift_d1 b m k)).trans (dist_apply x y b _ m)
  exact congrArg (fun f => Finset.fold min inf32 f (Finset.univ : Finset (Fin 4096))) hf

/-- The two arrays of minima, whole. -/
theorem p2g_array (x y : FVec Ideal S8x4096x3 .f32) :
    val_main_v15 (F := Ideal) x y = fun i => p2gRef x y (i 0) (i 1) :=
  funext fun i => by rw [eq_ix2 i]; exact p2g_eq x y (i 0) (i 1)
theorem g2p_array (x y : FVec Ideal S8x4096x3 .f32) :
    val_main_v16 (F := Ideal) x y = fun i => g2pRef x y (i 0) (i 1) :=
  funext fun i => by rw [eq_ix2 i]; exact g2p_eq x y (i 0) (i 1)

/-! ## The last operations: the three results from the two arrays of minima -/

/-- The first result is the mean over batches of half the sum of the two root-means. -/
theorem res29_eq (x y : FVec Ideal S8x4096x3 .f32) :
    val_main_v29 (F := Ideal) x y
      = res0 reducesTo_S8x4096_S8_d1 reducesTo_S8_S_d0 bcast_S_S8 h_S_
          (val_main_v15 (F := Ideal) x y) (val_main_v16 (F := Ideal) x y) := rfl

/-- The second result is the mean over batches of the root-mean of the minima over m. -/
theorem res31_eq (x y : FVec Ideal S8x4096x3 .f32) :
    val_main_v31 (F := Ideal) x y
      = res1 reducesTo_S8x4096_S8_d1 reducesTo_S8_S_d0 bcast_S_S8 h_S_ (val_main_v15 (F := Ideal) x y) := rfl

/-- The third result is the mean over batches of the root-mean of the minima over n. -/
theorem res33_eq (x y : FVec Ideal S8x4096x3 .f32) :
    val_main_v33 (F := Ideal) x y
      = res1 reducesTo_S8x4096_S8_d1 reducesTo_S8_S_d0 bcast_S_S8 h_S_ (val_main_v16 (F := Ideal) x y) := rfl

theorem results_eq (x y : FVec Ideal S8x4096x3 .f32) :
    val_main_v29 (F := Ideal) x y
        = res0 reducesTo_S8x4096_S8_d1 reducesTo_S8_S_d0 bcast_S_S8 h_S_
            (val_main_v15 (F := Ideal) x y) (val_main_v16 (F := Ideal) x y)
      ∧ val_main_v31 (F := Ideal) x y
        = res1 reducesTo_S8x4096_S8_d1 reducesTo_S8_S_d0 bcast_S_S8 h_S_ (val_main_v15 (F := Ideal) x y)
      ∧ val_main_v33 (F := Ideal) x y
        = res1 reducesTo_S8x4096_S8_d1 reducesTo_S8_S_d0 bcast_S_S8 h_S_ (val_main_v16 (F := Ideal) x y) :=
  ⟨res29_eq x y, res31_eq x y, res33_eq x y⟩

/-! ## The run -/

open Idealize.SL.Sem Idealize.ShloMosaic.TcCoe Idealize.ShloMosaic.StableHlo in
/-- From any memory with zero counters every weakly fair execution of the reference terminates with its three results
    the three means of the two arrays of minima of the launch arguments, and the arguments unchanged. -/
theorem run_ref (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v29)
          = res0 reducesTo_S8x4096_S8_d1 reducesTo_S8_S_d0 bcast_S_S8 h_S_
              (val_main_v15 (F := Ideal) (m' ((c.tc : Thread nD τ).loc main_arg0)) (m' ((c.tc : Thread nD τ).loc main_arg1)))
              (val_main_v16 (F := Ideal) (m' ((c.tc : Thread nD τ).loc main_arg0)) (m' ((c.tc : Thread nD τ).loc main_arg1)))
      ∧ r.2.mem ((c.tc : Thread nD τ).loc main_v31)
          = res1 reducesTo_S8x4096_S8_d1 reducesTo_S8_S_d0 bcast_S_S8 h_S_
              (val_main_v15 (F := Ideal) (m' ((c.tc : Thread nD τ).loc main_arg0)) (m' ((c.tc : Thread nD τ).loc main_arg1)))
      ∧ r.2.mem ((c.tc : Thread nD τ).loc main_v33)
          = res1 reducesTo_S8x4096_S8_d1 reducesTo_S8_S_d0 bcast_S_S8 h_S_
              (val_main_v16 (F := Ideal) (m' ((c.tc : Thread nD τ).loc main_arg0)) (m' ((c.tc : Thread nD τ).loc main_arg1)))
      ∧ r.2.mem ((c.tc : Thread nD τ).loc main_arg0) = m' ((c.tc : Thread nD τ).loc main_arg0)
      ∧ r.2.mem ((c.tc : Thread nD τ).loc main_arg1) = m' ((c.tc : Thread nD τ).loc main_arg1) :=
  (θ_run defs _ _).mono (fun _ h c =>
      ⟨(h c).1.trans ((val_main_v29_eq (F := Ideal) _ _).trans (res29_eq _ _)),
        (h c).2.1.trans ((val_main_v31_eq (F := Ideal) _ _).trans (res31_eq _ _)),
        (h c).2.2.1.trans ((val_main_v33_eq (F := Ideal) _ _).trans (res33_eq _ _)),
        (h c).2.2.2.1, (h c).2.2.2.2⟩)
    (Cert.ReferenceIdeal.Value.run (F := Ideal) m' ρ')

end Cert.ReferenceIdeal.RefValue

end
-- ==== Proof.Assemble.lean ====
/-
  The two programs at the ideal values. The kernel program's three results are the three means of the two
  tile-by-tile arrays of minima of the augmented-product distance; the reference's are the same three means of the
  two one-sweep arrays of minima of the expanded distance. When every coordinate is a real number — which the
  finiteness test on the arguments gives — the two distances agree entry by entry and a running minimum over four
  tiles is the minimum over the whole axis, so the arrays, hence the results, are equal.
-/
import proofs.«150241_j45406394253980_2_alg».proof.Defs
import proofs.«150241_j45406394253980_2_alg».proof.Proof.RefSide
import proofs.«150241_j45406394253980_2_alg».proof.Proof.Algebra
import proofs.«150241_j45406394253980_2_alg».proof.Proof.Vals
import proofs.«150241_j45406394253980_2_alg».proof.Proof.Gen.Kernel
import proofs.«150241_j45406394253980_2_alg».proof.Proof.Gen.KernelIdeal
import proofs.«150241_j45406394253980_2_alg».proof.Proof.Gen.ReferenceIdeal
import proofs.«150241_j45406394253980_2_alg».proof.Proof.Gen.Pre_finite_inputs

noncomputable section

namespace Cert.Proof.Chamfer

open Idealize.ShloMosaic Idealize.SL.Sem Idealize.ShloMosaic.ValueIdx Cert.Chamfer

/-! ## The two arrays of minima, the two ways -/

/-- On real clouds the reference's array of minima over m is the tile-by-tile one. -/
theorem v15_eq_pArr (x y : Cloud) (hx : RealCloud x) (hy : RealCloud y) :
    Cert.ReferenceIdeal.Read.val_main_v15 (F := Ideal) x y = pArr x y := by
  rw [Cert.ReferenceIdeal.RefValue.p2g_array]
  funext i
  exact (p2gKer_eq_p2gRef hx hy (i 0) (i 1)).symm

/-- On real clouds the reference's array of minima over n is the tile-by-tile one. -/
theorem v16_eq_gArr (x y : Cloud) (hx : RealCloud x) (hy : RealCloud y) :
    Cert.ReferenceIdeal.Read.val_main_v16 (F := Ideal) x y = gArr x y := by
  rw [Cert.ReferenceIdeal.RefValue.g2p_array]
  funext i
  exact (g2pKer_eq_g2pRef hx hy (i 0) (i 1)).symm

/-! ## The kernel side's run, as the assembly takes it -/

/-- From any memory with zero counters every weakly fair execution of the kernel program terminates with its three
    results the three means of the two tile-by-tile arrays of minima of the launch arguments, the arguments unchanged. -/
def KRun : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v65)
          = res0 Cert.KernelIdeal.Gen.reducesTo_S8x4096_S8_d1 Cert.KernelIdeal.Gen.reducesTo_S8_S_d0 Cert.KernelIdeal.Gen.bcast_S_S8 Cert.KernelIdeal.Gen.h_S_
              (pArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
              (gArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      ∧ r.2.mem ((c.tc : Thread Cert.KernelIdeal.nD Cert.KernelIdeal.τ).loc Cert.KernelIdeal.main_v67)
          = res1 Cert.KernelIdeal.Gen.reducesTo_S8x4096_S8_d1 Cert.KernelIdeal.Gen.reducesTo_S8_S_d0 Cert.KernelIdeal.Gen.bcast_S_S8 Cert.KernelIdeal.Gen.h_S_
              (pArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      ∧ r.2.mem ((c.tc : Thread Cert.KernelIdeal.nD Cert.KernelIdeal.τ).loc Cert.KernelIdeal.main_v69)
          = res1 Cert.KernelIdeal.Gen.reducesTo_S8x4096_S8_d1 Cert.KernelIdeal.Gen.reducesTo_S8_S_d0 Cert.KernelIdeal.Gen.bcast_S_S8 Cert.KernelIdeal.Gen.h_S_
              (gArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

/-! ## The two programs agree at the ideal values -/

/-- Given the kernel side's run: from memories agreeing on the arguments, finite, both programs run and end with the
    same three results, the arguments unchanged. The kernel's results are the witnesses; the reference's are the same
    means of the one-sweep arrays, which on real clouds are the tile-by-tile arrays. -/
theorem algebraic_of (hrun : KRun) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨_, _, _, hrun m ρ, ?_⟩
  refine (θ_run Cert.ReferenceIdeal.defs _ _).mono (fun _ h c => ?_) (Cert.ReferenceIdeal.RefValue.run_ref m' ρ')
  obtain ⟨h29, h31, h33, ha0, ha1⟩ := h c
  have hxy := real_of_pre _ _ (hpre c)
  have eP : Cert.ReferenceIdeal.Read.val_main_v15 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
      = pArr (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
    rw [(hagree c).1, (hagree c).2]
    exact v15_eq_pArr _ _ hxy.1 hxy.2
  have eG : Cert.ReferenceIdeal.Read.val_main_v16 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
      = gArr (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
    rw [(hagree c).1, (hagree c).2]
    exact v16_eq_gArr _ _ hxy.1 hxy.2
  rw [eP, eG] at h29
  rw [eP] at h31
  rw [eG] at h33
  exact ⟨h29, h31, h33, ha0, ha1⟩

/-- The reference runs and leaves its arguments unchanged: its run with the results dropped. -/
theorem frame_ref :
    Cert.frame_ReferenceIdeal (hReferenceIdeal := Cert.ReferenceIdeal.Gen.facts)
      (hPre_finite_inputs := Cert.Pre_finite_inputs.Gen.facts) := by
  intro m g _
  exact (θ_run Cert.ReferenceIdeal.defs _ _).mono (fun _ h c => ⟨(h c).2.2.2.1, (h c).2.2.2.2⟩)
    (Cert.ReferenceIdeal.Value.run (F := Ideal) m g)

end Cert.Proof.Chamfer

end
-- ==== Proof.lean ====
/-
  The claim, assembled.

  The kernel program computes, for two clouds x, y of 8 × 4096 points in 3-space, the squared distance from each
  point to the nearest point of the other cloud (clamped below by 0), then the root-mean per batch and three means of
  those. It forms the distances as ONE inner product of augmented 8-vectors built on the host,
      (−2x₀, −2x₁, −2x₂, |x|², 1, 0, 0, 0) · (y₀, y₁, y₂, 1, |y|², 0, 0, 0),
  over a grid of 8 × 4 × 4 tiles of 1024 × 1024, keeping running minima of the rows across the column tiles and of
  the columns across the row tiles; the reference forms |x|² + |y|² − 2⟨x, y⟩ directly and takes each minimum in one
  sweep. Over the extended reals the two distances agree exactly when the coordinates are real (distributivity fails
  at infinities) — which the precondition gives —, a minimum over 4096 entries is the minimum of its four tile
  minima, and the tails after the two arrays of minima are one and the same sequence of operations.

  Frames: both kernel programs run to the end with their arguments unchanged (the same proof at either float
  instance: the body is run once per case of its two branches — both minima reset, the row minima reset, neither —
  and the buffers' contents after each grid point are named by recursion on the point); the reference is a straight
  line of host operations. The idealization rewrote no operation, so `preserves` is `True`.
-/
import proofs.«150241_j45406394253980_2_alg».proof.Defs
import proofs.«150241_j45406394253980_2_alg».proof.Proof.Gen.Kernel
import proofs.«150241_j45406394253980_2_alg».proof.Proof.Gen.KernelIdeal
import proofs.«150241_j45406394253980_2_alg».proof.Proof.Gen.ReferenceIdeal
import proofs.«150241_j45406394253980_2_alg».proof.Proof.Gen.Pre_finite_inputs
import proofs.«150241_j45406394253980_2_alg».proof.Proof.KB.Frame
import proofs.«150241_j45406394253980_2_alg».proof.Proof.KI.Final
import proofs.«150241_j45406394253980_2_alg».proof.Proof.Assemble

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Fr.frame m ρ,
    fun m ρ _ => Cert.KernelIdeal.Fr.frame m ρ,
    Cert.Proof.Chamfer.frame_ref,
    trivial,
    Cert.Proof.Chamfer.algebraic_of fun m ρ => Cert.KernelIdeal.Fr.run_values m ρ⟩

end Cert.Proof

end
